-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v37)) (v3 : (c : Dev Cert.KernelIdeal.nD) → Buf (Elt Ideal) ((c.tc : Thread Cert.KernelIdeal.nD Cert.KernelIdeal.τ).loc Cert.KernelIdeal.main_v39)) (v4 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v37) = v2 c
          ∧ r.2.mem ((c.tc : Thread Cert.KernelIdeal.nD Cert.KernelIdeal.τ).loc Cert.KernelIdeal.main_v39) = v3 c
          ∧ r.2.mem ((c.tc : Thread Cert.KernelIdeal.nD Cert.KernelIdeal.τ).loc Cert.KernelIdeal.main_v11_1) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v44) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_v54) = v3 c
          ∧ r.2.mem ((c.tc : Thread Cert.ReferenceIdeal.nD Cert.ReferenceIdeal.τ).loc Cert.ReferenceIdeal.main_v58) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S800000x2 : Shape := ⟨2, ![800000, 2]⟩
abbrev S256x128 : Shape := ⟨2, ![256, 128]⟩
abbrev S128 : Shape := ⟨1, ![128]⟩
abbrev S512x128 : Shape := ⟨2, ![512, 128]⟩
abbrev S256x1 : Shape := ⟨2, ![256, 1]⟩
abbrev S1 : Shape := ⟨1, ![1]⟩
abbrev S128x2048 : Shape := ⟨2, ![128, 2048]⟩
abbrev S2048 : Shape := ⟨1, ![2048]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S512x128 : S_.BroadcastsInDim S512x128 (![] : Fin 0 → Fin S512x128.rank)
  reducesTo_S512x128_S_d0_1 : S512x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_
  bcast_S_S128x2048 : S_.BroadcastsInDim S128x2048 (![] : Fin 0 → Fin S128x2048.rank)
  reducesTo_S128x2048_S_d0_1 : S128x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg12 : FVec F S2048 .f32) (main_v48 : IVec S_ 1) (main_v49 : FVec F S128x2048 .f32) (main_v50 : FVec F S128x2048 .f32) : IVec S_ 1 :=
  let main_v51 : IVec S128x2048 1 := cmpf .olt main_v49 main_v50
  let main_c_19 : IVec S_ 1 := constantI S_ 1 1#1
  let main_v52 : IVec S_ 1 := (fun x v => Host.reduce IntOp.andi x v reducesTo_S128x2048_S_d0_1 h_S_) main_v51 main_c_19
  let main_v53 : IVec S_ 1 := andi main_v48 main_v52
  let main_v54 : FVec F S2048 .f32 := Host.absf main_arg12
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg8 : FVec F S1 .f32) (main_arg9 : FVec F S256x1 .f32) (main_arg10 : FVec F S1 .f32) (main_arg11 : FVec F S128x2048 .f32) (main_arg12 : FVec F S2048 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S256x1 .f32 := Host.absf main_arg9
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S128x2048 .f32 := Host.absf main_arg11
  let main_cst_18 : FVec F S_ .f32 := constant S_ .f32 0x7F800000#32
  let main_v50 : FVec F S128x2048 .f32 := broadcastInDim S128x2048 ![] bcast_S_S128x2048 main_cst_18
  fn_part3 (F := F) main_arg12 main_v48 main_v49 main_v50

def fn_part1 {F : FTy → Type} [FloatOps F] (main_arg5 : FVec F S256x1 .f32) (main_arg6 : FVec F S1 .f32) (main_arg7 : FVec F S256x1 .f32) (main_arg8 : FVec F S1 .f32) (main_arg9 : FVec F S256x1 .f32) (main_arg10 : FVec F S1 .f32) (main_arg11 : FVec F S128x2048 .f32) (main_arg12 : FVec F S2048 .f32) (main_v13 : IVec S_ 1) (main_v16 : IVec S512x128 1) : IVec S_ 1 :=
  let main_c_5 : IVec S_ 1 := constantI S_ 1 1#1
  let main_v17 : IVec S_ 1 := (fun x v => Host.reduce IntOp.andi x v reducesTo_S512x128_S_d0_1 h_S_) main_v16 main_c_5
  let main_v18 : IVec S_ 1 := andi main_v13 main_v17
  let main_v19 : FVec F S256x1 .f32 := Host.absf main_arg5
  let main_cst_6 : FVec F S_ .f32 := constant S_ .f32 0x7F800000#32
  let main_v20 : FVec F S256x1 .f32 := broadcastInDim S256x1 ![] bcast_S_S256x1 main_cst_6
  let main_v21 : IVec S256x1 1 := cmpf .olt main_v19 main_v20
  let main_c_7 : IVec S_ 1 := constantI S_ 1 1#1
  let main_v22 : IVec S_ 1 := (fun x v => Host.reduce IntOp.andi x v reducesTo_S256x1_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_v29 : FVec F S256x1 .f32 := Host.absf main_arg7
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000x256 .f32) (main_arg1 : IVec S800000x2 32) (main_arg2 : FVec F S256x128 .f32) (main_arg3 : FVec F S128 .f32) (main_arg4 : FVec F S512x128 .f32) (main_arg5 : FVec F S256x1 .f32) (main_arg6 : FVec F S1 .f32) (main_arg7 : FVec F S256x1 .f32) (main_arg8 : FVec F S1 .f32) (main_arg9 : FVec F S256x1 .f32) (main_arg10 : FVec F S1 .f32) (main_arg11 : FVec F S128x2048 .f32) (main_arg12 : FVec F S2048 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S512x128 .f32 := Host.absf main_arg4
  let main_cst_4 : FVec F S_ .f32 := constant S_ .f32 0x7F800000#32
  let main_v15 : FVec F S512x128 .f32 := broadcastInDim S512x128 ![] bcast_S_S512x128 main_cst_4
  let main_v16 : IVec S512x128 1 := cmpf .olt main_v14 main_v15
  fn_part1 (F := F) main_arg5 main_arg6 main_arg7 main_arg8 main_arg9 main_arg10 main_arg11 main_arg12 main_v13 main_v16
-- ==== Kernel.lean ====
abbrev S100000x256 : Shape := ⟨2, ![100000, 256]⟩
abbrev S800000x2 : Shape := ⟨2, ![800000, 2]⟩
abbrev S256x128 : Shape := ⟨2, ![256, 128]⟩
abbrev S128 : Shape := ⟨1, ![128]⟩
abbrev S512x128 : Shape := ⟨2, ![512, 128]⟩
abbrev S256x1 : Shape := ⟨2, ![256, 1]⟩
abbrev S1 : Shape := ⟨1, ![1]⟩
abbrev S128x2048 : Shape := ⟨2, ![128, 2048]⟩
abbrev S2048 : Shape := ⟨1, ![2048]⟩
abbrev S128x512 : Shape := ⟨2, ![128, 512]⟩
abbrev S128x1 : Shape := ⟨2, ![128, 1]⟩
abbrev S128x3 : Shape := ⟨2, ![128, 3]⟩
abbrev S3 : Shape := ⟨1, ![3]⟩
abbrev S100000x128 : Shape := ⟨2, ![100000, 128]⟩
abbrev S100000x2048 : Shape := ⟨2, ![100000, 2048]⟩
abbrev S100000x3 : Shape := ⟨2, ![100000, 3]⟩
abbrev S1000x256 : Shape := ⟨2, ![1000, 256]⟩
abbrev S1000x128 : Shape := ⟨2, ![1000, 128]⟩
abbrev S1000x2048 : Shape := ⟨2, ![1000, 2048]⟩
abbrev S1000x3 : Shape := ⟨2, ![1000, 3]⟩
abbrev S1x128 : Shape := ⟨2, ![1, 128]⟩
abbrev S1000x512 : Shape := ⟨2, ![1000, 512]⟩
abbrev S1000 : Shape := ⟨1, ![1000]⟩
abbrev S1000x1 : Shape := ⟨2, ![1000, 1]⟩
abbrev S1x2048 : Shape := ⟨2, ![1, 2048]⟩
abbrev S800000x1 : Shape := ⟨2, ![800000, 1]⟩
abbrev S800000 : Shape := ⟨1, ![800000]⟩
abbrev S_ : Shape := ⟨0, ![]⟩
abbrev S800000x3 : Shape := ⟨2, ![800000, 3]⟩
abbrev S1x3 : Shape := ⟨2, ![1, 3]⟩

abbrev nBuf : Space → Nat
  | .hbm => 60
  | .vmem => 18
  | .smem => 0
  | _ => 0

abbrev bufTy : (tb : Table) → Fin (tcTables nBuf tb) → BufTy
  | .hbm, ⟨0, _⟩ => ⟨S100000x256, .f32⟩
  | .hbm, ⟨1, _⟩ => ⟨S800000x2, .i32⟩
  | .hbm, ⟨2, _⟩ => ⟨S256x128, .f32⟩
  | .hbm, ⟨3, _⟩ => ⟨S128, .f32⟩
  | .hbm, ⟨4, _⟩ => ⟨S512x128, .f32⟩
  | .hbm, ⟨5, _⟩ => ⟨S256x1, .f32⟩
  | .hbm, ⟨6, _⟩ => ⟨S1, .f32⟩
  | .hbm, ⟨7, _⟩ => ⟨S256x1, .f32⟩
  | .hbm, ⟨8, _⟩ => ⟨S1, .f32⟩
  | .hbm, ⟨9, _⟩ => ⟨S256x1, .f32⟩
  | .hbm, ⟨10, _⟩ => ⟨S1, .f32⟩
  | .hbm, ⟨11, _⟩ => ⟨S128x2048, .f32⟩
  | .hbm, ⟨12, _⟩ => ⟨S2048, .f32⟩
  | .hbm, ⟨13, _⟩ => ⟨S128x512, .f32⟩
  | .hbm, ⟨14, _⟩ => ⟨S128x1, .f32⟩
  | .hbm, ⟨15, _⟩ => ⟨S128x1, .f32⟩
  | .hbm, ⟨16, _⟩ => ⟨S128x1, .f32⟩
  | .hbm, ⟨17, _⟩ => ⟨S128x3, .f32⟩
  | .hbm, ⟨18, _⟩ => ⟨S128x1, .f32⟩
  | .hbm, ⟨19, _⟩ => ⟨S128x1, .f32⟩
  | .hbm, ⟨20, _⟩ => ⟨S128x1, .f32⟩
  | .hbm, ⟨21, _⟩ => ⟨S128x3, .f32⟩
  | .hbm, ⟨22, _⟩ => ⟨S3, .f32⟩
  | .hbm, ⟨23, _⟩ => ⟨S128x2048, .bf16⟩
  | .hbm, ⟨24, _⟩ => ⟨S100000x128, .f32⟩
  | .hbm, ⟨25, _⟩ => ⟨S100000x2048, .f32⟩
  | .hbm, ⟨26, _⟩ => ⟨S100000x3, .f32⟩
  | .hbm, ⟨27, _⟩ => ⟨S100000x3, .f32⟩
  | .hbm, ⟨28, _⟩ => ⟨S800000x1, .i32⟩
  | .hbm, ⟨29, _⟩ => ⟨S800000, .i32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S800000x3, .f32⟩
  | .hbm, ⟨39, _⟩ => ⟨S800000x1, .i32⟩
  | .hbm, ⟨40, _⟩ => ⟨S800000, .i32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x3, .f32⟩
  | .hbm, ⟨50, _⟩ => ⟨S800000x3, .f32⟩
  | .hbm, ⟨51, _⟩ => ⟨S1x3, .f32⟩
  | .hbm, ⟨52, _⟩ => ⟨S800000x3, .f32⟩
  | .hbm, ⟨53, _⟩ => ⟨S800000x3, .f32⟩
  | .hbm, ⟨54, _⟩ => ⟨S800000x1, .f32⟩
  | .hbm, ⟨55, _⟩ => ⟨S800000, .f32⟩
  | .hbm, ⟨56, _⟩ => ⟨S800000x1, .f32⟩
  | .hbm, ⟨57, _⟩ => ⟨S800000, .f32⟩
  | .hbm, ⟨58, _⟩ => ⟨S800000x1, .f32⟩
  | .hbm, ⟨59, _⟩ => ⟨S800000, .f32⟩
  | .local _ .vmem, ⟨0, _⟩ => ⟨S1000x256, .f32⟩
  | .local _ .vmem, ⟨1, _⟩ => ⟨S1000x256, .f32⟩
  | .local _ .vmem, ⟨2, _⟩ => ⟨S256x128, .f32⟩
  | .local _ .vmem, ⟨3, _⟩ => ⟨S128, .f32⟩
  | .local _ .vmem, ⟨4, _⟩ => ⟨S512x128, .f32⟩
  | .local _ .vmem, ⟨5, _⟩ => ⟨S128x512, .f32⟩
  | .local _ .vmem, ⟨6, _⟩ => ⟨S128x2048, .bf16⟩
  | .local _ .vmem, ⟨7, _⟩ => ⟨S2048, .f32⟩
  | .local _ .vmem, ⟨8, _⟩ => ⟨S128x3, .f32⟩
  | .local _ .vmem, ⟨9, _⟩ => ⟨S128x3, .f32⟩
  | .local _ .vmem, ⟨10, _⟩ => ⟨S1000x128, .f32⟩
  | .local _ .vmem, ⟨11, _⟩ => ⟨S1000x128, .f32⟩
  | .local _ .vmem, ⟨12, _⟩ => ⟨S1000x2048, .f32⟩
  | .local _ .vmem, ⟨13, _⟩ => ⟨S1000x2048, .f32⟩
  | .local _ .vmem, ⟨14, _⟩ => ⟨S1000x3, .f32⟩
  | .local _ .vmem, ⟨15, _⟩ => ⟨S1000x3, .f32⟩
  | .local _ .vmem, ⟨16, _⟩ => ⟨S1000x3, .f32⟩
  | .local _ .vmem, ⟨17, _⟩ => ⟨S1000x3, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11_0 : Ref sig .tc := ⟨.hbm, 24, rfl⟩
abbrev main_v11_1 : Ref sig .tc := ⟨.hbm, 25, rfl⟩
abbrev main_v11_2 : Ref sig .tc := ⟨.hbm, 26, rfl⟩
abbrev main_v11_3 : Ref sig .tc := ⟨.hbm, 27, rfl⟩
abbrev main_v12 : Ref sig .tc := ⟨.hbm, 28, rfl⟩
abbrev main_v13 : Ref sig .tc := ⟨.hbm, 29, rfl⟩
abbrev main_c : Ref sig .tc := ⟨.hbm, 30, rfl⟩
abbrev main_v14 : Ref sig .tc := ⟨.hbm, 31, rfl⟩
abbrev main_v15 : Ref sig .tc := ⟨.hbm, 32, rfl⟩
abbrev main_c_0 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_1 : Ref sig .tc := ⟨.hbm, 41, rfl⟩
abbrev main_v23 : Ref sig .tc := ⟨.hbm, 42, rfl⟩
abbrev main_v24 : Ref sig .tc := ⟨.hbm, 43, rfl⟩
abbrev main_c_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1000x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1000x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1000x3 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  transposes_S512x128_S128x512_1_0 : S512x128.Transposes [1, 0] S128x512
  slices_S256x1_S128x1_0_0 : S256x1.Slices ![0, 0] S128x1
  concatenates_S128x1_S128x1_S128x1_S128x3_d1 : Shape.Concatenates [S128x1, S128x1, S128x1] S128x3 1
  slices_S256x1_S128x1_128_0 : S256x1.Slices ![128, 0] S128x1
  concatenates_S1_S1_S1_S3_d0 : Shape.Concatenates [S1, S1, S1] S3 0
  bitsLt_bf16_f32 : FTy.bits .bf16 < FTy.bits .f32
  inb_S1000x256_S1000x256_0_0 : ∀ a, (![0, 0] : Fin 2 → Nat) a + S1000x256.size a ≤ S1000x256.size a
  h_S1000x256 : 0 < S1000x256.numel
  inb_S256x128_S256x128_0_0 : ∀ a, (![0, 0] : Fin 2 → Nat) a + S256x128.size a ≤ S256x128.size a
  h_S256x128 : 0 < S256x128.numel
  inb_S128_S128_0 : ∀ a, (![0] : Fin 1 → Nat) a + S128.size a ≤ S128.size a
  h_S128 : 0 < S128.numel
  shapeCasts_S128_S1x128 : S128.ShapeCasts S1x128
  broadcasts_S1x128_S1000x128 : S1x128.Broadcasts S1000x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  reduces_S1000x512_S1000 : S1000x512.Reduces [1] S1000
  shapeCasts_S1000_S1000x1 : S1000.ShapeCasts S1000x1
  broadcasts_S1000x1_S1000x512 : S1000x1.Broadcasts S1000x512
  inb_S512x128_S512x128_0_0 : ∀ a, (![0, 0] : Fin 2 → Nat) a + S512x128.size a ≤ S512x128.size a
  h_S512x128 : 0 < S512x128.numel
  inb_S1000x128_S1000x128_0_0 : ∀ a, (![0, 0] : Fin 2 → Nat) a + S1000x128.size a ≤ S1000x128.size a
  h_S1000x128 : 0 < S1000x128.numel
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S1000x2048 : S1x2048.Broadcasts S1000x2048
  inb_S1000x2048_S1000x2048_0_0 : ∀ a, (![0, 0] : Fin 2 → Nat) a + S1000x2048.size a ≤ S1000x2048.size a
  h_S1000x2048 : 0 < S1000x2048.numel
  inb_S128x3_S128x3_0_0 : ∀ a, (![0, 0] : Fin 2 → Nat) a + S128x3.size a ≤ S128x3.size a
  h_S128x3 : 0 < S128x3.numel
  shapeCasts_S128x3_S128x3 : S128x3.ShapeCasts S128x3
  inb_S1000x3_S1000x3_0_0 : ∀ a, (![0, 0] : Fin 2 → Nat) a + S1000x3.size a ≤ S1000x3.size a
  h_S1000x3 : 0 < S1000x3.numel
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  bcast_S3_S1x3_1 : S3.BroadcastsInDim S1x3 (![1] : Fin 1 → Fin S1x3.rank)
  bcast_S1x3_S800000x3_0_1 : S1x3.BroadcastsInDim S800000x3 (![0, 1] : Fin 2 → Fin S800000x3.rank)
  slices_S800000x3_S800000x1_0_0 : S800000x3.Slices ![0, 0] S800000x1
  slices_S800000x3_S800000x1_0_1 : S800000x3.Slices ![0, 1] S800000x1
  slices_S800000x3_S800000x1_0_2 : S800000x3.Slices ![0, 2] S800000x1
  dot_S1000x256_S256x128_S1000x128_1_0_0_1_n_n_wf : DotDims.WF S1000x256 S256x128 S1000x128 [1] [0] [0] [1] [] []
  dot_S1000x128_S128x512_S1000x512_1_0_0_1_n_n_wf : DotDims.WF S1000x128 S128x512 S1000x512 [1] [0] [0] [1] [] []
  dot_S1000x512_S512x128_S1000x128_1_0_0_1_n_n_wf : DotDims.WF S1000x512 S512x128 S1000x128 [1] [0] [0] [1] [] []
  dot_S1000x128_S128x2048_S1000x2048_1_0_0_1_n_n_wf : DotDims.WF S1000x128 S128x2048 S1000x2048 [1] [0] [0] [1] [] []
  dot_S1000x128_S128x3_S1000x3_1_0_0_1_n_n_wf : DotDims.WF S1000x128 S128x3 S1000x3 [1] [0] [0] [1] [] []
  gather_S100000x3_S800000x1_S800000x3_1_0_n_n_0_1_13_wf : GatherDims.WF S100000x3 S800000x1 S800000x3 [1] [0] [] [0] [] 1 ![1, 3]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x256.size a ≤ S100000x256.size a
  hwx0_0 : ∀ i : grid0.Coords, EltTy.bits .f32 = 32 ∨ (Rect.block (s := S100000x256) S1000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x128.size a ≤ S512x128.size a
  hwx0_3 : ∀ i : grid0.Coords, EltTy.bits .f32 = 32 ∨ (Rect.block (s := S512x128) S512x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x512.size a ≤ S128x512.size a
  hwx0_4 : ∀ i : grid0.Coords, EltTy.bits .f32 = 32 ∨ (Rect.block (s := S128x512) S128x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S128x2048.size a
  hwx0_5 : ∀ i : grid0.Coords, EltTy.bits .bf16 = 32 ∨ (Rect.block (s := S128x2048) S128x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048.size a ≤ S2048.size a
  hwx0_6 : ∀ i : grid0.Coords, EltTy.bits .f32 = 32 ∨ (Rect.block (s := S2048) S2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3.size a ≤ S128x3.size a
  hwx0_7 : ∀ i : grid0.Coords, EltTy.bits .f32 = 32 ∨ (Rect.block (s := S128x3) S128x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x3.size a ≤ S128x3.size a
  hwx0_8 : ∀ i : grid0.Coords, EltTy.bits .f32 = 32 ∨ (Rect.block (s := S128x3) S128x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1000x128.size a ≤ S100000x128.size a
  hwx0_9 : ∀ i : grid0.Coords, EltTy.bits .f32 = 32 ∨ (Rect.block (s := S100000x128) S1000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1000x2048.size a ≤ S100000x2048.size a
  hwx0_10 : ∀ i : grid0.Coords, EltTy.bits .f32 = 32 ∨ (Rect.block (s := S100000x2048) S1000x2048.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1000x3.size a ≤ S100000x3.size a
  hwx0_11 : ∀ i : grid0.Coords, EltTy.bits .f32 = 32 ∨ (Rect.block (s := S100000x3) S1000x3.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1000x3.size a ≤ S100000x3.size a
  hwx0_12 : ∀ i : grid0.Coords, EltTy.bits .f32 = 32 ∨ (Rect.block (s := S100000x3) S1000x3.size (cc0_transform_12 i) (hinb0_12 i)).WholeWords (EltTy.packing .f32)

variable [Facts₀]

def dot_S1000x256_S256x128_S1000x128_1_0_0_1_n_n : DotDims S1000x256 S256x128 S1000x128 where
  lhsContracting := [1]
  rhsContracting := [0]
  lhsNonContracting := [0]
  rhsNonContracting := [1]
  lhsBatch := []
  rhsBatch := []
  wf := dot_S1000x256_S256x128_S1000x128_1_0_0_1_n_n_wf
def dot_S1000x128_S128x512_S1000x512_1_0_0_1_n_n : DotDims S1000x128 S128x512 S1000x512 where
  lhsContracting := [1]
  rhsContracting := [0]
  lhsNonContracting := [0]
  rhsNonContracting := [1]
  lhsBatch := []
  rhsBatch := []
  wf := dot_S1000x128_S128x512_S1000x512_1_0_0_1_n_n_wf
def dot_S1000x512_S512x128_S1000x128_1_0_0_1_n_n : DotDims S1000x512 S512x128 S1000x128 where
  lhsContracting := [1]
  rhsContracting := [0]
  lhsNonContracting := [0]
  rhsNonContracting := [1]
  lhsBatch := []
  rhsBatch := []
  wf := dot_S1000x512_S512x128_S1000x128_1_0_0_1_n_n_wf
def dot_S1000x128_S128x2048_S1000x2048_1_0_0_1_n_n : DotDims S1000x128 S128x2048 S1000x2048 where
  lhsContracting := [1]
  rhsContracting := [0]
  lhsNonContracting := [0]
  rhsNonContracting := [1]
  lhsBatch := []
  rhsBatch := []
  wf := dot_S1000x128_S128x2048_S1000x2048_1_0_0_1_n_n_wf
def dot_S1000x128_S128x3_S1000x3_1_0_0_1_n_n : DotDims S1000x128 S128x3 S1000x3 where
  lhsContracting := [1]
  rhsContracting := [0]
  lhsNonContracting := [0]
  rhsNonContracting := [1]
  lhsBatch := []
  rhsBatch := []
  wf := dot_S1000x128_S128x3_S1000x3_1_0_0_1_n_n_wf
def gather_S100000x3_S800000x1_S800000x3_1_0_n_n_0_1_13 : GatherDims S100000x3 S800000x1 S800000x3 where
  offsetDims := [1]
  collapsedSliceDims := [0]
  operandBatchingDims := []
  startIndicesBatchingDims := []
  startIndexMap := [0]
  indexVectorDim := 1
  sliceSizes := ![1, 3]
  wf := gather_S100000x3_S800000x1_S800000x3_1_0_n_n_0_1_13_wf

abbrev win0_0 : Pipeline.Window sig grid0 :=
  Pipeline.Window.ofSpec (Memref.whole main_arg0) S1000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S512x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S128x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S128x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg12) S2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S128x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S128x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11_0) S1000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v11_1) S1000x2048.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11_2) S1000x3.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v11_3) S1000x3.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S100000x256 : Shape := ⟨2, ![100000, 256]⟩
abbrev S800000x2 : Shape := ⟨2, ![800000, 2]⟩
abbrev S256x128 : Shape := ⟨2, ![256, 128]⟩
abbrev S128 : Shape := ⟨1, ![128]⟩
abbrev S512x128 : Shape := ⟨2, ![512, 128]⟩
abbrev S256x1 : Shape := ⟨2, ![256, 1]⟩
abbrev S1 : Shape := ⟨1, ![1]⟩
abbrev S128x2048 : Shape := ⟨2, ![128, 2048]⟩
abbrev S2048 : Shape := ⟨1, ![2048]⟩
abbrev S100000x128 : Shape := ⟨2, ![100000, 128]⟩
abbrev S1x128 : Shape := ⟨2, ![1, 128]⟩
abbrev S128x512 : Shape := ⟨2, ![128, 512]⟩
abbrev S100000x512 : Shape := ⟨2, ![100000, 512]⟩
abbrev S_ : Shape := ⟨0, ![]⟩
abbrev S100000 : Shape := ⟨1, ![100000]⟩
abbrev S100000x1 : Shape := ⟨2, ![100000, 1]⟩
abbrev S800000x1 : Shape := ⟨2, ![800000, 1]⟩
abbrev S800000 : Shape := ⟨1, ![800000]⟩
abbrev S800000x128 : Shape := ⟨2, ![800000, 128]⟩
abbrev S800000x256 : Shape := ⟨2, ![800000, 256]⟩
abbrev S1x1 : Shape := ⟨2, ![1, 1]⟩
abbrev S100000x2048 : Shape := ⟨2, ![100000, 2048]⟩
abbrev S1x2048 : Shape := ⟨2, ![1, 2048]⟩

abbrev nBuf : Space → Nat
  | .hbm => 80
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S800000x2, .i32⟩
  | .hbm, ⟨2, _⟩ => ⟨S256x128, .f32⟩
  | .hbm, ⟨3, _⟩ => ⟨S128, .f32⟩
  | .hbm, ⟨4, _⟩ => ⟨S512x128, .f32⟩
  | .hbm, ⟨5, _⟩ => ⟨S256x1, .f32⟩
  | .hbm, ⟨6, _⟩ => ⟨S1, .f32⟩
  | .hbm, ⟨7, _⟩ => ⟨S256x1, .f32⟩
  | .hbm, ⟨8, _⟩ => ⟨S1, .f32⟩
  | .hbm, ⟨9, _⟩ => ⟨S256x1, .f32⟩
  | .hbm, ⟨10, _⟩ => ⟨S1, .f32⟩
  | .hbm, ⟨11, _⟩ => ⟨S128x2048, .f32⟩
  | .hbm, ⟨12, _⟩ => ⟨S2048, .f32⟩
  | .hbm, ⟨13, _⟩ => ⟨S100000x128, .f32⟩
  | .hbm, ⟨14, _⟩ => ⟨S1x128, .f32⟩
  | .hbm, ⟨15, _⟩ => ⟨S100000x128, .f32⟩
  | .hbm, ⟨16, _⟩ => ⟨S100000x128, .f32⟩
  | .hbm, ⟨17, _⟩ => ⟨S100000x128, .f32⟩
  | .hbm, ⟨18, _⟩ => ⟨S128x512, .f32⟩
  | .hbm, ⟨19, _⟩ => ⟨S100000x512, .f32⟩
  | .hbm, ⟨20, _⟩ => ⟨S_, .f32⟩
  | .hbm, ⟨21, _⟩ => ⟨S100000x512, .f32⟩
  | .hbm, ⟨22, _⟩ => ⟨S100000x512, .f32⟩
  | .hbm, ⟨23, _⟩ => ⟨S_, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x512, .f32⟩
  | .hbm, ⟨30, _⟩ => ⟨S100000x512, .f32⟩
  | .hbm, ⟨31, _⟩ => ⟨S100000x512, .f32⟩
  | .hbm, ⟨32, _⟩ => ⟨S_, .f32⟩
  | .hbm, ⟨33, _⟩ => ⟨S100000, .f32⟩
  | .hbm, ⟨34, _⟩ => ⟨S100000x1, .f32⟩
  | .hbm, ⟨35, _⟩ => ⟨S100000x512, .f32⟩
  | .hbm, ⟨36, _⟩ => ⟨S100000x512, .f32⟩
  | .hbm, ⟨37, _⟩ => ⟨S100000x128, .f32⟩
  | .hbm, ⟨38, _⟩ => ⟨S800000x1, .i32⟩
  | .hbm, ⟨39, _⟩ => ⟨S800000, .i32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S800000x1, .i32⟩
  | .hbm, ⟨50, _⟩ => ⟨S800000, .i32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S800000x256, .f32⟩
  | .hbm, ⟨61, _⟩ => ⟨S800000x1, .f32⟩
  | .hbm, ⟨62, _⟩ => ⟨S1x1, .f32⟩
  | .hbm, ⟨63, _⟩ => ⟨S800000x1, .f32⟩
  | .hbm, ⟨64, _⟩ => ⟨S800000x1, .f32⟩
  | .hbm, ⟨65, _⟩ => ⟨S800000, .f32⟩
  | .hbm, ⟨66, _⟩ => ⟨S800000x1, .f32⟩
  | .hbm, ⟨67, _⟩ => ⟨S1x1, .f32⟩
  | .hbm, ⟨68, _⟩ => ⟨S800000x1, .f32⟩
  | .hbm, ⟨69, _⟩ => ⟨S800000x1, .f32⟩
  | .hbm, ⟨70, _⟩ => ⟨S800000, .f32⟩
  | .hbm, ⟨71, _⟩ => ⟨S800000x1, .f32⟩
  | .hbm, ⟨72, _⟩ => ⟨S1x1, .f32⟩
  | .hbm, ⟨73, _⟩ => ⟨S800000x1, .f32⟩
  | .hbm, ⟨74, _⟩ => ⟨S800000x1, .f32⟩
  | .hbm, ⟨75, _⟩ => ⟨S800000, .f32⟩
  | .hbm, ⟨76, _⟩ => ⟨S100000x2048, .f32⟩
  | .hbm, ⟨77, _⟩ => ⟨S1x2048, .f32⟩
  | .hbm, ⟨78, _⟩ => ⟨S100000x2048, .f32⟩
  | .hbm, ⟨79, _⟩ => ⟨S100000x2048, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_cst_1 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S512x128_S128x512_1_0 : S512x128.Transposes [1, 0] S128x512
  bcast_S_S100000x512 : S_.BroadcastsInDim S100000x512 (![] : Fin 0 → Fin S100000x512.rank)
  reducesTo_S100000x512_S100000_d1 : S100000x512.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x512_0_1 : S100000x1.BroadcastsInDim S100000x512 (![0, 1] : Fin 2 → Fin S100000x512.rank)
  slices_S800000x2_S800000x1_0_0 : S800000x2.Slices ![0, 0] S800000x1
  shapeCasts_S800000x1_S800000 : S800000x1.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S800000x2_S800000x1_0_1 : S800000x2.Slices ![0, 1] S800000x1
  concatenates_S800000x128_S800000x128_S800000x256_d1 : Shape.Concatenates [S800000x128, S800000x128] S800000x256 1
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S2048_S1x2048_1 : S2048.BroadcastsInDim S1x2048 (![1] : Fin 1 → Fin S1x2048.rank)
  bcast_S1x2048_S100000x2048_0_1 : S1x2048.BroadcastsInDim S100000x2048 (![0, 1] : Fin 2 → Fin S100000x2048.rank)
  dot_S100000x256_S256x128_S100000x128_1_0_0_1_n_n_wf : DotDims.WF S100000x256 S256x128 S100000x128 [1] [0] [0] [1] [] []
  dot_S100000x128_S128x512_S100000x512_1_0_0_1_n_n_wf : DotDims.WF S100000x128 S128x512 S100000x512 [1] [0] [0] [1] [] []
  dot_S100000x512_S512x128_S100000x128_1_0_0_1_n_n_wf : DotDims.WF S100000x512 S512x128 S100000x128 [1] [0] [0] [1] [] []
  gather_S100000x128_S800000x1_S800000x128_1_0_n_n_0_1_1128_wf : GatherDims.WF S100000x128 S800000x1 S800000x128 [1] [0] [] [0] [] 1 ![1, 128]
  dot_S800000x256_S256x1_S800000x1_1_0_0_1_n_n_wf : DotDims.WF S800000x256 S256x1 S800000x1 [1] [0] [0] [1] [] []
  dot_S100000x128_S128x2048_S100000x2048_1_0_0_1_n_n_wf : DotDims.WF S100000x128 S128x2048 S100000x2048 [1] [0] [0] [1] [] []

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def dot_S100000x128_S128x512_S100000x512_1_0_0_1_n_n : DotDims S100000x128 S128x512 S100000x512 where
  lhsContracting := [1]
  rhsContracting := [0]
  lhsNonContracting := [0]
  rhsNonContracting := [1]
  lhsBatch := []
  rhsBatch := []
  wf := dot_S100000x128_S128x512_S100000x512_1_0_0_1_n_n_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S800000x1_S800000x128_1_0_n_n_0_1_1128 : GatherDims S100000x128 S800000x1 S800000x128 where
  offsetDims := [1]
  collapsedSliceDims := [0]
  operandBatchingDims := []
  startIndicesBatchingDims := []
  startIndexMap := [0]
  indexVectorDim := 1
  sliceSizes := ![1, 128]
  wf := gather_S100000x128_S800000x1_S800000x128_1_0_n_n_0_1_1128_wf
def dot_S800000x256_S256x1_S800000x1_1_0_0_1_n_n : DotDims S800000x256 S256x1 S800000x1 where
  lhsContracting := [1]
  rhsContracting := [0]
  lhsNonContracting := [0]
  rhsNonContracting := [1]
  lhsBatch := []
  rhsBatch := []
  wf := dot_S800000x256_S256x1_S800000x1_1_0_0_1_n_n_wf
def dot_S100000x128_S128x2048_S100000x2048_1_0_0_1_n_n : DotDims S100000x128 S128x2048 S100000x2048 where
  lhsContracting := [1]
  rhsContracting := [0]
  lhsNonContracting := [0]
  rhsNonContracting := [1]
  lhsBatch := []
  rhsBatch := []
  wf := dot_S100000x128_S128x2048_S100000x2048_1_0_0_1_n_n_wf

class Facts : Prop extends Facts₀ where

variable [Facts]
-- ==== Proof.KFrameDefs.lean ====
/-
  The data of the frame proof of the one kernel region of this program: the buffer contents the region finds, the
  block of each window at a grid point, what the body leaves in each output window's staging buffer as a function of
  the input blocks, and the proof data of the pipeline built from them.  The body reads each input block whole,
  computes the encoded rows, their attention over the memory slots, the hidden rows, the token scores and the two
  three-column projections, and stores each result over its whole output block.
-/
import proofs.«142331_j455266533874_2_alg».proof.Proof.Gen.Kernel.Launch
import proofs.«142331_j455266533874_2_alg».proof.Proof.Gen.Kernel.Skeleton
import proofs.«142331_j455266533874_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- The buffer contents of core `c` when the region is entered: the launch memory after the host lines that come
    before the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The whole-block rectangles the body loads and stores through -/

abbrev rw0 : Rect S1000x256 := Rect.unit (s := S1000x256) ![0, 0] S1000x256.size inb_S1000x256_S1000x256_0_0
abbrev rw1 : Rect S256x128 := Rect.unit (s := S256x128) ![0, 0] S256x128.size inb_S256x128_S256x128_0_0
abbrev rw2 : Rect S128 := Rect.unit (s := S128) ![0] S128.size inb_S128_S128_0
abbrev rw3 : Rect S512x128 := Rect.unit (s := S512x128) ![0, 0] S512x128.size inb_S512x128_S512x128_0_0
abbrev rw4 : Rect S128x512 := Rect.unit (s := S128x512) ![0, 0] S128x512.size inb_S128x512_S128x512_0_0
abbrev rw5 : Rect S128x2048 := Rect.unit (s := S128x2048) ![0, 0] S128x2048.size inb_S128x2048_S128x2048_0_0
abbrev rw6 : Rect S2048 := Rect.unit (s := S2048) ![0] S2048.size inb_S2048_S2048_0
abbrev rw7 : Rect S128x3 := Rect.unit (s := S128x3) ![0, 0] S128x3.size inb_S128x3_S128x3_0_0
abbrev rw8 : Rect S128x3 := Rect.unit (s := S128x3) ![0, 0] S128x3.size inb_S128x3_S128x3_0_0
abbrev rw9 : Rect S1000x128 := Rect.unit (s := S1000x128) ![0, 0] S1000x128.size inb_S1000x128_S1000x128_0_0
abbrev rw10 : Rect S1000x2048 := Rect.unit (s := S1000x2048) ![0, 0] S1000x2048.size inb_S1000x2048_S1000x2048_0_0
abbrev rw11 : Rect S1000x3 := Rect.unit (s := S1000x3) ![0, 0] S1000x3.size inb_S1000x3_S1000x3_0_0
abbrev rw12 : Rect S1000x3 := Rect.unit (s := S1000x3) ![0, 0] S1000x3.size inb_S1000x3_S1000x3_0_0

/-! ## What the body leaves in each output block -/

/-- The hidden rows of the block: the attention-weighted memory rows. -/
def out0_9 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x128 .f32 :=
  View.canon [⟨rw9, k0_pay3 (View.ld x0 rw0) (View.ld x1 rw1) (View.ld x2 rw2) (View.ld x4 rw4) (View.ld x3 rw3)⟩]
/-- The token scores of the block's hidden rows. -/
def out0_10 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x2048 .f32 :=
  View.canon [⟨rw10, k0_pay4 (View.ld x0 rw0) (View.ld x1 rw1) (View.ld x2 rw2) (View.ld x4 rw4) (View.ld x3 rw3) (View.ld x5 rw5) (View.ld x6 rw6)⟩]
/-- The hidden rows projected on the three left halves of the edge weights. -/
def out0_11 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x3 .f32 :=
  View.canon [⟨rw11, k0_pay1 (k0_pay3 (View.ld x0 rw0) (View.ld x1 rw1) (View.ld x2 rw2) (View.ld x4 rw4) (View.ld x3 rw3)) (View.ld x7 rw7)⟩]
/-- The hidden rows projected on the three right halves of the edge weights. -/
def out0_12 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x3 .f32 :=
  View.canon [⟨rw12, k0_pay2 (k0_pay3 (View.ld x0 rw0) (View.ld x1 rw1) (View.ld x2 rw2) (View.ld x4 rw4) (View.ld x3 rw3)) (View.ld x8 rw8)⟩]

/-! ## The proof data of the pipeline -/

/-- On core `c`: the arrays as the region finds them; after the body at point `t` every input block in place and
    every output block at its function of the input blocks; nothing kept between points beyond that. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]

end Cert.Kernel.Hand

end
-- ==== Proof.KHost.lean ====
/-
  The host lines around the kernel region never write an argument array: each writes only its own result buffer.
  So every argument array is found by the region, and left by the whole program, as it was launched.
-/
import proofs.«142331_j455266533874_2_alg».proof.Proof.KFrameDefs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## No host line before the region writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## No host line after the region writes an argument -/

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

end Cert.Kernel.Hand

end
-- ==== Proof.KFrame.lean ====
/-
  The frame of the program: every weakly fair execution of its host lines, its one kernel region and the host lines
  after it terminates without a fault and leaves the argument arrays as they were.  The region is run point by point:
  at each grid point the body finds every input window's staging buffer at that window's block, loads the blocks
  whole, and stores each output block whole, so each output's staging buffer ends at a function of the input blocks
  alone.  The host lines before and after the region write only their own result buffers, never an argument.
-/
import proofs.«142331_j455266533874_2_alg».proof.Proof.KHost

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The program is its first host lines, the region, and the later host lines continuing it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the windows' arrays and buffers no window stages. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals
      intro w
      simp only [StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne ((by decide : ∀ w, Pipeline.arrRef spec0 w ≠ _) w)

/-! ## Every input window's staging buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).1 2).trans (((dats 0 c).arrAt_in 2 rfl _).trans ((hA c 2).trans (V_main_arg3 m c))),
    ((h c).1 3).trans (((dats 0 c).arrAt_in 3 rfl _).trans ((hA c 3).trans (V_main_arg4 m c))),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).1 6).trans (((dats 0 c).arrAt_in 6 rfl _).trans ((hA c 6).trans (V_main_arg12 m c)))⟩) h

/-! ## The body's stores cover their blocks -/

theorem cover0_9 (p0 : Vec F S1000x128 .f32) (y : S1000x128.Idx) :
    ∃ pc ∈ ([⟨rw9, p0⟩] : List (View.Piece (Elt F) S1000x128 .f32)), y ∈ pc.1.set :=
  View.cover_of_tiled [⟨rw9, p0⟩] S1000x128.size (by rfl) y
theorem cover0_10 (p0 : Vec F S1000x2048 .f32) (y : S1000x2048.Idx) :
    ∃ pc ∈ ([⟨rw10, p0⟩] : List (View.Piece (Elt F) S1000x2048 .f32)), y ∈ pc.1.set :=
  View.cover_of_tiled [⟨rw10, p0⟩] S1000x2048.size (by rfl) y
theorem cover0_11 (p0 : Vec F S1000x3 .f32) (y : S1000x3.Idx) :
    ∃ pc ∈ ([⟨rw11, p0⟩] : List (View.Piece (Elt F) S1000x3 .f32)), y ∈ pc.1.set :=
  View.cover_of_tiled [⟨rw11, p0⟩] S1000x3.size (by rfl) y
theorem cover0_12 (p0 : Vec F S1000x3 .f32) (y : S1000x3.Idx) :
    ∃ pc ∈ ([⟨rw12, p0⟩] : List (View.Piece (Elt F) S1000x3 .f32)), y ∈ pc.1.set :=
  View.cover_of_tiled [⟨rw12, p0⟩] S1000x3.size (by rfl) y

/-! ## The body's triple -/

set_option maxHeartbeats 4000000 in
/-- The body on whole staging buffers, the inputs' at contents `xW` and the outputs' at anything, runs to its end
    holding the inputs' as they were and each output's at its function of the inputs'. -/
theorem sound_kernel (c : Dev nD) (E : Set ℕ) (i : grid0.Coords) (arg1 : Memref sig .tc .vmem S1000x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S512x128 .f32) (harg4 : arg4.IsWhole) (arg5 : Memref sig .tc .vmem S128x512 .f32) (harg5 : arg5.IsWhole) (arg6 : Memref sig .tc .vmem S128x2048 .bf16) (harg6 : arg6.IsWhole) (arg7 : Memref sig .tc .vmem S2048 .f32) (harg7 : arg7.IsWhole) (arg8 : Memref sig .tc .vmem S128x3 .f32) (harg8 : arg8.IsWhole) (arg9 : Memref sig .tc .vmem S128x3 .f32) (harg9 : arg9.IsWhole) (arg10 : Memref sig .tc .vmem S1000x128 .f32) (harg10 : arg10.IsWhole) (arg11 : Memref sig .tc .vmem S1000x2048 .f32) (harg11 : arg11.IsWhole) (arg12 : Memref sig .tc .vmem S1000x3 .f32) (harg12 : arg12.IsWhole) (arg13 : Memref sig .tc .vmem S1000x3 .f32) (harg13 : arg13.IsWhole)
    (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11 arg12 harg12 arg13 harg13) K := by
  simp only [cc0__encode_kernel_eq_skeleton]; unfold cc0__encode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The body obligation at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every window's array ending at what the write-backs of
    the proof data leave and every other unscoped buffer at what the later host lines compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.Kernel.Hand

end
-- ==== Proof.KIFrameDefs.lean ====
/-
  The data of the frame proof of the one kernel region of this program: the buffer contents the region finds, the
  block of each window at a grid point, what the body leaves in each output window's staging buffer as a function of
  the input blocks, and the proof data of the pipeline built from them.  The body reads each input block whole,
  computes the encoded rows, their attention over the memory slots, the hidden rows, the token scores and the two
  three-column projections, and stores each result over its whole output block.
-/
import proofs.«142331_j455266533874_2_alg».proof.Proof.Gen.KernelIdeal.Launch
import proofs.«142331_j455266533874_2_alg».proof.Proof.Gen.KernelIdeal.Skeleton
import proofs.«142331_j455266533874_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- The buffer contents of core `c` when the region is entered: the launch memory after the host lines that come
    before the region. -/
abbrev V0 (c : Dev nD) : Valuation τ sig (Elt F) := StableHlo.after (List.flatten [hostOps0]) (fun b => m (c, b))
/-- The same, read at a reference of the core. -/
abbrev V (c : Dev nD) (b : Ref sig .tc) : Buf (Elt F) ((c : Thread nD τ).loc b) := V0 m c (Proc.devRef .tc b)

/-- The block of window `w` at grid point `t`, read off the window's array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The whole-block rectangles the body loads and stores through -/

abbrev rw0 : Rect S1000x256 := Rect.unit (s := S1000x256) ![0, 0] S1000x256.size inb_S1000x256_S1000x256_0_0
abbrev rw1 : Rect S256x128 := Rect.unit (s := S256x128) ![0, 0] S256x128.size inb_S256x128_S256x128_0_0
abbrev rw2 : Rect S128 := Rect.unit (s := S128) ![0] S128.size inb_S128_S128_0
abbrev rw3 : Rect S512x128 := Rect.unit (s := S512x128) ![0, 0] S512x128.size inb_S512x128_S512x128_0_0
abbrev rw4 : Rect S128x512 := Rect.unit (s := S128x512) ![0, 0] S128x512.size inb_S128x512_S128x512_0_0
abbrev rw5 : Rect S128x2048 := Rect.unit (s := S128x2048) ![0, 0] S128x2048.size inb_S128x2048_S128x2048_0_0
abbrev rw6 : Rect S2048 := Rect.unit (s := S2048) ![0] S2048.size inb_S2048_S2048_0
abbrev rw7 : Rect S128x3 := Rect.unit (s := S128x3) ![0, 0] S128x3.size inb_S128x3_S128x3_0_0
abbrev rw8 : Rect S128x3 := Rect.unit (s := S128x3) ![0, 0] S128x3.size inb_S128x3_S128x3_0_0
abbrev rw9 : Rect S1000x128 := Rect.unit (s := S1000x128) ![0, 0] S1000x128.size inb_S1000x128_S1000x128_0_0
abbrev rw10 : Rect S1000x2048 := Rect.unit (s := S1000x2048) ![0, 0] S1000x2048.size inb_S1000x2048_S1000x2048_0_0
abbrev rw11 : Rect S1000x3 := Rect.unit (s := S1000x3) ![0, 0] S1000x3.size inb_S1000x3_S1000x3_0_0
abbrev rw12 : Rect S1000x3 := Rect.unit (s := S1000x3) ![0, 0] S1000x3.size inb_S1000x3_S1000x3_0_0

/-! ## What the body leaves in each output block -/

/-- The hidden rows of the block: the attention-weighted memory rows. -/
def out0_9 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x128 .f32 :=
  View.canon [⟨rw9, k0_pay3 (View.ld x0 rw0) (View.ld x1 rw1) (View.ld x2 rw2) (View.ld x4 rw4) (View.ld x3 rw3)⟩]
/-- The token scores of the block's hidden rows. -/
def out0_10 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x2048 .f32 :=
  View.canon [⟨rw10, k0_pay4 (View.ld x0 rw0) (View.ld x1 rw1) (View.ld x2 rw2) (View.ld x4 rw4) (View.ld x3 rw3) (View.ld x5 rw5) (View.ld x6 rw6)⟩]
/-- The hidden rows projected on the three left halves of the edge weights. -/
def out0_11 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x3 .f32 :=
  View.canon [⟨rw11, k0_pay1 (k0_pay3 (View.ld x0 rw0) (View.ld x1 rw1) (View.ld x2 rw2) (View.ld x4 rw4) (View.ld x3 rw3)) (View.ld x7 rw7)⟩]
/-- The hidden rows projected on the three right halves of the edge weights. -/
def out0_12 (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) : Vec F S1000x3 .f32 :=
  View.canon [⟨rw12, k0_pay2 (k0_pay3 (View.ld x0 rw0) (View.ld x1 rw1) (View.ld x2 rw2) (View.ld x4 rw4) (View.ld x3 rw3)) (View.ld x8 rw8)⟩]

/-! ## The proof data of the pipeline -/

/-- On core `c`: the arrays as the region finds them; after the body at point `t` every input block in place and
    every output block at its function of the input blocks; nothing kept between points beyond that. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => out0_9 (iblk m c 0 t) (iblk m c 1 t) (iblk m c 2 t) (iblk m c 3 t) (iblk m c 4 t) (iblk m c 5 t) (iblk m c 6 t) (iblk m c 7 t) (iblk m c 8 t)
    | ⟨10, _⟩ => out0_10 (iblk m c 0 t) (iblk m c 1 t) (iblk m c 2 t) (iblk m c 3 t) (iblk m c 4 t) (iblk m c 5 t) (iblk m c 6 t) (iblk m c 7 t) (iblk m c 8 t)
    | ⟨11, _⟩ => out0_11 (iblk m c 0 t) (iblk m c 1 t) (iblk m c 2 t) (iblk m c 3 t) (iblk m c 4 t) (iblk m c 5 t) (iblk m c 6 t) (iblk m c 7 t) (iblk m c 8 t)
    | ⟨12, _⟩ => out0_12 (iblk m c 0 t) (iblk m c 1 t) (iblk m c 2 t) (iblk m c 3 t) (iblk m c 4 t) (iblk m c 5 t) (iblk m c 6 t) (iblk m c 7 t) (iblk m c 8 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = out0_9 (iblk m c 0 t) (iblk m c 1 t) (iblk m c 2 t) (iblk m c 3 t) (iblk m c 4 t) (iblk m c 5 t) (iblk m c 6 t) (iblk m c 7 t) (iblk m c 8 t) := by dsimp only [dats]
theorem after0_10 (c : Dev nD) (t : Fin cfg0.N) : (dats m 0 c).after 10 t = out0_10 (iblk m c 0 t) (iblk m c 1 t) (iblk m c 2 t) (iblk m c 3 t) (iblk m c 4 t) (iblk m c 5 t) (iblk m c 6 t) (iblk m c 7 t) (iblk m c 8 t) := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) := by dsimp only [dats]

end Cert.KernelIdeal.Hand

end
-- ==== Proof.KIHost.lean ====
/-
  The host lines around the kernel region never write an argument array: each writes only its own result buffer.
  So every argument array is found by the region, and left by the whole program, as it was launched.
-/
import proofs.«142331_j455266533874_2_alg».proof.Proof.KIFrameDefs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines allocate nothing -/

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-! ## No host line before the region writes an argument -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## No host line after the region writes an argument -/

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg7 (by exact (by decide : ∀ w, Pipeline.arrRef spec0 w ≠ main_arg7))]
  exact V_main_arg7 m c
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg8 (by exact (by decide : ∀ w, Pipeline.arrRef spec0 w ≠ main_arg8))]
  exact V_main_arg8 m c
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg9 (by exact (by decide : ∀ w, Pipeline.arrRef spec0 w ≠ main_arg9))]
  exact V_main_arg9 m c
theorem W_main_arg10 (dats : (p : Fin _) → (c : Dev nD) → Dat τ (Elt F) Unit ℕ (UR sig nD τ) ℕ (cfgs p) c) (c : Dev nD) :
    Pipeline.afterTail₀ cfgs dats 0 (V0 m) [hostOps1] c main_arg10 = m ((c : Thread nD τ).loc main_arg10) := by
  unfold Pipeline.afterTail₀
  rw [StableHlo.after_of_forall_not_mem (b := Proc.devRef .tc main_arg10) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg10 (by exact (by decide : ∀ w, Pipeline.arrRef spec0 w ≠ main_arg10))]
  exact V_main_arg10 m c
theorem W_main_arg11 (dats : (p : Fin _) → (c : Dev nD) → Dat τ (Elt F) Unit ℕ (UR sig nD τ) ℕ (cfgs p) c) (c : Dev nD) :
    Pipeline.afterTail₀ cfgs dats 0 (V0 m) [hostOps1] c main_arg11 = m ((c : Thread nD τ).loc main_arg11) := by
  unfold Pipeline.afterTail₀
  rw [StableHlo.after_of_forall_not_mem (b := Proc.devRef .tc main_arg11) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      repeat' apply And.intro
      all_goals exact StableHlo.devRef_ne_of_ne (by decide))),
    Pipeline.withArrays_of_ne _ c (V0 m c) _ main_arg11 (by exact (by decide : ∀ w, Pipeline.arrRef spec0 w ≠ main_arg11))]
  exact V_main_arg11 m c

end Cert.KernelIdeal.Hand

end
-- ==== Proof.KIFrame.lean ====
/-
  The frame of the program: every weakly fair execution of its host lines, its one kernel region and the host lines
  after it terminates without a fault and leaves the argument arrays as they were.  The region is run point by point:
  at each grid point the body finds every input window's staging buffer at that window's block, loads the blocks
  whole, and stores each output block whole, so each output's staging buffer ends at a function of the input blocks
  alone.  The host lines before and after the region write only their own result buffers, never an argument.
-/
import proofs.«142331_j455266533874_2_alg».proof.Proof.KIHost

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the region -/

/-- The program is its first host lines, the region, and the later host lines continuing it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The later lines touch only the windows' arrays and buffers no window stages. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is no window's array. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
    all_goals
      intro w
      simp only [StableHlo.nullary_writes, StableHlo.unary_writes, StableHlo.binary_writes, StableHlo.ternary_writes, StableHlo.quaternary_writes, StableHlo.reshape_writes, StableHlo.binaryIndexed_writes, StableHlo.nary_writes, Finset.mem_singleton]
      exact StableHlo.devRef_ne_of_ne ((by decide : ∀ w, Pipeline.arrRef spec0 w ≠ _) w)

/-! ## Every input window's staging buffer holds its block at every point -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-! ## The frame claim's post from the frame run's -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c => ⟨((h c).1 0).trans (((dats 0 c).arrAt_in 0 rfl _).trans ((hA c 0).trans (V_main_arg0 m c))),
    ((h c).2 main_arg1 (Pipeline.mem_restRefs_of main_arg1 (by decide) (by decide))).trans (W_main_arg1 m dats c),
    ((h c).1 1).trans (((dats 0 c).arrAt_in 1 rfl _).trans ((hA c 1).trans (V_main_arg2 m c))),
    ((h c).1 2).trans (((dats 0 c).arrAt_in 2 rfl _).trans ((hA c 2).trans (V_main_arg3 m c))),
    ((h c).1 3).trans (((dats 0 c).arrAt_in 3 rfl _).trans ((hA c 3).trans (V_main_arg4 m c))),
    ((h c).2 main_arg5 (Pipeline.mem_restRefs_of main_arg5 (by decide) (by decide))).trans (W_main_arg5 m dats c),
    ((h c).2 main_arg6 (Pipeline.mem_restRefs_of main_arg6 (by decide) (by decide))).trans (W_main_arg6 m dats c),
    ((h c).2 main_arg7 (Pipeline.mem_restRefs_of main_arg7 (by decide) (by decide))).trans (W_main_arg7 m dats c),
    ((h c).2 main_arg8 (Pipeline.mem_restRefs_of main_arg8 (by decide) (by decide))).trans (W_main_arg8 m dats c),
    ((h c).2 main_arg9 (Pipeline.mem_restRefs_of main_arg9 (by decide) (by decide))).trans (W_main_arg9 m dats c),
    ((h c).2 main_arg10 (Pipeline.mem_restRefs_of main_arg10 (by decide) (by decide))).trans (W_main_arg10 m dats c),
    ((h c).2 main_arg11 (Pipeline.mem_restRefs_of main_arg11 (by decide) (by decide))).trans (W_main_arg11 m dats c),
    ((h c).1 6).trans (((dats 0 c).arrAt_in 6 rfl _).trans ((hA c 6).trans (V_main_arg12 m c)))⟩) h

/-! ## The body's stores cover their blocks -/

theorem cover0_9 (p0 : Vec F S1000x128 .f32) (y : S1000x128.Idx) :
    ∃ pc ∈ ([⟨rw9, p0⟩] : List (View.Piece (Elt F) S1000x128 .f32)), y ∈ pc.1.set :=
  View.cover_of_tiled [⟨rw9, p0⟩] S1000x128.size (by rfl) y
theorem cover0_10 (p0 : Vec F S1000x2048 .f32) (y : S1000x2048.Idx) :
    ∃ pc ∈ ([⟨rw10, p0⟩] : List (View.Piece (Elt F) S1000x2048 .f32)), y ∈ pc.1.set :=
  View.cover_of_tiled [⟨rw10, p0⟩] S1000x2048.size (by rfl) y
theorem cover0_11 (p0 : Vec F S1000x3 .f32) (y : S1000x3.Idx) :
    ∃ pc ∈ ([⟨rw11, p0⟩] : List (View.Piece (Elt F) S1000x3 .f32)), y ∈ pc.1.set :=
  View.cover_of_tiled [⟨rw11, p0⟩] S1000x3.size (by rfl) y
theorem cover0_12 (p0 : Vec F S1000x3 .f32) (y : S1000x3.Idx) :
    ∃ pc ∈ ([⟨rw12, p0⟩] : List (View.Piece (Elt F) S1000x3 .f32)), y ∈ pc.1.set :=
  View.cover_of_tiled [⟨rw12, p0⟩] S1000x3.size (by rfl) y

/-! ## The body's triple -/

set_option maxHeartbeats 4000000 in
/-- The body on whole staging buffers, the inputs' at contents `xW` and the outputs' at anything, runs to its end
    holding the inputs' as they were and each output's at its function of the inputs'. -/
theorem sound_kernel (c : Dev nD) (E : Set ℕ) (i : grid0.Coords) (arg1 : Memref sig .tc .vmem S1000x256 .f32) (harg1 : arg1.IsWhole) (arg2 : Memref sig .tc .vmem S256x128 .f32) (harg2 : arg2.IsWhole) (arg3 : Memref sig .tc .vmem S128 .f32) (harg3 : arg3.IsWhole) (arg4 : Memref sig .tc .vmem S512x128 .f32) (harg4 : arg4.IsWhole) (arg5 : Memref sig .tc .vmem S128x512 .f32) (harg5 : arg5.IsWhole) (arg6 : Memref sig .tc .vmem S128x2048 .bf16) (harg6 : arg6.IsWhole) (arg7 : Memref sig .tc .vmem S2048 .f32) (harg7 : arg7.IsWhole) (arg8 : Memref sig .tc .vmem S128x3 .f32) (harg8 : arg8.IsWhole) (arg9 : Memref sig .tc .vmem S128x3 .f32) (harg9 : arg9.IsWhole) (arg10 : Memref sig .tc .vmem S1000x128 .f32) (harg10 : arg10.IsWhole) (arg11 : Memref sig .tc .vmem S1000x2048 .f32) (harg11 : arg11.IsWhole) (arg12 : Memref sig .tc .vmem S1000x3 .f32) (harg12 : arg12.IsWhole) (arg13 : Memref sig .tc .vmem S1000x3 .f32) (harg13 : arg13.IsWhole)
    (x0 : Vec F S1000x256 .f32) (x1 : Vec F S256x128 .f32) (x2 : Vec F S128 .f32) (x3 : Vec F S512x128 .f32) (x4 : Vec F S128x512 .f32) (x5 : Vec F S128x2048 .bf16) (x6 : Vec F S2048 .f32) (x7 : Vec F S128x3 .f32) (x8 : Vec F S128x3 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (out0_9 x0 x1 x2 x3 x4 x5 x6 x7 x8) ∗ owns (c : Thread nD τ) arg11 fullShare (out0_10 x0 x1 x2 x3 x4 x5 x6 x7 x8) ∗ owns (c : Thread nD τ) arg12 fullShare (out0_11 x0 x1 x2 x3 x4 x5 x6 x7 x8) ∗ owns (c : Thread nD τ) arg13 fullShare (out0_12 x0 x1 x2 x3 x4 x5 x6 x7 x8)) -∗ K ⟨⟩))
      ⊢ wp frame (wpE (defs₀ (F := F)) Variants.none c none) E (cc0__encode_kernel i arg1 harg1 arg2 harg2 arg3 harg3 arg4 harg4 arg5 harg5 arg6 harg6 arg7 harg7 arg8 harg8 arg9 harg9 arg10 harg10 arg11 harg11 arg12 harg12 arg13 harg13) K := by
  simp only [cc0__encode_kernel_eq_skeleton]; unfold cc0__encode_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    try dsimp only
    exact View.read_writes_eq_canon _ _ _ (cover0_9 _)
  isplitl [H10]
  · iexists _; isplitr
    swap; · iexact H10
    ipureintro
    try dsimp only
    exact View.read_writes_eq_canon _ _ _ (cover0_10 _)
  isplitl [H11]
  · iexists _; isplitr
    swap; · iexact H11
    ipureintro
    try dsimp only
    exact View.read_writes_eq_canon _ _ _ (cover0_11 _)
  iexists _; isplitr
  swap; · iexact H12
  ipureintro
  try dsimp only
  exact View.read_writes_eq_canon _ _ _ (cover0_12 _)

/-! ## The body obligation at a grid point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel c Set.univ (grid0.coords t) _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, every window's array ending at what the write-backs of
    the proof data leave and every other unscoped buffer at what the later host lines compute. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  frame_of m ρ (dats m) (A_eq m) (run_main m ρ)

end Cert.KernelIdeal.Hand

end
-- ==== Proof.LibNaryThree.lean ====
/-
  A host operation of three operands named by a literal family of references, read at its own result.
-/
import Idealize.ShloMosaic.Lib.StableHlo.Run

noncomputable section

namespace Idealize.ShloMosaic.StableHlo

variable {τ : Topo} {sig : RefSig} {Val : EltTy → Type} {x a b y : Ref sig .tc}

/-- The result of an operation of THREE operands given as a literal family `![x, a, b]` (a concatenation of three
    arrays), with each operand's contents read AT ITS OWN REFERENCE: `Fin.cons (F x) (Fin.cons (F a) (Fin.cons (F b) _))`
    in place of `fun k => F (![x, a, b] k)`. Under the binder the reference `![…] k` is no literal, so nothing more can
    be said of the operands' contents; after this rewriting each operand's contents is a term of its own, which further
    rewriting of a line of operations reaches. (The library states the same for four operands.) -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.KReads.lean ====
/-
  What the region's windows read and where its output blocks land.

  The grid has 100 points.  At point `t` the feature window and the four output windows hold rows
  `1000 t … 1000 t + 999` of their arrays, all columns; every other window holds its whole array at every point.  So the
  block of a whole-array window read at an index is the array at that index, and entry `(r, k)` of the feature block is
  entry `(1000 t + r, k)` of the feature array; entry `(r, d)` of an output block is written back to `(1000 t + r, d)`.
  The arrays the region finds were computed by the host lines before it: the memory slots transposed, the token weights
  passed through a change of format, and the upper and lower halves of the three edge weight columns laid side by side;
  the three edge biases laid end to end are read by the host lines after the region.
-/
import proofs.«142331_j455266533874_2_alg».proof.Proof.KIHost
import proofs.«142331_j455266533874_2_alg».proof.Proof.LibNaryThree
import Idealize.ShloMosaic.Lib.ValueIdx
import Idealize.ShloMosaic.Lib.ValueLayout
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.ValueIdx Idealize.ShloMosaic.StableHlo

/-- The host lines' results read one by one, an operation of three operands read at each operand's own buffer. -/
macro "after_results3" : tactic =>
  `(tactic| (simp only [after_cons, after_nil]
             repeat (first
               | rw [nary3_result]
               | rw [nullary_result] | rw [unary_result] | rw [binary_result] | rw [ternary_result] | rw [quaternary_result]
               | rw [reshape_result] | rw [binaryIndexed_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [binaryIndexed_result_ne]; rotate_left; decide)
               | (rw [nary_result_ne]; rotate_left; decide))))

/-! ## The windows' block numbers at a grid point -/

theorem N100 : cfg0.N = 100 := N_0

theorem idx0_0 : ∀ t : Fin cfg0.N, win0_0.index t (0 : Fin 2) = t.val :=
  (by decide +kernel : ∀ t : Fin grid0.N, win0_0.index t (0 : Fin 2) = t.val)
theorem idx0_1 : ∀ t : Fin cfg0.N, win0_0.index t (1 : Fin 2) = 0 :=
  (by decide +kernel : ∀ t : Fin grid0.N, win0_0.index t (1 : Fin 2) = 0)
theorem idx1_0 : ∀ t : Fin cfg0.N, win0_1.index t (0 : Fin 2) = 0 :=
  (by decide +kernel : ∀ t : Fin grid0.N, win0_1.index t (0 : Fin 2) = 0)
theorem idx1_1 : ∀ t : Fin cfg0.N, win0_1.index t (1 : Fin 2) = 0 :=
  (by decide +kernel : ∀ t : Fin grid0.N, win0_1.index t (1 : Fin 2) = 0)
theorem idx2_0 : ∀ t : Fin cfg0.N, win0_2.index t (0 : Fin 1) = 0 :=
  (by decide +kernel : ∀ t : Fin grid0.N, win0_2.index t (0 : Fin 1) = 0)
theorem idx3_0 : ∀ t : Fin cfg0.N, win0_3.index t (0 : Fin 2) = 0 :=
  (by decide +kernel : ∀ t : Fin grid0.N, win0_3.index t (0 : Fin 2) = 0)
theorem idx3_1 : ∀ t : Fin cfg0.N, win0_3.index t (1 : Fin 2) = 0 :=
  (by decide +kernel : ∀ t : Fin grid0.N, win0_3.index t (1 : Fin 2) = 0)
theorem idx4_0 : ∀ t : Fin cfg0.N, win0_4.index t (0 : Fin 2) = 0 :=
  (by decide +kernel : ∀ t : Fin grid0.N, win0_4.index t (0 : Fin 2) = 0)
theorem idx4_1 : ∀ t : Fin cfg0.N, win0_4.index t (1 : Fin 2) = 0 :=
  (by decide +kernel : ∀ t : Fin grid0.N, win0_4.index t (1 : Fin 2) = 0)
theorem idx5_0 : ∀ t : Fin cfg0.N, win0_5.index t (0 : Fin 2) = 0 :=
  (by decide +kernel : ∀ t : Fin grid0.N, win0_5.index t (0 : Fin 2) = 0)
theorem idx5_1 : ∀ t : Fin cfg0.N, win0_5.index t (1 : Fin 2) = 0 :=
  (by decide +kernel : ∀ t : Fin grid0.N, win0_5.index t (1 : Fin 2) = 0)
theorem idx6_0 : ∀ t : Fin cfg0.N, win0_6.index t (0 : Fin 1) = 0 :=
  (by decide +kernel : ∀ t : Fin grid0.N, win0_6.index t (0 : Fin 1) = 0)
theorem idx7_0 : ∀ t : Fin cfg0.N, win0_7.index t (0 : Fin 2) = 0 :=
  (by decide +kernel : ∀ t : Fin grid0.N, win0_7.index t (0 : Fin 2) = 0)
theorem idx7_1 : ∀ t : Fin cfg0.N, win0_7.index t (1 : Fin 2) = 0 :=
  (by decide +kernel : ∀ t : Fin grid0.N, win0_7.index t (1 : Fin 2) = 0)
theorem idx8_0 : ∀ t : Fin cfg0.N, win0_8.index t (0 : Fin 2) = 0 :=
  (by decide +kernel : ∀ t : Fin grid0.N, win0_8.index t (0 : Fin 2) = 0)
theorem idx8_1 : ∀ t : Fin cfg0.N, win0_8.index t (1 : Fin 2) = 0 :=
  (by decide +kernel : ∀ t : Fin grid0.N, win0_8.index t (1 : Fin 2) = 0)
theorem idx9_0 : ∀ t : Fin cfg0.N, win0_9.index t (0 : Fin 2) = t.val :=
  (by decide +kernel : ∀ t : Fin grid0.N, win0_9.index t (0 : Fin 2) = t.val)
theorem idx9_1 : ∀ t : Fin cfg0.N, win0_9.index t (1 : Fin 2) = 0 :=
  (by decide +kernel : ∀ t : Fin grid0.N, win0_9.index t (1 : Fin 2) = 0)
theorem idx10_0 : ∀ t : Fin cfg0.N, win0_10.index t (0 : Fin 2) = t.val :=
  (by decide +kernel : ∀ t : Fin grid0.N, win0_10.index t (0 : Fin 2) = t.val)
theorem idx10_1 : ∀ t : Fin cfg0.N, win0_10.index t (1 : Fin 2) = 0 :=
  (by decide +kernel : ∀ t : Fin grid0.N, win0_10.index t (1 : Fin 2) = 0)
theorem idx11_0 : ∀ t : Fin cfg0.N, win0_11.index t (0 : Fin 2) = t.val :=
  (by decide +kernel : ∀ t : Fin grid0.N, win0_11.index t (0 : Fin 2) = t.val)
theorem idx11_1 : ∀ t : Fin cfg0.N, win0_11.index t (1 : Fin 2) = 0 :=
  (by decide +kernel : ∀ t : Fin grid0.N, win0_11.index t (1 : Fin 2) = 0)
theorem idx12_0 : ∀ t : Fin cfg0.N, win0_12.index t (0 : Fin 2) = t.val :=
  (by decide +kernel : ∀ t : Fin grid0.N, win0_12.index t (0 : Fin 2) = t.val)
theorem idx12_1 : ∀ t : Fin cfg0.N, win0_12.index t (1 : Fin 2) = 0 :=
  (by decide +kernel : ∀ t : Fin grid0.N, win0_12.index t (1 : Fin 2) = 0)

/-! ## The input blocks -/

/-- Entry `(r, k)` of the feature block at point `t` is entry `(1000 t + r, k)` of the feature array. -/
theorem iblk0_apply (c : Dev nD) (t : Fin cfg0.N) (r : Fin 1000) (k : Fin 256) :
    iblk m c 0 t (ix2 r k)
      = V m c main_arg0 (ix2 (⟨t.val * 1000 + r.val, by have h1 := t.isLt; have h2 := N100; omega⟩ : Fin 100000) k) := by
  show V m c main_arg0 (((cfg0.win 0).blk t).view.emb (ix2 r k)) = _
  refine congrArg (V m c main_arg0) (funext fun a => Fin.ext ?_)
  match a with
  | ⟨0, _⟩ => show win0_0.index t (0 : Fin 2) * 1000 + 1 * r.val = t.val * 1000 + r.val; rw [idx0_0 t]; omega
  | ⟨1, _⟩ => show win0_0.index t (1 : Fin 2) * 256 + 1 * k.val = k.val; rw [idx0_1 t]; omega

theorem iblk1_apply (c : Dev nD) (t : Fin cfg0.N) (y : S256x128.Idx) : iblk m c 1 t y = V m c main_arg2 y := by
  show V m c main_arg2 (((cfg0.win 1).blk t).view.emb y) = V m c main_arg2 y
  refine congrArg (V m c main_arg2) (funext fun a => Fin.ext ?_)
  match a with
  | ⟨0, _⟩ => show win0_1.index t (0 : Fin 2) * 256 + 1 * (y 0).val = (y 0).val; rw [idx1_0 t]; omega
  | ⟨1, _⟩ => show win0_1.index t (1 : Fin 2) * 128 + 1 * (y 1).val = (y 1).val; rw [idx1_1 t]; omega
theorem iblk2_apply (c : Dev nD) (t : Fin cfg0.N) (y : S128.Idx) : iblk m c 2 t y = V m c main_arg3 y := by
  show V m c main_arg3 (((cfg0.win 2).blk t).view.emb y) = V m c main_arg3 y
  refine congrArg (V m c main_arg3) (funext fun a => Fin.ext ?_)
  match a with
  | ⟨0, _⟩ => show win0_2.index t (0 : Fin 1) * 128 + 1 * (y 0).val = (y 0).val; rw [idx2_0 t]; omega
theorem iblk3_apply (c : Dev nD) (t : Fin cfg0.N) (y : S512x128.Idx) : iblk m c 3 t y = V m c main_arg4 y := by
  show V m c main_arg4 (((cfg0.win 3).blk t).view.emb y) = V m c main_arg4 y
  refine congrArg (V m c main_arg4) (funext fun a => Fin.ext ?_)
  match a with
  | ⟨0, _⟩ => show win0_3.index t (0 : Fin 2) * 512 + 1 * (y 0).val = (y 0).val; rw [idx3_0 t]; omega
  | ⟨1, _⟩ => show win0_3.index t (1 : Fin 2) * 128 + 1 * (y 1).val = (y 1).val; rw [idx3_1 t]; omega
theorem iblk4_apply (c : Dev nD) (t : Fin cfg0.N) (y : S128x512.Idx) : iblk m c 4 t y = V m c main_v0 y := by
  show V m c main_v0 (((cfg0.win 4).blk t).view.emb y) = V m c main_v0 y
  refine congrArg (V m c main_v0) (funext fun a => Fin.ext ?_)
  match a with
  | ⟨0, _⟩ => show win0_4.index t (0 : Fin 2) * 128 + 1 * (y 0).val = (y 0).val; rw [idx4_0 t]; omega
  | ⟨1, _⟩ => show win0_4.index t (1 : Fin 2) * 512 + 1 * (y 1).val = (y 1).val; rw [idx4_1 t]; omega
theorem iblk5_apply (c : Dev nD) (t : Fin cfg0.N) (y : S128x2048.Idx) : iblk m c 5 t y = V m c main_v10 y := by
  show V m c main_v10 (((cfg0.win 5).blk t).view.emb y) = V m c main_v10 y
  refine congrArg (V m c main_v10) (funext fun a => Fin.ext ?_)
  match a with
  | ⟨0, _⟩ => show win0_5.index t (0 : Fin 2) * 128 + 1 * (y 0).val = (y 0).val; rw [idx5_0 t]; omega
  | ⟨1, _⟩ => show win0_5.index t (1 : Fin 2) * 2048 + 1 * (y 1).val = (y 1).val; rw [idx5_1 t]; omega
theorem iblk6_apply (c : Dev nD) (t : Fin cfg0.N) (y : S2048.Idx) : iblk m c 6 t y = V m c main_arg12 y := by
  show V m c main_arg12 (((cfg0.win 6).blk t).view.emb y) = V m c main_arg12 y
  refine congrArg (V m c main_arg12) (funext fun a => Fin.ext ?_)
  match a with
  | ⟨0, _⟩ => show win0_6.index t (0 : Fin 1) * 2048 + 1 * (y 0).val = (y 0).val; rw [idx6_0 t]; omega
theorem iblk7_apply (c : Dev nD) (t : Fin cfg0.N) (y : S128x3.Idx) : iblk m c 7 t y = V m c main_v4 y := by
  show V m c main_v4 (((cfg0.win 7).blk t).view.emb y) = V m c main_v4 y
  refine congrArg (V m c main_v4) (funext fun a => Fin.ext ?_)
  match a with
  | ⟨0, _⟩ => show win0_7.index t (0 : Fin 2) * 128 + 1 * (y 0).val = (y 0).val; rw [idx7_0 t]; omega
  | ⟨1, _⟩ => show win0_7.index t (1 : Fin 2) * 3 + 1 * (y 1).val = (y 1).val; rw [idx7_1 t]; omega
theorem iblk8_apply (c : Dev nD) (t : Fin cfg0.N) (y : S128x3.Idx) : iblk m c 8 t y = V m c main_v8 y := by
  show V m c main_v8 (((cfg0.win 8).blk t).view.emb y) = V m c main_v8 y
  refine congrArg (V m c main_v8) (funext fun a => Fin.ext ?_)
  match a with
  | ⟨0, _⟩ => show win0_8.index t (0 : Fin 2) * 128 + 1 * (y 0).val = (y 0).val; rw [idx8_0 t]; omega
  | ⟨1, _⟩ => show win0_8.index t (1 : Fin 2) * 3 + 1 * (y 1).val = (y 1).val; rw [idx8_1 t]; omega

/-! ## Where the output blocks land -/

theorem emb9 (t : Fin cfg0.N) (r : Fin 1000) (q : Fin 128) :
    ((cfg0.win 9).blk t).view.emb (ix2 r q)
      = ix2 (⟨t.val * 1000 + r.val, by have h1 := t.isLt; have h2 := N100; omega⟩ : Fin 100000) q := by
  funext a; apply Fin.ext
  match a with
  | ⟨0, _⟩ => show win0_9.index t (0 : Fin 2) * 1000 + 1 * r.val = t.val * 1000 + r.val; rw [idx9_0 t]; omega
  | ⟨1, _⟩ => show win0_9.index t (1 : Fin 2) * 128 + 1 * q.val = q.val; rw [idx9_1 t]; omega
theorem emb10 (t : Fin cfg0.N) (r : Fin 1000) (q : Fin 2048) :
    ((cfg0.win 10).blk t).view.emb (ix2 r q)
      = ix2 (⟨t.val * 1000 + r.val, by have h1 := t.isLt; have h2 := N100; omega⟩ : Fin 100000) q := by
  funext a; apply Fin.ext
  match a with
  | ⟨0, _⟩ => show win0_10.index t (0 : Fin 2) * 1000 + 1 * r.val = t.val * 1000 + r.val; rw [idx10_0 t]; omega
  | ⟨1, _⟩ => show win0_10.index t (1 : Fin 2) * 2048 + 1 * q.val = q.val; rw [idx10_1 t]; omega
theorem emb11 (t : Fin cfg0.N) (r : Fin 1000) (q : Fin 3) :
    ((cfg0.win 11).blk t).view.emb (ix2 r q)
      = ix2 (⟨t.val * 1000 + r.val, by have h1 := t.isLt; have h2 := N100; omega⟩ : Fin 100000) q := by
  funext a; apply Fin.ext
  match a with
  | ⟨0, _⟩ => show win0_11.index t (0 : Fin 2) * 1000 + 1 * r.val = t.val * 1000 + r.val; rw [idx11_0 t]; omega
  | ⟨1, _⟩ => show win0_11.index t (1 : Fin 2) * 3 + 1 * q.val = q.val; rw [idx11_1 t]; omega
theorem emb12 (t : Fin cfg0.N) (r : Fin 1000) (q : Fin 3) :
    ((cfg0.win 12).blk t).view.emb (ix2 r q)
      = ix2 (⟨t.val * 1000 + r.val, by have h1 := t.isLt; have h2 := N100; omega⟩ : Fin 100000) q := by
  funext a; apply Fin.ext
  match a with
  | ⟨0, _⟩ => show win0_12.index t (0 : Fin 2) * 1000 + 1 * r.val = t.val * 1000 + r.val; rw [idx12_0 t]; omega
  | ⟨1, _⟩ => show win0_12.index t (1 : Fin 2) * 3 + 1 * q.val = q.val; rw [idx12_1 t]; omega

/-! ## The arrays the host lines before the region computed -/

/-- The memory slots, transposed. -/
theorem V_v0 (c : Dev nD) :
    V m c main_v0 = transpose S128x512 [1, 0] (m ((c : Thread nD τ).loc main_arg4)) transposes_S512x128_S128x512_1_0 := by
  show StableHlo.after hostOps0 (fun b => m (c, b)) (Proc.devRef .tc main_v0) = _
  after_results3
  try rfl

/-- The token weights, through a change of float format. -/
theorem V_v10 (c : Dev nD) :
    V m c main_v10 = truncf .bf16 (m ((c : Thread nD τ).loc main_arg11)) bitsLt_bf16_f32 := by
  show StableHlo.after hostOps0 (fun b => m (c, b)) (Proc.devRef .tc main_v10) = _
  after_results3
  try rfl

/-- The upper halves of the three edge weight columns, side by side. -/
theorem V_v4 (c : Dev nD) :
    V m c main_v4 = concatenate S128x3 1
      [⟨S128x1, extractStridedSlice S128x1 ![0, 0] (m ((c : Thread nD τ).loc main_arg5)) slices_S256x1_S128x1_0_0⟩,
       ⟨S128x1, extractStridedSlice S128x1 ![0, 0] (m ((c : Thread nD τ).loc main_arg7)) slices_S256x1_S128x1_0_0⟩,
       ⟨S128x1, extractStridedSlice S128x1 ![0, 0] (m ((c : Thread nD τ).loc main_arg9)) slices_S256x1_S128x1_0_0⟩]
      concatenates_S128x1_S128x1_S128x1_S128x3_d1 := by
  show StableHlo.after hostOps0 (fun b => m (c, b)) (Proc.devRef .tc main_v4) = _
  after_results3
  try rfl

/-- The lower halves of the three edge weight columns, side by side. -/
theorem V_v8 (c : Dev nD) :
    V m c main_v8 = concatenate S128x3 1
      [⟨S128x1, extractStridedSlice S128x1 ![128, 0] (m ((c : Thread nD τ).loc main_arg5)) slices_S256x1_S128x1_128_0⟩,
       ⟨S128x1, extractStridedSlice S128x1 ![128, 0] (m ((c : Thread nD τ).loc main_arg7)) slices_S256x1_S128x1_128_0⟩,
       ⟨S128x1, extractStridedSlice S128x1 ![128, 0] (m ((c : Thread nD τ).loc main_arg9)) slices_S256x1_S128x1_128_0⟩]
      concatenates_S128x1_S128x1_S128x1_S128x3_d1 := by
  show StableHlo.after hostOps0 (fun b => m (c, b)) (Proc.devRef .tc main_v8) = _
  after_results3
  try rfl

set_option maxHeartbeats 2000000 in
/-- The three edge biases, end to end. -/
theorem V_v9 (c : Dev nD) :
    V m c main_v9 = concatenate S3 0
      [⟨S1, (m ((c : Thread nD τ).loc main_arg6))⟩, ⟨S1, (m ((c : Thread nD τ).loc main_arg8))⟩, ⟨S1, (m ((c : Thread nD τ).loc main_arg10))⟩]
      concatenates_S1_S1_S1_S3_d0 := by
  show StableHlo.after hostOps0 (fun b => m (c, b)) (Proc.devRef .tc main_v9) = _
  after_results3
  try rfl

end Cert.KernelIdeal.Hand

end
-- ==== Proof.Spec.lean ====
/-
  The mathematics both programs compute, stated on one row at a time over the extended reals.

  A node's feature row `x` is encoded as `tanh (x · W + b)`; its scores against the memory slots are the encoded
  row's products with the slots divided by the scale; a softmax over the slots (the scores shifted by their maximum,
  exponentiated, and divided by their sum) weights the slots, and the hidden row is the weighted sum of the slots.
  The token scores are the hidden row's products with the token weights plus a bias.  An edge head applied to a pair
  of hidden rows laid side by side is the sum of the head's upper half applied to the left row and its lower half
  applied to the right row, because a sum over 256 = 128 + 128 terms is the sum of its two halves
  (`sum_two_halves`); this needs only that addition of extended reals is associative and commutative.
-/
import Idealize.ShloMosaic.PureOps.Ideal
import Idealize.ShloMosaic.Lib.ValueIdx

noncomputable section

namespace Cert.Spec

open Idealize.ShloMosaic

/-- The scale the scores are divided by, as the float word both programs carry. -/
abbrev scaleC : EReal := Ideal.ofBits .f32 0x413504F3#32
/-- The value the maximum starts from: the word of minus infinity. -/
abbrev negInf : EReal := Ideal.ofBits .f32 0xFF800000#32

section Row

variable (x : Fin 256 → EReal) (encW : Fin 256 → Fin 128 → EReal) (encb : Fin 128 → EReal)
  (mem : Fin 512 → Fin 128 → EReal)

/-- The encoded row. -/
def enc (j : Fin 128) : EReal := Ideal.tanh ((∑ k : Fin 256, x k * encW k j) + encb j)
/-- Its score against memory slot `s`. -/
def logit (s : Fin 512) : EReal := Ideal.div (∑ j : Fin 128, enc x encW encb j * mem s j) scaleC
/-- The largest score. -/
def rowMax : EReal := (Finset.univ : Finset (Fin 512)).fold max negInf (logit x encW encb mem)
/-- The shifted score, exponentiated. -/
def ex (s : Fin 512) : EReal := Ideal.exp (logit x encW encb mem s - rowMax x encW encb mem)
/-- The attention weight of slot `s`. -/
def attn (s : Fin 512) : EReal := Ideal.div (ex x encW encb mem s) (∑ u : Fin 512, ex x encW encb mem u)
/-- The hidden row. -/
def hid (d : Fin 128) : EReal := ∑ s : Fin 512, attn x encW encb mem s * mem s d

end Row

/-- A row number as the pair table writes it, with a negative number counted back from the end of the node table. -/
def normWord (w : BitVec 32) : BitVec 32 :=
  Scalar.select (IntOp.cmpi .slt w 0#32) (IntOp.addi w 100000#32) w
/-- The row of the node table that word names: read as a signed integer and kept inside the table's 100000 rows. -/
def gRow (w : BitVec 32) : Fin 100000 := ⟨min (normWord w).toInt.toNat (100000 - 1), by omega⟩

/-- The maximum of a starting value and a fold of `max` from that same value is the fold. -/
theorem max_fold_self {ι : Type} (s : Finset ι) (a : EReal) (f : ι → EReal) :
    max a (s.fold max a f) = s.fold max a f :=
  max_eq_right ((Finset.le_fold_max a).mpr (Or.inl le_rfl))

/-- A sum over 256 terms is the sum over the first 128 plus the sum over the last 128. -/
theorem sum_two_halves (f : Fin 256 → EReal) :
    ∑ k : Fin 256, f k
      = (∑ k : Fin 128, f ⟨k.val, by omega⟩) + ∑ k : Fin 128, f ⟨128 + k.val, by omega⟩ :=
  Fin.sum_univ_add (a := 128) (b := 128) f

end Cert.Spec

end
-- ==== Proof.LibColumns.lean ====
/-
  Columns and rows of a rank-2 array, read at an index given by coordinates.

  A row-wise computation on an `[a, b]` array keeps one value per row in a COLUMN, an array of shape `[a, 1]`:
  it cuts single columns out of the array, casts a vector of `a` row results to a column, and broadcasts a column
  back along the second axis. Each of these reads, at `(r, ·)`, one entry of its operand in row `r`:
  • column `o` cut out of `[a, b]` reads the array at `(r, o)` (`slice_col_apply`);
  • a vector `[a]` cast to a column `[a, 1]` reads entry `r` (`shapeCast_a_a1_apply`);
  • a column `[a, 1]` broadcast to `[a, b]` reads, at `(r, j)`, the column's entry `r` for every `j`
    (`broadcastTo_a1_ab_apply`).
  A reduction of `[a, b]` along its second axis reads, at row `r`, a fold over the row's `b` entries. Over the
  extended reals `min` and `max` commute and associate, so the order of the fold does not matter and a kernel's
  vector reduction and a host reduce of the same row are the same fold over `Fin b`, started from the
  accumulator's (the initial value's) extended real (`multiReduction_minimumf_row`, `multiReduction_maximumf_row`,
  `hostReduce_minimumf_row`, `hostReduce_maximumf_row`). The index that a row's result `r` and a coordinate `k`
  on the reduced axis name together is `(r, k)` (`lift_row`).
-/
import Idealize.ShloMosaic.Lib.ValueLayout
import Idealize.ShloMosaic.Lib.ValueIdx
import Idealize.ShloMosaic.Lib.Pipeline.Value
import Idealize.ShloMosaic.PureOps.Ideal.Laws
import Idealize.ShloMosaic.PureOps.Reduce

noncomputable section

namespace Cert.Columns

open Idealize.ShloMosaic Idealize.ShloMosaic.ValueIdx

variable {α : Type}

/-! ## Layout operations on columns -/

/-- Column `o` of an `[a, b]` array, cut out as a column `[a, 1]`, reads at `(r, u)` the array at `(r, o)`. -/
theorem slice_col_apply {a b : ℕ} (o : ℕ) (ho : o < b) (X : (⟨2, ![a, b]⟩ : Shape).Idx → α)
    (h : (⟨2, ![a, b]⟩ : Shape).Slices ![0, o] ⟨2, ![a, 1]⟩) (r : Fin a) (u : Fin 1) :
    extractStridedSlice ⟨2, ![a, 1]⟩ ![0, o] X h (ix2 r u) = X (ix2 r (⟨o, ho⟩ : Fin b)) :=
  slice2_axis1_apply o X h r u ⟨o, ho⟩ (by have := u.isLt; show o = o + u.val; omega)

/-- A vector of `a` entries cast to a column `[a, 1]` reads, at `(r, u)`, entry `r`: the two indices have the same
    row-major position `r`. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    omega)

/-- A column `[a, 1]` broadcast along the second axis to `[a, b]` reads, at `(r, j)`, the column's entry `r`. -/
theorem broadcastTo_a1_ab_apply {a b : ℕ} (v : (⟨2, ![a, 1]⟩ : Shape).Idx → α) (h : (⟨2, ![a, 1]⟩ : Shape).Broadcasts ⟨2, ![a, b]⟩)
    (r : Fin a) (j : Fin b) : broadcastTo ⟨2, ![a, b]⟩ v h (ix2 r j) = v (ix2 r (0 : Fin 1)) := by
  refine broadcastTo_apply v h (ix2 r j) (ix2 r (0 : Fin 1)) fun ax => ?_
  match ax with
  | ⟨0, _⟩ =>
    show r.val = if a = 1 then 0 else r.val
    split
    · have := r.isLt; omega
    · rfl
  | ⟨1, _⟩ => rfl

/-! ## A row's reduction along the second axis -/

/-- Row `r` of the reduced array with coordinate `k` put back on the reduced (second) axis is the index `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

/-- A kernel's minimum reduction of an `[a, b]` array along its second axis, at the extended reals, read at row `r`:
    the fold of `min` from the accumulator's value over the row's `b` entries. -/
theorem multiReduction_minimumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.minimumf.neutral φ hφ) (r : Fin a) :
    multiReduction .minimumf [1] ⟨1, ![a]⟩ src acc h hφ hacc (ix1 r)
      = (Finset.univ : Finset (Fin b)).fold min (Ideal.ofBits φ acc) (fun k => src (ix2 r k)) := by
  rw [multiReduction_minimumf_eq_fold]
  refine (h.fold_filter_drop_single _ _ src (ix1 r)).trans ?_
  exact congrArg (fun f => Finset.fold min (Ideal.ofBits φ acc) f (Finset.univ : Finset (Fin b)))
    (funext fun k => congrArg src (lift_row h r k))

/-- The same for a maximum reduction: the fold of `max` over the row. -/
theorem multiReduction_maximumf_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [multiReduction_maximumf_eq_fold]
  refine (h.fold_filter_drop_single _ _ src (ix1 r)).trans ?_
  exact congrArg (fun f => Finset.fold max (Ideal.ofBits φ acc) f (Finset.univ : Finset (Fin b)))
    (funext fun k => congrArg src (lift_row h r k))

/-- A host reduce with a minimum body of an `[a, b]` array along its second axis, from the scalar constant `w`, read
    at row `r`: the same fold of `min` over the row, from the extended real `w` denotes. -/
theorem hostReduce_minimumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.minimumf x (constant (F := Ideal) (⟨0, ![]⟩ : Shape) .f32 w) h' hu (ix1 r)
      = (Finset.univ : Finset (Fin b)).fold min (Ideal.ofBits .f32 w) (fun k => x (ix2 r k)) := by
  rw [Host.reduce_eq_fold_single FloatOps.minimumf x _ h' h hu]
  exact congrArg (fun f => Finset.fold min (Ideal.ofBits .f32 w) f (Finset.univ : Finset (Fin b)))
    (funext fun k => congrArg x (lift_row h r k))

/-- The same for a maximum body: the fold of `max` over the row. -/
theorem hostReduce_maximumf_row {a b : ℕ} (x : FVec Ideal ⟨2, ![a, b]⟩ .f32) (w : BitVec 32)
    (h' : (⟨2, ![a, b]⟩ : Shape).ReducesTo [1] (⟨1, ![a]⟩ : Shape)) (h : (⟨2, ![a, b]⟩ : Shape).Reduces [1] (⟨1, ![a]⟩ : Shape))
    (hu : 0 < (⟨0, ![]⟩ : Shape).numel) (r : Fin a) :
    Host.reduce FloatOps.maximumf x (constant (F := Ideal) (⟨0, ![]⟩ : Shape) .f32 w) h' hu (ix1 r)
      = (Finset.univ : Finset (Fin b)).fold max (Ideal.ofBits .f32 w) (fun k => x (ix2 r k)) := by
  rw [Host.reduce_eq_fold_single FloatOps.maximumf x _ h' h hu]
  exact congrArg (fun f => Finset.fold max (Ideal.ofBits .f32 w) f (Finset.univ : Finset (Fin b)))
    (funext fun k => congrArg x (lift_row h r k))

end Cert.Columns

end
-- ==== Proof.LibRowSum.lean ====
/-
  The sum of a row of a rank-2 array, read at the row.

  A kernel's vector reduction by addition of an `[a, b]` array along its second axis keeps one value per row.
  Over the extended reals addition is exact, so the value at row `r` is the plain sum over the row's `b` entries,
  `∑ k, src (r, k)`, whatever order the hardware adds them in (`multiReduction_add_row`).
-/
import proofs.«142331_j455266533874_2_alg».proof.Proof.LibColumns

noncomputable section

namespace Cert.RowSum

open Idealize.ShloMosaic Idealize.ShloMosaic.ValueIdx

/-- A kernel's sum of an `[a, b]` array along its second axis, at the extended reals, read at row `r`: the sum of the
    row's `b` entries. -/
theorem multiReduction_add_row {a b : ℕ} {φ : FTy} (src : FVec Ideal ⟨2, ![a, b]⟩ φ) (acc : BitVec φ.bits)
    (h : (⟨2, ![a, b]⟩ : Shape).Reduces [1] (⟨1, ![a]⟩ : Shape)) (hφ : FKind.Formats φ)
    (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  exact congrArg (fun f => Finset.sum (Finset.univ : Finset (Fin b)) f)
    (funext fun k => congrArg src (Cert.Columns.lift_row h r k))

end Cert.RowSum

end
-- ==== Proof.KPay.lean ====
/-
  The kernel body's arithmetic read at an index, over the extended reals.

  The body computes, from a block of 1000 feature rows and the whole weight arrays, the block's hidden rows, token
  scores and edge projections.  Every step acts on a row by itself: a matrix product's entry `(r, c)` is the sum over
  the contracted axis of row `r` of the left factor times column `c` of the right one; a reduction along the second
  axis keeps one number per row; a bias is the same for every row.  So entry `(r, ·)` of each result depends only on row
  `r` of the feature block, through the row functions of the specification.  The memory slots enter twice, once
  transposed; the two copies are related by the hypothesis `hT`.  A change of float format is the identity here.
-/
import proofs.«142331_j455266533874_2_alg».proof.Proof.Gen.KernelIdeal.Skeleton
import proofs.«142331_j455266533874_2_alg».proof.Proof.Spec
import proofs.«142331_j455266533874_2_alg».proof.Proof.LibColumns
import proofs.«142331_j455266533874_2_alg».proof.Proof.LibRowSum
import Idealize.ShloMosaic.Lib.ValueIdx
import Idealize.ShloMosaic.Lib.ValueLayout
import Idealize.ShloMosaic.Lib.Pipeline.Value
import Idealize.ShloMosaic.PureOps.Ideal.Laws

noncomputable section

namespace Cert.KPay

open Cert.KernelIdeal Cert.KernelIdeal.Gen Idealize.ShloMosaic Idealize.ShloMosaic.ValueIdx

/-! ## The matrix products -/

theorem mm_feat_enc_l0 (i : S1000x128.Idx) (q : dot_S1000x256_S256x128_S1000x128_1_0_0_1_n_n.contr.Idx) : (dot_S1000x256_S256x128_S1000x128_1_0_0_1_n_n.lhsIdx i q 0).val = (i 0).val := by
  unfold DotDims.lhsIdx
  rw [dif_neg (show ¬(0 : Fin S1000x256.rank) ∈ dot_S1000x256_S256x128_S1000x128_1_0_0_1_n_n.lhsBatch by decide), dif_pos (show (0 : Fin S1000x256.rank) ∈ dot_S1000x256_S256x128_S1000x128_1_0_0_1_n_n.lhsNonContracting by decide)]
  rfl
theorem mm_feat_enc_r1 (i : S1000x128.Idx) (q : dot_S1000x256_S256x128_S1000x128_1_0_0_1_n_n.contr.Idx) : (dot_S1000x256_S256x128_S1000x128_1_0_0_1_n_n.rhsIdx i q 1).val = (i 1).val := by
  unfold DotDims.rhsIdx
  rw [dif_neg (show ¬(1 : Fin S256x128.rank) ∈ dot_S1000x256_S256x128_S1000x128_1_0_0_1_n_n.rhsBatch by decide), dif_pos (show (1 : Fin S256x128.rank) ∈ dot_S1000x256_S256x128_S1000x128_1_0_0_1_n_n.rhsNonContracting by decide)]
  rfl
/-- The product of a `[1000, 256]` block with a `[256, 128]` array into a zero accumulator, read at `(r, c)`: the sum
    over the 256 contracted positions of row `r` of the left factor times column `c` of the right one. -/
theorem mm_feat_enc {φ₁ φ₂ : FTy} (lhs : FVec Ideal S1000x256 φ₁) (rhs : FVec Ideal S256x128 φ₂) (r : Fin 1000) (c : Fin 128) :
    matmul dot_S1000x256_S256x128_S1000x128_1_0_0_1_n_n none lhs rhs (constant S1000x128 .f32 0x00000000#32) (ix2 r c)
      = ∑ k : Fin 256, lhs (ix2 r k) * rhs (ix2 k c) := by
  simp only [matmul]
  rw [Ideal.matmul_constant_zero_apply, ← Equiv.sum_comp (ValueIdx.contrEquiv1 dot_S1000x256_S256x128_S1000x128_1_0_0_1_n_n 256 rfl rfl).symm]
  refine Finset.sum_congr rfl fun k _ => ?_
  have hk := ValueIdx.contrEquiv1_symm_val dot_S1000x256_S256x128_S1000x128_1_0_0_1_n_n 256 rfl rfl k
  have el : dot_S1000x256_S256x128_S1000x128_1_0_0_1_n_n.lhsIdx (ix2 r c) ((ValueIdx.contrEquiv1 dot_S1000x256_S256x128_S1000x128_1_0_0_1_n_n 256 rfl rfl).symm k) = ix2 r k := funext fun a => Fin.ext (by
    match a with
    | ⟨0, _⟩ => exact mm_feat_enc_l0 _ _
    | ⟨1, _⟩ => exact (dot_S1000x256_S256x128_S1000x128_1_0_0_1_n_n.lhsIdx_val_of_single rfl _ _).trans hk)
  have er : dot_S1000x256_S256x128_S1000x128_1_0_0_1_n_n.rhsIdx (ix2 r c) ((ValueIdx.contrEquiv1 dot_S1000x256_S256x128_S1000x128_1_0_0_1_n_n 256 rfl rfl).symm k) = ix2 k c := funext fun a => Fin.ext (by
    match a with
    | ⟨0, _⟩ => exact (dot_S1000x256_S256x128_S1000x128_1_0_0_1_n_n.rhsIdx_val_of_single rfl _ _).trans hk
    | ⟨1, _⟩ => exact mm_feat_enc_r1 _ _)
  rw [el, er]

theorem mm_enc_slots_l0 (i : S1000x512.Idx) (q : dot_S1000x128_S128x512_S1000x512_1_0_0_1_n_n.contr.Idx) : (dot_S1000x128_S128x512_S1000x512_1_0_0_1_n_n.lhsIdx i q 0).val = (i 0).val := by
  unfold DotDims.lhsIdx
  rw [dif_neg (show ¬(0 : Fin S1000x128.rank) ∈ dot_S1000x128_S128x512_S1000x512_1_0_0_1_n_n.lhsBatch by decide), dif_pos (show (0 : Fin S1000x128.rank) ∈ dot_S1000x128_S128x512_S1000x512_1_0_0_1_n_n.lhsNonContracting by decide)]
  rfl
theorem mm_enc_slots_r1 (i : S1000x512.Idx) (q : dot_S1000x128_S128x512_S1000x512_1_0_0_1_n_n.contr.Idx) : (dot_S1000x128_S128x512_S1000x512_1_0_0_1_n_n.rhsIdx i q 1).val = (i 1).val := by
  unfold DotDims.rhsIdx
  rw [dif_neg (show ¬(1 : Fin S128x512.rank) ∈ dot_S1000x128_S128x512_S1000x512_1_0_0_1_n_n.rhsBatch by decide), dif_pos (show (1 : Fin S128x512.rank) ∈ dot_S1000x128_S128x512_S1000x512_1_0_0_1_n_n.rhsNonContracting by decide)]
  rfl
/-- The product of a `[1000, 128]` block with a `[128, 512]` array into a zero accumulator, read at `(r, c)`: the sum
    over the 128 contracted positions of row `r` of the left factor times column `c` of the right one. -/
theorem mm_enc_slots {φ₁ φ₂ : FTy} (lhs : FVec Ideal S1000x128 φ₁) (rhs : FVec Ideal S128x512 φ₂) (r : Fin 1000) (c : Fin 512) :
    matmul dot_S1000x128_S128x512_S1000x512_1_0_0_1_n_n none lhs rhs (constant S1000x512 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S1000x128_S128x512_S1000x512_1_0_0_1_n_n 128 rfl rfl).symm]
  refine Finset.sum_congr rfl fun k _ => ?_
  have hk := ValueIdx.contrEquiv1_symm_val dot_S1000x128_S128x512_S1000x512_1_0_0_1_n_n 128 rfl rfl k
  have el : dot_S1000x128_S128x512_S1000x512_1_0_0_1_n_n.lhsIdx (ix2 r c) ((ValueIdx.contrEquiv1 dot_S1000x128_S128x512_S1000x512_1_0_0_1_n_n 128 rfl rfl).symm k) = ix2 r k := funext fun a => Fin.ext (by
    match a with
    | ⟨0, _⟩ => exact mm_enc_slots_l0 _ _
    | ⟨1, _⟩ => exact (dot_S1000x128_S128x512_S1000x512_1_0_0_1_n_n.lhsIdx_val_of_single rfl _ _).trans hk)
  have er : dot_S1000x128_S128x512_S1000x512_1_0_0_1_n_n.rhsIdx (ix2 r c) ((ValueIdx.contrEquiv1 dot_S1000x128_S128x512_S1000x512_1_0_0_1_n_n 128 rfl rfl).symm k) = ix2 k c := funext fun a => Fin.ext (by
    match a with
    | ⟨0, _⟩ => exact (dot_S1000x128_S128x512_S1000x512_1_0_0_1_n_n.rhsIdx_val_of_single rfl _ _).trans hk
    | ⟨1, _⟩ => exact mm_enc_slots_r1 _ _)
  rw [el, er]

theorem mm_attn_mem_l0 (i : S1000x128.Idx) (q : dot_S1000x512_S512x128_S1000x128_1_0_0_1_n_n.contr.Idx) : (dot_S1000x512_S512x128_S1000x128_1_0_0_1_n_n.lhsIdx i q 0).val = (i 0).val := by
  unfold DotDims.lhsIdx
  rw [dif_neg (show ¬(0 : Fin S1000x512.rank) ∈ dot_S1000x512_S512x128_S1000x128_1_0_0_1_n_n.lhsBatch by decide), dif_pos (show (0 : Fin S1000x512.rank) ∈ dot_S1000x512_S512x128_S1000x128_1_0_0_1_n_n.lhsNonContracting by decide)]
  rfl
theorem mm_attn_mem_r1 (i : S1000x128.Idx) (q : dot_S1000x512_S512x128_S1000x128_1_0_0_1_n_n.contr.Idx) : (dot_S1000x512_S512x128_S1000x128_1_0_0_1_n_n.rhsIdx i q 1).val = (i 1).val := by
  unfold DotDims.rhsIdx
  rw [dif_neg (show ¬(1 : Fin S512x128.rank) ∈ dot_S1000x512_S512x128_S1000x128_1_0_0_1_n_n.rhsBatch by decide), dif_pos (show (1 : Fin S512x128.rank) ∈ dot_S1000x512_S512x128_S1000x128_1_0_0_1_n_n.rhsNonContracting by decide)]
  rfl
/-- The product of a `[1000, 512]` block with a `[512, 128]` array into a zero accumulator, read at `(r, c)`: the sum
    over the 512 contracted positions of row `r` of the left factor times column `c` of the right one. -/
theorem mm_attn_mem {φ₁ φ₂ : FTy} (lhs : FVec Ideal S1000x512 φ₁) (rhs : FVec Ideal S512x128 φ₂) (r : Fin 1000) (c : Fin 128) :
    matmul dot_S1000x512_S512x128_S1000x128_1_0_0_1_n_n none lhs rhs (constant S1000x128 .f32 0x00000000#32) (ix2 r c)
      = ∑ k : Fin 512, lhs (ix2 r k) * rhs (ix2 k c) := by
  simp only [matmul]
  rw [Ideal.matmul_constant_zero_apply, ← Equiv.sum_comp (ValueIdx.contrEquiv1 dot_S1000x512_S512x128_S1000x128_1_0_0_1_n_n 512 rfl rfl).symm]
  refine Finset.sum_congr rfl fun k _ => ?_
  have hk := ValueIdx.contrEquiv1_symm_val dot_S1000x512_S512x128_S1000x128_1_0_0_1_n_n 512 rfl rfl k
  have el : dot_S1000x512_S512x128_S1000x128_1_0_0_1_n_n.lhsIdx (ix2 r c) ((ValueIdx.contrEquiv1 dot_S1000x512_S512x128_S1000x128_1_0_0_1_n_n 512 rfl rfl).symm k) = ix2 r k := funext fun a => Fin.ext (by
    match a with
    | ⟨0, _⟩ => exact mm_attn_mem_l0 _ _
    | ⟨1, _⟩ => exact (dot_S1000x512_S512x128_S1000x128_1_0_0_1_n_n.lhsIdx_val_of_single rfl _ _).trans hk)
  have er : dot_S1000x512_S512x128_S1000x128_1_0_0_1_n_n.rhsIdx (ix2 r c) ((ValueIdx.contrEquiv1 dot_S1000x512_S512x128_S1000x128_1_0_0_1_n_n 512 rfl rfl).symm k) = ix2 k c := funext fun a => Fin.ext (by
    match a with
    | ⟨0, _⟩ => exact (dot_S1000x512_S512x128_S1000x128_1_0_0_1_n_n.rhsIdx_val_of_single rfl _ _).trans hk
    | ⟨1, _⟩ => exact mm_attn_mem_r1 _ _)
  rw [el, er]

theorem mm_hid_tok_l0 (i : S1000x2048.Idx) (q : dot_S1000x128_S128x2048_S1000x2048_1_0_0_1_n_n.contr.Idx) : (dot_S1000x128_S128x2048_S1000x2048_1_0_0_1_n_n.lhsIdx i q 0).val = (i 0).val := by
  unfold DotDims.lhsIdx
  rw [dif_neg (show ¬(0 : Fin S1000x128.rank) ∈ dot_S1000x128_S128x2048_S1000x2048_1_0_0_1_n_n.lhsBatch by decide), dif_pos (show (0 : Fin S1000x128.rank) ∈ dot_S1000x128_S128x2048_S1000x2048_1_0_0_1_n_n.lhsNonContracting by decide)]
  rfl
theorem mm_hid_tok_r1 (i : S1000x2048.Idx) (q : dot_S1000x128_S128x2048_S1000x2048_1_0_0_1_n_n.contr.Idx) : (dot_S1000x128_S128x2048_S1000x2048_1_0_0_1_n_n.rhsIdx i q 1).val = (i 1).val := by
  unfold DotDims.rhsIdx
  rw [dif_neg (show ¬(1 : Fin S128x2048.rank) ∈ dot_S1000x128_S128x2048_S1000x2048_1_0_0_1_n_n.rhsBatch by decide), dif_pos (show (1 : Fin S128x2048.rank) ∈ dot_S1000x128_S128x2048_S1000x2048_1_0_0_1_n_n.rhsNonContracting by decide)]
  rfl
/-- The product of a `[1000, 128]` block with a `[128, 2048]` array into a zero accumulator, read at `(r, c)`: the sum
    over the 128 contracted positions of row `r` of the left factor times column `c` of the right one. -/
theorem mm_hid_tok {φ₁ φ₂ : FTy} (lhs : FVec Ideal S1000x128 φ₁) (rhs : FVec Ideal S128x2048 φ₂) (r : Fin 1000) (c : Fin 2048) :
    matmul dot_S1000x128_S128x2048_S1000x2048_1_0_0_1_n_n none lhs rhs (constant S1000x2048 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S1000x128_S128x2048_S1000x2048_1_0_0_1_n_n 128 rfl rfl).symm]
  refine Finset.sum_congr rfl fun k _ => ?_
  have hk := ValueIdx.contrEquiv1_symm_val dot_S1000x128_S128x2048_S1000x2048_1_0_0_1_n_n 128 rfl rfl k
  have el : dot_S1000x128_S128x2048_S1000x2048_1_0_0_1_n_n.lhsIdx (ix2 r c) ((ValueIdx.contrEquiv1 dot_S1000x128_S128x2048_S1000x2048_1_0_0_1_n_n 128 rfl rfl).symm k) = ix2 r k := funext fun a => Fin.ext (by
    match a with
    | ⟨0, _⟩ => exact mm_hid_tok_l0 _ _
    | ⟨1, _⟩ => exact (dot_S1000x128_S128x2048_S1000x2048_1_0_0_1_n_n.lhsIdx_val_of_single rfl _ _).trans hk)
  have er : dot_S1000x128_S128x2048_S1000x2048_1_0_0_1_n_n.rhsIdx (ix2 r c) ((ValueIdx.contrEquiv1 dot_S1000x128_S128x2048_S1000x2048_1_0_0_1_n_n 128 rfl rfl).symm k) = ix2 k c := funext fun a => Fin.ext (by
    match a with
    | ⟨0, _⟩ => exact (dot_S1000x128_S128x2048_S1000x2048_1_0_0_1_n_n.rhsIdx_val_of_single rfl _ _).trans hk
    | ⟨1, _⟩ => exact mm_hid_tok_r1 _ _)
  rw [el, er]

theorem mm_hid_edge_l0 (i : S1000x3.Idx) (q : dot_S1000x128_S128x3_S1000x3_1_0_0_1_n_n.contr.Idx) : (dot_S1000x128_S128x3_S1000x3_1_0_0_1_n_n.lhsIdx i q 0).val = (i 0).val := by
  unfold DotDims.lhsIdx
  rw [dif_neg (show ¬(0 : Fin S1000x128.rank) ∈ dot_S1000x128_S128x3_S1000x3_1_0_0_1_n_n.lhsBatch by decide), dif_pos (show (0 : Fin S1000x128.rank) ∈ dot_S1000x128_S128x3_S1000x3_1_0_0_1_n_n.lhsNonContracting by decide)]
  rfl
theorem mm_hid_edge_r1 (i : S1000x3.Idx) (q : dot_S1000x128_S128x3_S1000x3_1_0_0_1_n_n.contr.Idx) : (dot_S1000x128_S128x3_S1000x3_1_0_0_1_n_n.rhsIdx i q 1).val = (i 1).val := by
  unfold DotDims.rhsIdx
  rw [dif_neg (show ¬(1 : Fin S128x3.rank) ∈ dot_S1000x128_S128x3_S1000x3_1_0_0_1_n_n.rhsBatch by decide), dif_pos (show (1 : Fin S128x3.rank) ∈ dot_S1000x128_S128x3_S1000x3_1_0_0_1_n_n.rhsNonContracting by decide)]
  rfl
/-- The product of a `[1000, 128]` block with a `[128, 3]` array into a zero accumulator, read at `(r, c)`: the sum
    over the 128 contracted positions of row `r` of the left factor times column `c` of the right one. -/
theorem mm_hid_edge {φ₁ φ₂ : FTy} (lhs : FVec Ideal S1000x128 φ₁) (rhs : FVec Ideal S128x3 φ₂) (r : Fin 1000) (c : Fin 3) :
    matmul dot_S1000x128_S128x3_S1000x3_1_0_0_1_n_n none lhs rhs (constant S1000x3 .f32 0x00000000#32) (ix2 r c)
      = ∑ k : Fin 128, lhs (ix2 r k) * rhs (ix2 k c) := by
  simp only [matmul]
  rw [Ideal.matmul_constant_zero_apply, ← Equiv.sum_comp (ValueIdx.contrEquiv1 dot_S1000x128_S128x3_S1000x3_1_0_0_1_n_n 128 rfl rfl).symm]
  refine Finset.sum_congr rfl fun k _ => ?_
  have hk := ValueIdx.contrEquiv1_symm_val dot_S1000x128_S128x3_S1000x3_1_0_0_1_n_n 128 rfl rfl k
  have el : dot_S1000x128_S128x3_S1000x3_1_0_0_1_n_n.lhsIdx (ix2 r c) ((ValueIdx.contrEquiv1 dot_S1000x128_S128x3_S1000x3_1_0_0_1_n_n 128 rfl rfl).symm k) = ix2 r k := funext fun a => Fin.ext (by
    match a with
    | ⟨0, _⟩ => exact mm_hid_edge_l0 _ _
    | ⟨1, _⟩ => exact (dot_S1000x128_S128x3_S1000x3_1_0_0_1_n_n.lhsIdx_val_of_single rfl _ _).trans hk)
  have er : dot_S1000x128_S128x3_S1000x3_1_0_0_1_n_n.rhsIdx (ix2 r c) ((ValueIdx.contrEquiv1 dot_S1000x128_S128x3_S1000x3_1_0_0_1_n_n 128 rfl rfl).symm k) = ix2 k c := funext fun a => Fin.ext (by
    match a with
    | ⟨0, _⟩ => exact (dot_S1000x128_S128x3_S1000x3_1_0_0_1_n_n.rhsIdx_val_of_single rfl _ _).trans hk
    | ⟨1, _⟩ => exact mm_hid_edge_r1 _ _)
  rw [el, er]

/-! ## Pointwise transcendental steps -/

theorem tanh_apply {s : Shape} {φ : FTy} (a : FVec Ideal s φ) (i : s.Idx) : tanh a i = Ideal.tanh (a i) := rfl
theorem exp_apply {s : Shape} {φ : FTy} (a : FVec Ideal s φ) (i : s.Idx) : exp a i = Ideal.exp (a i) := rfl

/-! ## The stages of the hidden rows -/

section Hidden

variable (x0 : FVec Ideal S1000x256 .f32) (x1 : FVec Ideal S256x128 .f32) (x3 : FVec Ideal S128 .f32)
  (x8 : FVec Ideal S128x512 .f32) (x22 : FVec Ideal S512x128 .f32)

/-- The encoded block. -/
def encB : FVec Ideal S1000x128 .f32 :=
  tanh (addf (matmul dot_S1000x256_S256x128_S1000x128_1_0_0_1_n_n none x0 x1 (constant S1000x128 .f32 0x00000000#32))
    (broadcastTo S1000x128 (shapeCast S1x128 x3 shapeCasts_S128_S1x128) broadcasts_S1x128_S1000x128))

theorem encB_apply (r : Fin 1000) (j : Fin 128) :
    encB x0 x1 x3 (ix2 r j)
      = Spec.enc (fun k => x0 (ix2 r k)) (fun k j => x1 (ix2 k j)) (fun j => x3 (ix1 j)) j := by
  unfold encB Spec.enc
  rw [tanh_apply, addf_apply, mm_feat_enc, broadcastTo_1b_ab_apply, shapeCast_a_1a_apply]

/-- The block's scores against the slots. -/
def logitB : FVec Ideal S1000x512 .f32 :=
  divf (matmul dot_S1000x128_S128x512_S1000x512_1_0_0_1_n_n none (encB x0 x1 x3) (shapeCast S128x512 x8 shapeCasts_S128x512_S128x512)
      (constant S1000x512 .f32 0x00000000#32))
    (broadcast S1000x512 (Scalar.ofBits .f32 0x413504F3#32))

theorem logitB_apply (hT : ∀ (k : Fin 128) (s : Fin 512), x8 (ix2 k s) = x22 (ix2 s k)) (r : Fin 1000) (s : Fin 512) :
    logitB x0 x1 x3 x8 (ix2 r s)
      = Spec.logit (fun k => x0 (ix2 r k)) (fun k j => x1 (ix2 k j)) (fun j => x3 (ix1 j)) (fun s j => x22 (ix2 s j)) s := by
  unfold logitB Spec.logit
  rw [divf_apply, mm_enc_slots, shapeCast_self, broadcast_apply]
  refine congrArg (fun z => Ideal.div z _) (Finset.sum_congr rfl fun k _ => ?_)
  rw [encB_apply, hT]

/-- Each row's largest score. -/
def maxB : FVec Ideal S1000 .f32 :=
  multiReduction .maximumf [1] S1000 (logitB x0 x1 x3 x8) 0xFF800000#32 reduces_S1000x512_S1000 (.inl rfl) rfl

theorem maxB_apply (hT : ∀ (k : Fin 128) (s : Fin 512), x8 (ix2 k s) = x22 (ix2 s k)) (r : Fin 1000) :
    maxB x0 x1 x3 x8 (ix1 r)
      = Spec.rowMax (fun k => x0 (ix2 r k)) (fun k j => x1 (ix2 k j)) (fun j => x3 (ix1 j)) (fun s j => x22 (ix2 s j)) := by
  unfold maxB Spec.rowMax
  refine (Cert.Columns.multiReduction_maximumf_row (logitB x0 x1 x3 x8) 0xFF800000#32 reduces_S1000x512_S1000 (.inl rfl) rfl r).trans ?_
  exact congrArg (fun f => Finset.fold max (Ideal.ofBits .f32 0xFF800000#32) f (Finset.univ : Finset (Fin 512)))
    (funext fun s => logitB_apply x0 x1 x3 x8 x22 hT r s)

/-- The shifted scores, exponentiated. -/
def exB : FVec Ideal S1000x512 .f32 :=
  exp (subf (logitB x0 x1 x3 x8)
    (broadcastTo S1000x512 (shapeCast S1000x1 (maxB x0 x1 x3 x8) shapeCasts_S1000_S1000x1) broadcasts_S1000x1_S1000x512))

theorem exB_apply (hT : ∀ (k : Fin 128) (s : Fin 512), x8 (ix2 k s) = x22 (ix2 s k)) (r : Fin 1000) (s : Fin 512) :
    exB x0 x1 x3 x8 (ix2 r s)
      = Spec.ex (fun k => x0 (ix2 r k)) (fun k j => x1 (ix2 k j)) (fun j => x3 (ix1 j)) (fun s j => x22 (ix2 s j)) s := by
  unfold exB Spec.ex
  rw [exp_apply, subf_apply, Cert.Columns.broadcastTo_a1_ab_apply, Cert.Columns.shapeCast_a_a1_apply,
    logitB_apply x0 x1 x3 x8 x22 hT, maxB_apply x0 x1 x3 x8 x22 hT]

/-- The attention weights. -/
def attnB : FVec Ideal S1000x512 .f32 :=
  divf (exB x0 x1 x3 x8)
    (broadcastTo S1000x512 (shapeCast S1000x1
      (multiReduction .add [1] S1000 (exB x0 x1 x3 x8) 0x00000000#32 reduces_S1000x512_S1000 (.inl rfl) rfl)
      shapeCasts_S1000_S1000x1) broadcasts_S1000x1_S1000x512)

theorem attnB_apply (hT : ∀ (k : Fin 128) (s : Fin 512), x8 (ix2 k s) = x22 (ix2 s k)) (r : Fin 1000) (s : Fin 512) :
    attnB x0 x1 x3 x8 (ix2 r s)
      = Spec.attn (fun k => x0 (ix2 r k)) (fun k j => x1 (ix2 k j)) (fun j => x3 (ix1 j)) (fun s j => x22 (ix2 s j)) s := by
  unfold attnB Spec.attn
  rw [divf_apply, Cert.Columns.broadcastTo_a1_ab_apply, Cert.Columns.shapeCast_a_a1_apply, exB_apply x0 x1 x3 x8 x22 hT]
  refine congrArg (fun z => Ideal.div _ z) ?_
  refine (Cert.RowSum.multiReduction_add_row (exB x0 x1 x3 x8) 0x00000000#32 reduces_S1000x512_S1000 (.inl rfl) rfl r).trans ?_
  exact Finset.sum_congr rfl fun u _ => exB_apply x0 x1 x3 x8 x22 hT r u

/-- The hidden rows of the block: what the body stores in its first output. -/
theorem pay3_eq :
    k0_pay3 (F := Ideal) x0 x1 x3 x8 x22
      = matmul dot_S1000x512_S512x128_S1000x128_1_0_0_1_n_n none (attnB x0 x1 x3 x8) x22 (constant S1000x128 .f32 0x00000000#32) := rfl

theorem pay3_apply (hT : ∀ (k : Fin 128) (s : Fin 512), x8 (ix2 k s) = x22 (ix2 s k)) (r : Fin 1000) (d : Fin 128) :
    k0_pay3 (F := Ideal) x0 x1 x3 x8 x22 (ix2 r d)
      = Spec.hid (fun k => x0 (ix2 r k)) (fun k j => x1 (ix2 k j)) (fun j => x3 (ix1 j)) (fun s j => x22 (ix2 s j)) d := by
  rw [pay3_eq, mm_attn_mem]
  unfold Spec.hid
  exact Finset.sum_congr rfl fun s _ => by rw [attnB_apply x0 x1 x3 x8 x22 hT]

end Hidden

/-! ## The token scores and the edge projections -/

/-- The token scores of a block: the hidden rows, passed through a change of format that is the identity, times the
    token weights, plus the bias row. -/
theorem pay4_apply (x0 : FVec Ideal S1000x256 .f32) (x1 : FVec Ideal S256x128 .f32) (x3 : FVec Ideal S128 .f32)
    (x8 : FVec Ideal S128x512 .f32) (x22 : FVec Ideal S512x128 .f32) (x26 : FVec Ideal S128x2048 .bf16) (x29 : FVec Ideal S2048 .f32)
    (r : Fin 1000) (v : Fin 2048) :
    k0_pay4 (F := Ideal) x0 x1 x3 x8 x22 x26 x29 (ix2 r v)
      = (∑ d : Fin 128, k0_pay3 (F := Ideal) x0 x1 x3 x8 x22 (ix2 r d) * x26 (ix2 d v)) + x29 (ix1 v) := by
  unfold k0_pay4
  rw [addf_apply, mm_hid_tok, broadcastTo_1b_ab_apply, shapeCast_a_1a_apply, shapeCast_self]
  rfl

/-- A three-column projection of a block of hidden rows. -/
theorem pay1_apply (v23 : FVec Ideal S1000x128 .f32) (v34 : FVec Ideal S128x3 .f32) (r : Fin 1000) (h : Fin 3) :
    k0_pay1 (F := Ideal) v23 v34 (ix2 r h) = ∑ d : Fin 128, v23 (ix2 r d) * v34 (ix2 d h) := by
  unfold k0_pay1
  rw [mm_hid_edge, shapeCast_self]

theorem pay2_apply (v23 : FVec Ideal S1000x128 .f32) (v38 : FVec Ideal S128x3 .f32) (r : Fin 1000) (h : Fin 3) :
    k0_pay2 (F := Ideal) v23 v38 (ix2 r h) = ∑ d : Fin 128, v23 (ix2 r d) * v38 (ix2 d h) := by
  unfold k0_pay2
  rw [mm_hid_edge, shapeCast_self]

end Cert.KPay

end
-- ==== Proof.LibUnitZero.lean ====
/-
  Two readings through a whole buffer's own view, at any value type.

  A memref that is a whole buffer, held at the contents that read as X, loaded through the unit-stride rectangle at
  zero offsets of the buffer's own sizes, reads X; and one store through that rectangle, read back through the view,
  is the stored payload, whatever the buffer held before.
-/
import Idealize.ShloMosaic.Lib.Pipeline.FrameBody
import Idealize.ShloMosaic.Lib.Pipeline.Frame
import Idealize.ShloMosaic.Lib.Pipeline.Value

noncomputable section

namespace Idealize.ShloMosaic

open Idealize.SL Idealize.SL.Sem

/-- The rank-2 zero offsets, spelt as a literal vector, are the constant zero function. -/
theorem zeroOff2 : (![0, 0] : Fin 2 → ℕ) = fun _ => 0 := by funext a; fin_cases a <;> rfl
/-- The rank-3 zero offsets likewise. -/
theorem zeroOff3 : (![0, 0, 0] : Fin 3 → ℕ) = fun _ => 0 := by funext a; fin_cases a <;> rfl

namespace View

variable {Val : EltTy → Type} {S : Shape} {e : EltTy} {sig : RefSig} {κ : Kind} {sp : Space}

/-- One store through the whole-shape rectangle at zero offsets, read back through the view: the payload. -/
theorem read_writes_unit_zero [∀ e, Nonempty (Val e)] (v : View sig κ sp S e) (f : v.ty.Contents Val)
    {off : Fin S.rank → Nat} (h : off = fun _ => 0) (inb : ∀ a, off a + S.size a ≤ S.size a) (w : S.Idx → Val e) :
    v.read Val (v.writes Val f [(⟨Rect.unit off S.size inb, w⟩ : Piece Val S e)]) = w := by
  rw [View.read_writes_eq_canon v f _ (fun y => ⟨_, List.mem_singleton_self _, View.mem_set_unit_zero h inb y⟩),
    View.canon_unit_zero h inb]

end View

namespace Memref.IsWhole

variable {Val : EltTy → Type} {S : Shape} {e : EltTy} {sig : RefSig} {κ : Kind} {sp : Space}

/-- A whole memref held at the contents that read as `X`, loaded through the whole-shape rectangle at zero offsets, reads `X`. -/
theorem readAt_unread_unit_zero {m : Memref sig κ sp S e} (hm : m.IsWhole) {off : Fin S.rank → Nat} (h : off = fun _ => 0)
    (inb : ∀ a, off a + S.size a ≤ S.size a) (X : S.Idx → Val e) :
    m.view.readAt Val (Rect.unit off S.size inb).toLoadRect (hm.unread X) = X := by
  rw [View.readAt_eq_ld, hm.read_unread, View.ld_unit_zero h inb]

end Memref.IsWhole

end Idealize.ShloMosaic

end
-- ==== Proof.KFinal.lean ====
/-
  The four arrays the kernel region leaves, as functions of the argument arrays.

  Row `n` of the hidden array is the specification's hidden row of node `n`'s feature row; row `n` of the token array is
  that hidden row times the token weights plus the bias; row `n` of each projection array is that hidden row times the
  upper (lower) halves of the three edge weight columns.  At grid point `t` the body writes rows `1000 t … 1000 t + 999`
  of each, computed from the same rows of the feature array, and the 100 points together cover every row.
-/
import proofs.«142331_j455266533874_2_alg».proof.Proof.KReads
import proofs.«142331_j455266533874_2_alg».proof.Proof.KPay
import proofs.«142331_j455266533874_2_alg».proof.Proof.LibUnitZero

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx

variable (m : (ℓ : Loc nD τ sig) → Buf (Elt Ideal) ℓ)

theorem zeroOff1 : (![0] : Fin 1 → ℕ) = fun _ => 0 := by funext a; fin_cases a; rfl

/-! ## Each output block is the body's payload of the input blocks -/

theorem out0_9_eq (x0 : Vec Ideal S1000x256 .f32) (x1 : Vec Ideal S256x128 .f32) (x2 : Vec Ideal S128 .f32) (x3 : Vec Ideal S512x128 .f32) (x4 : Vec Ideal S128x512 .f32) (x5 : Vec Ideal S128x2048 .bf16) (x6 : Vec Ideal S2048 .f32) (x7 : Vec Ideal S128x3 .f32) (x8 : Vec Ideal S128x3 .f32) :
    out0_9 x0 x1 x2 x3 x4 x5 x6 x7 x8 = k0_pay3 x0 x1 x2 x4 x3 := by
  unfold out0_9
  rw [View.canon_unit_zero zeroOff2]
  simp only [View.ld_unit_zero (S := S1000x256) zeroOff2, View.ld_unit_zero (S := S256x128) zeroOff2, View.ld_unit_zero (S := S128) zeroOff1, View.ld_unit_zero (S := S512x128) zeroOff2, View.ld_unit_zero (S := S128x512) zeroOff2, View.ld_unit_zero (S := S128x2048) zeroOff2, View.ld_unit_zero (S := S2048) zeroOff1, View.ld_unit_zero (S := S128x3) zeroOff2]

theorem out0_10_eq (x0 : Vec Ideal S1000x256 .f32) (x1 : Vec Ideal S256x128 .f32) (x2 : Vec Ideal S128 .f32) (x3 : Vec Ideal S512x128 .f32) (x4 : Vec Ideal S128x512 .f32) (x5 : Vec Ideal S128x2048 .bf16) (x6 : Vec Ideal S2048 .f32) (x7 : Vec Ideal S128x3 .f32) (x8 : Vec Ideal S128x3 .f32) :
    out0_10 x0 x1 x2 x3 x4 x5 x6 x7 x8 = k0_pay4 x0 x1 x2 x4 x3 x5 x6 := by
  unfold out0_10
  rw [View.canon_unit_zero zeroOff2]
  simp only [View.ld_unit_zero (S := S1000x256) zeroOff2, View.ld_unit_zero (S := S256x128) zeroOff2, View.ld_unit_zero (S := S128) zeroOff1, View.ld_unit_zero (S := S512x128) zeroOff2, View.ld_unit_zero (S := S128x512) zeroOff2, View.ld_unit_zero (S := S128x2048) zeroOff2, View.ld_unit_zero (S := S2048) zeroOff1, View.ld_unit_zero (S := S128x3) zeroOff2]

theorem out0_11_eq (x0 : Vec Ideal S1000x256 .f32) (x1 : Vec Ideal S256x128 .f32) (x2 : Vec Ideal S128 .f32) (x3 : Vec Ideal S512x128 .f32) (x4 : Vec Ideal S128x512 .f32) (x5 : Vec Ideal S128x2048 .bf16) (x6 : Vec Ideal S2048 .f32) (x7 : Vec Ideal S128x3 .f32) (x8 : Vec Ideal S128x3 .f32) :
    out0_11 x0 x1 x2 x3 x4 x5 x6 x7 x8 = k0_pay1 (k0_pay3 x0 x1 x2 x4 x3) x7 := by
  unfold out0_11
  rw [View.canon_unit_zero zeroOff2]
  simp only [View.ld_unit_zero (S := S1000x256) zeroOff2, View.ld_unit_zero (S := S256x128) zeroOff2, View.ld_unit_zero (S := S128) zeroOff1, View.ld_unit_zero (S := S512x128) zeroOff2, View.ld_unit_zero (S := S128x512) zeroOff2, View.ld_unit_zero (S := S128x2048) zeroOff2, View.ld_unit_zero (S := S2048) zeroOff1, View.ld_unit_zero (S := S128x3) zeroOff2]

theorem out0_12_eq (x0 : Vec Ideal S1000x256 .f32) (x1 : Vec Ideal S256x128 .f32) (x2 : Vec Ideal S128 .f32) (x3 : Vec Ideal S512x128 .f32) (x4 : Vec Ideal S128x512 .f32) (x5 : Vec Ideal S128x2048 .bf16) (x6 : Vec Ideal S2048 .f32) (x7 : Vec Ideal S128x3 .f32) (x8 : Vec Ideal S128x3 .f32) :
    out0_12 x0 x1 x2 x3 x4 x5 x6 x7 x8 = k0_pay2 (k0_pay3 x0 x1 x2 x4 x3) x8 := by
  unfold out0_12
  rw [View.canon_unit_zero zeroOff2]
  simp only [View.ld_unit_zero (S := S1000x256) zeroOff2, View.ld_unit_zero (S := S256x128) zeroOff2, View.ld_unit_zero (S := S128) zeroOff1, View.ld_unit_zero (S := S512x128) zeroOff2, View.ld_unit_zero (S := S128x512) zeroOff2, View.ld_unit_zero (S := S128x2048) zeroOff2, View.ld_unit_zero (S := S2048) zeroOff1, View.ld_unit_zero (S := S128x3) zeroOff2]

/-! ## The hidden rows of a block -/

/-- Node `n`'s hidden row, from the argument arrays. -/
abbrev Hrow (a0 : S100000x256.Idx → EReal) (a2 : S256x128.Idx → EReal) (a3 : S128.Idx → EReal) (a4 : S512x128.Idx → EReal)
    (n : Fin 100000) (d : Fin 128) : EReal :=
  Cert.Spec.hid (fun k : Fin 256 => a0 (ix2 n k)) (fun (k : Fin 256) (j : Fin 128) => a2 (ix2 k j)) (fun j : Fin 128 => a3 (ix1 j))
    (fun (s : Fin 512) (j : Fin 128) => a4 (ix2 s j)) d

/-- The transposed memory block the body reads is the memory block, transposed. -/
theorem slots_transposed (c : Dev nD) (t : Fin cfg0.N) (k : Fin 128) (s : Fin 512) :
    iblk m c 4 t (ix2 k s) = iblk m c 3 t (ix2 s k) := by
  rw [iblk4_apply, iblk3_apply, V_v0, V_main_arg4]
  exact transpose_ix2_apply _ _ k s

/-- Row `r` of the hidden block at point `t` is the hidden row of node `1000 t + r`. -/
theorem hid_blk (c : Dev nD) (t : Fin cfg0.N) (r : Fin 1000) (d : Fin 128) :
    k0_pay3 (iblk m c 0 t) (iblk m c 1 t) (iblk m c 2 t) (iblk m c 4 t) (iblk m c 3 t) (ix2 r d)
      = Hrow (m ((c : Thread nD τ).loc main_arg0)) (m ((c : Thread nD τ).loc main_arg2)) (m ((c : Thread nD τ).loc main_arg3)) (m ((c : Thread nD τ).loc main_arg4)) (⟨t.val * 1000 + r.val, by have h1 := t.isLt; have h2 := N100; omega⟩ : Fin 100000) d := by
  refine (Cert.KPay.pay3_apply (iblk m c 0 t) (iblk m c 1 t) (iblk m c 2 t) (iblk m c 4 t) (iblk m c 3 t) (slots_transposed m c t) r d).trans ?_
  have e0 : (fun k : Fin 256 => iblk m c 0 t (ix2 r k)) = fun k : Fin 256 => (m ((c : Thread nD τ).loc main_arg0)) (ix2 (⟨t.val * 1000 + r.val, by have h1 := t.isLt; have h2 := N100; omega⟩ : Fin 100000) k) :=
    funext fun k => (iblk0_apply m c t r k).trans (congrFun (V_main_arg0 m c) _)
  have e1 : (fun (k : Fin 256) (j : Fin 128) => iblk m c 1 t (ix2 k j)) = fun (k : Fin 256) (j : Fin 128) => (m ((c : Thread nD τ).loc main_arg2)) (ix2 k j) :=
    funext fun k => funext fun j => (iblk1_apply m c t _).trans (congrFun (V_main_arg2 m c) _)
  have e2 : (fun j : Fin 128 => iblk m c 2 t (ix1 j)) = fun j : Fin 128 => (m ((c : Thread nD τ).loc main_arg3)) (ix1 j) :=
    funext fun j => (iblk2_apply m c t _).trans (congrFun (V_main_arg3 m c) _)
  have e3 : (fun (s : Fin 512) (j : Fin 128) => iblk m c 3 t (ix2 s j)) = fun (s : Fin 512) (j : Fin 128) => (m ((c : Thread nD τ).loc main_arg4)) (ix2 s j) :=
    funext fun s => funext fun j => (iblk3_apply m c t _).trans (congrFun (V_main_arg4 m c) _)
  show Cert.Spec.hid _ _ _ _ d = Cert.Spec.hid _ _ _ _ d
  rw [e0, e1, e2, e3]

/-! ## The hidden array -/

def G9 (a0 : S100000x256.Idx → EReal) (a2 : S256x128.Idx → EReal) (a3 : S128.Idx → EReal) (a4 : S512x128.Idx → EReal) :
    S100000x128.Idx → EReal :=
  fun i => Hrow a0 a2 a3 a4 ⟨(i 0).val, idx2_lt0 i⟩ ⟨(i 1).val, idx2_lt1 i⟩

theorem flushed9_eq (c : Dev nD) (t : Fin cfg0.N) :
    (dats m 0 c).flushed 9 t = ((cfg0.win 9).blk t).view.read (Elt Ideal) (G9 (m ((c : Thread nD τ).loc main_arg0)) (m ((c : Thread nD τ).loc main_arg2)) (m ((c : Thread nD τ).loc main_arg3)) (m ((c : Thread nD τ).loc main_arg4))) := by
  show (cfg0.win 9).cut (grid0.coords t) ((dats m 0 c).after 9 t) = _
  rw [after0_9, out0_9_eq]
  funext j
  obtain ⟨r, d, rfl⟩ : ∃ (r : Fin 1000) (d : Fin 128), j = ix2 r d := ⟨j 0, j 1, eq_ix2 j⟩
  show k0_pay3 (iblk m c 0 t) (iblk m c 1 t) (iblk m c 2 t) (iblk m c 4 t) (iblk m c 3 t) (ix2 r d) = G9 (m ((c : Thread nD τ).loc main_arg0)) (m ((c : Thread nD τ).loc main_arg2)) (m ((c : Thread nD τ).loc main_arg3)) (m ((c : Thread nD τ).loc main_arg4)) (((cfg0.win 9).blk t).view.emb (ix2 r d))
  rw [emb9 t r d]
  exact hid_blk m c t r d

theorem mem_blk9 (t : Fin cfg0.N) (i : S100000x128.Idx) :
    i ∈ ((cfg0.win 9).blk t).view.set ↔ ∀ a : Fin 2, win0_9.index t a * S1000x128.size a ≤ (i a).val ∧ (i a).val < win0_9.index t a * S1000x128.size a + S1000x128.size a := by
  show i ∈ ((View.whole main_v11_0).slice (win0_9.rect t)).set ↔ _
  rw [View.set_slice_whole, Rect.mem_set_unit]
  exact Iff.rfl

/-- Every entry of the array lies in the block of the point that holds its row. -/
theorem cover9 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  refine ⟨⟨(i 0).val / 1000, by rw [N100]; omega⟩, flush0_9 _, ?_⟩
  rw [mem_blk9]
  intro a
  match a with
  | ⟨0, _⟩ =>
    show win0_9.index _ (0 : Fin 2) * 1000 ≤ (i 0).val ∧ (i 0).val < win0_9.index _ (0 : Fin 2) * 1000 + 1000
    rw [idx9_0]
    show (i 0).val / 1000 * 1000 ≤ (i 0).val ∧ (i 0).val < (i 0).val / 1000 * 1000 + 1000
    omega
  | ⟨1, _⟩ =>
    show win0_9.index _ (1 : Fin 2) * 128 ≤ (i 1).val ∧ (i 1).val < win0_9.index _ (1 : Fin 2) * 128 + 128
    rw [idx9_1]
    omega

theorem final9 (c : Dev nD) :
    (dats m 0 c).arrAt 9 cfg0.N = G9 (m ((c : Thread nD τ).loc main_arg0)) (m ((c : Thread nD τ).loc main_arg2)) (m ((c : Thread nD τ).loc main_arg3)) (m ((c : Thread nD τ).loc main_arg4)) :=
  (dats m 0 c).arrAt_eq_of_cover 9 _ (fun t _ => flushed9_eq m c t) cover9

/-! ## The token array -/

def G10 (a0 : S100000x256.Idx → EReal) (a2 : S256x128.Idx → EReal) (a3 : S128.Idx → EReal) (a4 : S512x128.Idx → EReal)
    (a11 : S128x2048.Idx → EReal) (a12 : S2048.Idx → EReal) : S100000x2048.Idx → EReal :=
  fun i => (∑ d : Fin 128, Hrow a0 a2 a3 a4 ⟨(i 0).val, idx2_lt0 i⟩ d * a11 (ix2 d (⟨(i 1).val, idx2_lt1 i⟩ : Fin 2048)))
    + a12 (ix1 (⟨(i 1).val, idx2_lt1 i⟩ : Fin 2048))

theorem flushed10_eq (c : Dev nD) (t : Fin cfg0.N) :
    (dats m 0 c).flushed 10 t
      = ((cfg0.win 10).blk t).view.read (Elt Ideal) (G10 (m ((c : Thread nD τ).loc main_arg0)) (m ((c : Thread nD τ).loc main_arg2)) (m ((c : Thread nD τ).loc main_arg3)) (m ((c : Thread nD τ).loc main_arg4)) (m ((c : Thread nD τ).loc main_arg11)) (m ((c : Thread nD τ).loc main_arg12))) := by
  show (cfg0.win 10).cut (grid0.coords t) ((dats m 0 c).after 10 t) = _
  rw [after0_10, out0_10_eq]
  funext j
  obtain ⟨r, v, rfl⟩ : ∃ (r : Fin 1000) (v : Fin 2048), j = ix2 r v := ⟨j 0, j 1, eq_ix2 j⟩
  show k0_pay4 (iblk m c 0 t) (iblk m c 1 t) (iblk m c 2 t) (iblk m c 4 t) (iblk m c 3 t) (iblk m c 5 t) (iblk m c 6 t) (ix2 r v)
    = G10 (m ((c : Thread nD τ).loc main_arg0)) (m ((c : Thread nD τ).loc main_arg2)) (m ((c : Thread nD τ).loc main_arg3)) (m ((c : Thread nD τ).loc main_arg4)) (m ((c : Thread nD τ).loc main_arg11)) (m ((c : Thread nD τ).loc main_arg12)) (((cfg0.win 10).blk t).view.emb (ix2 r v))
  rw [emb10 t r v]
  refine (Cert.KPay.pay4_apply (iblk m c 0 t) (iblk m c 1 t) (iblk m c 2 t) (iblk m c 4 t) (iblk m c 3 t) (iblk m c 5 t) (iblk m c 6 t) r v).trans ?_
  have eW : ∀ d : Fin 128, iblk m c 5 t (ix2 d v) = (m ((c : Thread nD τ).loc main_arg11)) (ix2 d v) := fun d => by
    rw [iblk5_apply, V_v10]; rfl
  have eB : iblk m c 6 t (ix1 v) = (m ((c : Thread nD τ).loc main_arg12)) (ix1 v) := by
    rw [iblk6_apply]; exact congrFun (V_main_arg12 m c) _
  show (∑ d : Fin 128, _ * _) + _ = (∑ d : Fin 128, _ * _) + _
  rw [eB]
  exact congrArg (· + _) (Finset.sum_congr rfl fun d _ => by rw [hid_blk m c t r d, eW d])

theorem mem_blk10 (t : Fin cfg0.N) (i : S100000x2048.Idx) :
    i ∈ ((cfg0.win 10).blk t).view.set ↔ ∀ a : Fin 2, win0_10.index t a * S1000x2048.size a ≤ (i a).val ∧ (i a).val < win0_10.index t a * S1000x2048.size a + S1000x2048.size a := by
  show i ∈ ((View.whole main_v11_1).slice (win0_10.rect t)).set ↔ _
  rw [View.set_slice_whole, Rect.mem_set_unit]
  exact Iff.rfl

/-- Every entry of the array lies in the block of the point that holds its row. -/
theorem cover10 (i : S100000x2048.Idx) :
    ∃ t : Fin cfg0.N, (cfg0.win 10).flush t = true ∧ i ∈ ((cfg0.win 10).blk t).view.set := by
  have hi0 : (i 0).val < 100000 := (i 0).isLt
  have hi1 : (i 1).val < 2048 := (i 1).isLt
  refine ⟨⟨(i 0).val / 1000, by rw [N100]; omega⟩, flush0_10 _, ?_⟩
  rw [mem_blk10]
  intro a
  match a with
  | ⟨0, _⟩ =>
    show win0_10.index _ (0 : Fin 2) * 1000 ≤ (i 0).val ∧ (i 0).val < win0_10.index _ (0 : Fin 2) * 1000 + 1000
    rw [idx10_0]
    show (i 0).val / 1000 * 1000 ≤ (i 0).val ∧ (i 0).val < (i 0).val / 1000 * 1000 + 1000
    omega
  | ⟨1, _⟩ =>
    show win0_10.index _ (1 : Fin 2) * 2048 ≤ (i 1).val ∧ (i 1).val < win0_10.index _ (1 : Fin 2) * 2048 + 2048
    rw [idx10_1]
    omega

theorem final10 (c : Dev nD) :
    (dats m 0 c).arrAt 10 cfg0.N = G10 (m ((c : Thread nD τ).loc main_arg0)) (m ((c : Thread nD τ).loc main_arg2)) (m ((c : Thread nD τ).loc main_arg3)) (m ((c : Thread nD τ).loc main_arg4)) (m ((c : Thread nD τ).loc main_arg11)) (m ((c : Thread nD τ).loc main_arg12)) :=
  (dats m 0 c).arrAt_eq_of_cover 10 _ (fun t _ => flushed10_eq m c t) cover10

/-! ## The two projection arrays -/

/-- One of three things, by a number below three. -/
def sel3 {β : Type} (y0 y1 y2 : β) (h : Fin 3) : β :=
  match h with
  | ⟨0, _⟩ => y0
  | ⟨1, _⟩ => y1
  | ⟨2, _⟩ => y2

/-- Three columns laid side by side, read at `(d, h)`: column `h` at `d`. -/
theorem cat3_cols_apply (y0 y1 y2 : S128x1.Idx → EReal) (d : Fin 128) (h : Fin 3) :
    concatenate S128x3 1 [⟨S128x1, y0⟩, ⟨S128x1, y1⟩, ⟨S128x1, y2⟩] concatenates_S128x1_S128x1_S128x1_S128x3_d1 (ix2 d h)
      = sel3 y0 y1 y2 h (ix2 d (0 : Fin 1)) := by
  match h with
  | ⟨0, _⟩ =>
    exact concatenate_apply_piece (α := EReal) (t := S128x3) (1 : Fin 2) [⟨S128x1, y0⟩, ⟨S128x1, y1⟩, ⟨S128x1, y2⟩] concatenates_S128x1_S128x1_S128x1_S128x3_d1 (ix2 d (0 : Fin 3)) 0 (by simp) S128x1 y0 rfl rfl 0 rfl
      (ix2 d (0 : Fin 1)) (fun b hb => by match b with | ⟨0, _⟩ => rfl | ⟨1, _⟩ => exact absurd rfl hb) rfl
  | ⟨1, _⟩ =>
    exact concatenate_apply_piece (α := EReal) (t := S128x3) (1 : Fin 2) [⟨S128x1, y0⟩, ⟨S128x1, y1⟩, ⟨S128x1, y2⟩] concatenates_S128x1_S128x1_S128x1_S128x3_d1 (ix2 d (1 : Fin 3)) 1 (by simp) S128x1 y1 rfl rfl 1 rfl
      (ix2 d (0 : Fin 1)) (fun b hb => by match b with | ⟨0, _⟩ => rfl | ⟨1, _⟩ => exact absurd rfl hb) rfl
  | ⟨2, _⟩ =>
    exact concatenate_apply_piece (α := EReal) (t := S128x3) (1 : Fin 2) [⟨S128x1, y0⟩, ⟨S128x1, y1⟩, ⟨S128x1, y2⟩] concatenates_S128x1_S128x1_S128x1_S128x3_d1 (ix2 d (2 : Fin 3)) 2 (by simp) S128x1 y2 rfl rfl 2 rfl
      (ix2 d (0 : Fin 1)) (fun b hb => by match b with | ⟨0, _⟩ => rfl | ⟨1, _⟩ => exact absurd rfl hb) rfl

/-- Three one-entry vectors laid end to end, read at `h`: vector `h`'s entry. -/
theorem cat3_vec_apply (y0 y1 y2 : S1.Idx → EReal) (h : Fin 3) :
    concatenate S3 0 [⟨S1, y0⟩, ⟨S1, y1⟩, ⟨S1, y2⟩] concatenates_S1_S1_S1_S3_d0 (ix1 h)
      = sel3 y0 y1 y2 h (ix1 (0 : Fin 1)) := by
  match h with
  | ⟨0, _⟩ =>
    exact concatenate_apply_piece (α := EReal) (t := S3) (0 : Fin 1) [⟨S1, y0⟩, ⟨S1, y1⟩, ⟨S1, y2⟩] concatenates_S1_S1_S1_S3_d0 (ix1 (0 : Fin 3)) 0 (by simp) S1 y0 rfl rfl 0 rfl
      (ix1 (0 : Fin 1)) (fun b hb => by match b with | ⟨0, _⟩ => exact absurd rfl hb) rfl
  | ⟨1, _⟩ =>
    exact concatenate_apply_piece (α := EReal) (t := S3) (0 : Fin 1) [⟨S1, y0⟩, ⟨S1, y1⟩, ⟨S1, y2⟩] concatenates_S1_S1_S1_S3_d0 (ix1 (1 : Fin 3)) 1 (by simp) S1 y1 rfl rfl 1 rfl
      (ix1 (0 : Fin 1)) (fun b hb => by match b with | ⟨0, _⟩ => exact absurd rfl hb) rfl
  | ⟨2, _⟩ =>
    exact concatenate_apply_piece (α := EReal) (t := S3) (0 : Fin 1) [⟨S1, y0⟩, ⟨S1, y1⟩, ⟨S1, y2⟩] concatenates_S1_S1_S1_S3_d0 (ix1 (2 : Fin 3)) 2 (by simp) S1 y2 rfl rfl 2 rfl
      (ix1 (0 : Fin 1)) (fun b hb => by match b with | ⟨0, _⟩ => exact absurd rfl hb) rfl

/-- One of the three edge weight columns. -/
abbrev colsel (a5 a7 a9 : S256x1.Idx → EReal) (h : Fin 3) : S256x1.Idx → EReal := sel3 a5 a7 a9 h

/-- Entry `(d, h)` of the upper halves laid side by side is entry `d` of column `h`. -/
theorem V_v4_apply (c : Dev nD) (d : Fin 128) (h : Fin 3) :
    V m c main_v4 (ix2 d h) = colsel (m ((c : Thread nD τ).loc main_arg5)) (m ((c : Thread nD τ).loc main_arg7)) (m ((c : Thread nD τ).loc main_arg9)) h (ix2 (⟨d.val, by omega⟩ : Fin 256) (0 : Fin 1)) := by
  rw [V_v4, cat3_cols_apply]
  match h with
  | ⟨0, _⟩ => exact slice2_axis0_apply 0 (m ((c : Thread nD τ).loc main_arg5)) slices_S256x1_S128x1_0_0 d 0 ⟨d.val, by omega⟩ (by simp)
  | ⟨1, _⟩ => exact slice2_axis0_apply 0 (m ((c : Thread nD τ).loc main_arg7)) slices_S256x1_S128x1_0_0 d 0 ⟨d.val, by omega⟩ (by simp)
  | ⟨2, _⟩ => exact slice2_axis0_apply 0 (m ((c : Thread nD τ).loc main_arg9)) slices_S256x1_S128x1_0_0 d 0 ⟨d.val, by omega⟩ (by simp)

/-- Entry `(d, h)` of the lower halves laid side by side is entry `128 + d` of column `h`. -/
theorem V_v8_apply (c : Dev nD) (d : Fin 128) (h : Fin 3) :
    V m c main_v8 (ix2 d h) = colsel (m ((c : Thread nD τ).loc main_arg5)) (m ((c : Thread nD τ).loc main_arg7)) (m ((c : Thread nD τ).loc main_arg9)) h (ix2 (⟨128 + d.val, by omega⟩ : Fin 256) (0 : Fin 1)) := by
  rw [V_v8, cat3_cols_apply]
  match h with
  | ⟨0, _⟩ => exact slice2_axis0_apply 128 (m ((c : Thread nD τ).loc main_arg5)) slices_S256x1_S128x1_128_0 d 0 ⟨128 + d.val, by omega⟩ rfl
  | ⟨1, _⟩ => exact slice2_axis0_apply 128 (m ((c : Thread nD τ).loc main_arg7)) slices_S256x1_S128x1_128_0 d 0 ⟨128 + d.val, by omega⟩ rfl
  | ⟨2, _⟩ => exact slice2_axis0_apply 128 (m ((c : Thread nD τ).loc main_arg9)) slices_S256x1_S128x1_128_0 d 0 ⟨128 + d.val, by omega⟩ rfl

/-- Node `n`'s hidden row against the upper halves of the edge weight columns. -/
def G11 (a0 : S100000x256.Idx → EReal) (a2 : S256x128.Idx → EReal) (a3 : S128.Idx → EReal) (a4 : S512x128.Idx → EReal)
    (a5 a7 a9 : S256x1.Idx → EReal) : S100000x3.Idx → EReal :=
  fun i => ∑ d : Fin 128, Hrow a0 a2 a3 a4 ⟨(i 0).val, idx2_lt0 i⟩ d
    * colsel a5 a7 a9 ⟨(i 1).val, idx2_lt1 i⟩ (ix2 (⟨d.val, by omega⟩ : Fin 256) (0 : Fin 1))

/-- The same against the lower halves. -/
def G12 (a0 : S100000x256.Idx → EReal) (a2 : S256x128.Idx → EReal) (a3 : S128.Idx → EReal) (a4 : S512x128.Idx → EReal)
    (a5 a7 a9 : S256x1.Idx → EReal) : S100000x3.Idx → EReal :=
  fun i => ∑ d : Fin 128, Hrow a0 a2 a3 a4 ⟨(i 0).val, idx2_lt0 i⟩ d
    * colsel a5 a7 a9 ⟨(i 1).val, idx2_lt1 i⟩ (ix2 (⟨128 + d.val, by omega⟩ : Fin 256) (0 : Fin 1))

theorem flushed11_eq (c : Dev nD) (t : Fin cfg0.N) :
    (dats m 0 c).flushed 11 t
      = ((cfg0.win 11).blk t).view.read (Elt Ideal) (G11 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9))) := by
  show (cfg0.win 11).cut (grid0.coords t) ((dats m 0 c).after 11 t) = _
  rw [after0_11, out0_11_eq]
  funext j
  obtain ⟨r, h, rfl⟩ : ∃ (r : Fin 1000) (h : Fin 3), j = ix2 r h := ⟨j 0, j 1, eq_ix2 j⟩
  show k0_pay1 (k0_pay3 (iblk m c 0 t) (iblk m c 1 t) (iblk m c 2 t) (iblk m c 4 t) (iblk m c 3 t)) (iblk m c 7 t) (ix2 r h)
    = G11 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) (((cfg0.win 11).blk t).view.emb (ix2 r h))
  rw [emb11 t r h]
  refine (Cert.KPay.pay1_apply (k0_pay3 (iblk m c 0 t) (iblk m c 1 t) (iblk m c 2 t) (iblk m c 4 t) (iblk m c 3 t)) (iblk m c 7 t) r h).trans ?_
  exact Finset.sum_congr rfl fun d _ => by rw [hid_blk m c t r d, iblk7_apply, V_v4_apply]

theorem flushed12_eq (c : Dev nD) (t : Fin cfg0.N) :
    (dats m 0 c).flushed 12 t
      = ((cfg0.win 12).blk t).view.read (Elt Ideal) (G12 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9))) := by
  show (cfg0.win 12).cut (grid0.coords t) ((dats m 0 c).after 12 t) = _
  rw [after0_12, out0_12_eq]
  funext j
  obtain ⟨r, h, rfl⟩ : ∃ (r : Fin 1000) (h : Fin 3), j = ix2 r h := ⟨j 0, j 1, eq_ix2 j⟩
  show k0_pay2 (k0_pay3 (iblk m c 0 t) (iblk m c 1 t) (iblk m c 2 t) (iblk m c 4 t) (iblk m c 3 t)) (iblk m c 8 t) (ix2 r h)
    = G12 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) (((cfg0.win 12).blk t).view.emb (ix2 r h))
  rw [emb12 t r h]
  refine (Cert.KPay.pay2_apply (k0_pay3 (iblk m c 0 t) (iblk m c 1 t) (iblk m c 2 t) (iblk m c 4 t) (iblk m c 3 t)) (iblk m c 8 t) r h).trans ?_
  exact Finset.sum_congr rfl fun d _ => by rw [hid_blk m c t r d, iblk8_apply, V_v8_apply]

theorem mem_blk11 (t : Fin cfg0.N) (i : S100000x3.Idx) :
    i ∈ ((cfg0.win 11).blk t).view.set ↔ ∀ a : Fin 2, win0_11.index t a * S1000x3.size a ≤ (i a).val ∧ (i a).val < win0_11.index t a * S1000x3.size a + S1000x3.size a := by
  show i ∈ ((View.whole main_v11_2).slice (win0_11.rect t)).set ↔ _
  rw [View.set_slice_whole, Rect.mem_set_unit]
  exact Iff.rfl

/-- Every entry of the array lies in the block of the point that holds its row. -/
theorem cover11 (i : S100000x3.Idx) :
    ∃ t : Fin cfg0.N, (cfg0.win 11).flush t = true ∧ i ∈ ((cfg0.win 11).blk t).view.set := by
  have hi0 : (i 0).val < 100000 := (i 0).isLt
  have hi1 : (i 1).val < 3 := (i 1).isLt
  refine ⟨⟨(i 0).val / 1000, by rw [N100]; omega⟩, flush0_11 _, ?_⟩
  rw [mem_blk11]
  intro a
  match a with
  | ⟨0, _⟩ =>
    show win0_11.index _ (0 : Fin 2) * 1000 ≤ (i 0).val ∧ (i 0).val < win0_11.index _ (0 : Fin 2) * 1000 + 1000
    rw [idx11_0]
    show (i 0).val / 1000 * 1000 ≤ (i 0).val ∧ (i 0).val < (i 0).val / 1000 * 1000 + 1000
    omega
  | ⟨1, _⟩ =>
    show win0_11.index _ (1 : Fin 2) * 3 ≤ (i 1).val ∧ (i 1).val < win0_11.index _ (1 : Fin 2) * 3 + 3
    rw [idx11_1]
    omega

theorem mem_blk12 (t : Fin cfg0.N) (i : S100000x3.Idx) :
    i ∈ ((cfg0.win 12).blk t).view.set ↔ ∀ a : Fin 2, win0_12.index t a * S1000x3.size a ≤ (i a).val ∧ (i a).val < win0_12.index t a * S1000x3.size a + S1000x3.size a := by
  show i ∈ ((View.whole main_v11_3).slice (win0_12.rect t)).set ↔ _
  rw [View.set_slice_whole, Rect.mem_set_unit]
  exact Iff.rfl

/-- Every entry of the array lies in the block of the point that holds its row. -/
theorem cover12 (i : S100000x3.Idx) :
    ∃ t : Fin cfg0.N, (cfg0.win 12).flush t = true ∧ i ∈ ((cfg0.win 12).blk t).view.set := by
  have hi0 : (i 0).val < 100000 := (i 0).isLt
  have hi1 : (i 1).val < 3 := (i 1).isLt
  refine ⟨⟨(i 0).val / 1000, by rw [N100]; omega⟩, flush0_12 _, ?_⟩
  rw [mem_blk12]
  intro a
  match a with
  | ⟨0, _⟩ =>
    show win0_12.index _ (0 : Fin 2) * 1000 ≤ (i 0).val ∧ (i 0).val < win0_12.index _ (0 : Fin 2) * 1000 + 1000
    rw [idx12_0]
    show (i 0).val / 1000 * 1000 ≤ (i 0).val ∧ (i 0).val < (i 0).val / 1000 * 1000 + 1000
    omega
  | ⟨1, _⟩ =>
    show win0_12.index _ (1 : Fin 2) * 3 ≤ (i 1).val ∧ (i 1).val < win0_12.index _ (1 : Fin 2) * 3 + 3
    rw [idx12_1]
    omega

theorem final11 (c : Dev nD) :
    (dats m 0 c).arrAt 11 cfg0.N = G11 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) :=
  (dats m 0 c).arrAt_eq_of_cover 11 _ (fun t _ => flushed11_eq m c t) cover11

theorem final12 (c : Dev nD) :
    (dats m 0 c).arrAt 12 cfg0.N = G12 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9)) :=
  (dats m 0 c).arrAt_eq_of_cover 12 _ (fun t _ => flushed12_eq m c t) cover12

end Cert.KernelIdeal.Hand

end
-- ==== Proof.LibGatherRows.lean ====
/-
  A gather of whole rows, read at an index.

  Taking rows of a matrix `x : [N, D]` at an integer column of row numbers `idx : [R, 1]` is a gather that collapses the
  row axis, keeps the column axis as its one offset axis (slices of one row, `D` wide) and reads each start index off
  `idx`'s second axis. Its element `(r, d)` is `x` at row `idx[r, 0]` — read as a signed integer and clamped into
  `[0, N − 1]`, as every start index of a gather is — and column `d`.
-/
import Idealize.ShloMosaic.PureOps
import Idealize.ShloMosaic.Lib.ValueIdx

namespace Cert.Lib.GatherRows

open Idealize.ShloMosaic Idealize.ShloMosaic.ValueIdx

variable {α : Type}

/-- The dimension numbers of that gather for an operand `[N, D]`, start indices `[R, 1]` and a result `[R, D]`. -/
abbrev rowsDims (N R D : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- Where result index `(r, d)` reads its row number: `[r, 0]`. -/
abbrev rowsIdx {R D : Nat} (y : (⟨2, ![R, D]⟩ : Shape).Idx) : (⟨2, ![R, 1]⟩ : Shape).Idx :=
  fun a => match a with | ⟨0, _⟩ => ⟨(y 0).val, idx2_lt0 y⟩ | ⟨1, _⟩ => ⟨0, Nat.one_pos⟩

/-- THE GATHER READ AT `(r, d)`: the operand at the row `idx[r, 0]`, read signed and clamped into `[0, N − 1]`, and
    column `d`. -/
theorem gather_rows_apply {N R D w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowsDims N R D wf) x idx y
      = x (ix2 (⟨min (idx (rowsIdx y)).toInt.toNat (N - 1), by omega⟩ : Fin N) (⟨(y 1).val, idx2_lt1 y⟩ : Fin D)) := by
  unfold Host.gather
  congr 1
  funext a
  refine Fin.ext ?_
  show (rowsDims N R D wf).start y idx a + (rowsDims N R D wf).batchCoord y a + (rowsDims N R D wf).offCoord y a = _
  rw [GatherDims.batchCoord_eq_zero _ _ _ List.not_mem_nil, Nat.add_zero]
  -- the row axis: collapsed (no offset), its start the clamped row number
  have row : (rowsDims N R D wf).start y idx (0 : Fin 2) + (rowsDims N R D wf).offCoord y (0 : Fin 2)
      = min (idx (rowsIdx y)).toInt.toNat (N - 1) := by
    rw [GatherDims.offCoord_eq_zero _ _ _ (fun h => ((GatherDims.mem_sKept _ _).mp h).1 (List.mem_singleton.mpr rfl)),
      Nat.add_zero]
    unfold GatherDims.start
    rw [dif_pos (show (0 : Fin 2) ∈ (rowsDims N R D wf).startIndexMap from List.mem_singleton.mpr rfl)]
    have hsi : (rowsDims N R D wf).siIdx y ⟨List.idxOf (0 : Fin 2) (rowsDims N R D wf).startIndexMap,
        List.idxOf_lt_length_iff.2 (List.mem_singleton.mpr rfl)⟩ = rowsIdx y := by
      funext b; refine Fin.ext ?_
      match b with
      | ⟨0, _⟩ => rfl
      | ⟨1, _⟩ => rfl
    rw [hsi]
    rfl
  -- the column axis: not in the start index map (start 0), the result's offset axis
  have col : (rowsDims N R D wf).start y idx (1 : Fin 2) + (rowsDims N R D wf).offCoord y (1 : Fin 2) = (y 1).val := by
    have h1 : (1 : Fin 2) ∉ ([0] : List (Fin 2)) := by decide
    have hk : (1 : Fin 2) ∈ (rowsDims N R D wf).sKept := (GatherDims.mem_sKept _ _).mpr ⟨h1, List.not_mem_nil⟩
    unfold GatherDims.start GatherDims.offCoord
    rw [dif_neg h1, dif_pos hk, Nat.zero_add]
    rfl
  match a with
  | ⟨0, _⟩ => exact row
  | ⟨1, _⟩ => exact col

end Cert.Lib.GatherRows
-- ==== Proof.KTail.lean ====
/-
  The host lines after the kernel region, read at an index.

  They turn each column of the pair table into a column of row numbers (a negative number counted back from the end of
  the node table), take the rows of the two projection arrays those numbers name, add the two and the three biases, and
  return the three columns of the sum as three vectors.  So entry `p` of output `h` is the left projection's entry
  `(row of pair p's first number, h)` plus the right projection's entry `(row of its second number, h)` plus bias `h`.
-/
import proofs.«142331_j455266533874_2_alg».proof.Proof.KFinal
import proofs.«142331_j455266533874_2_alg».proof.Proof.LibGatherRows

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx Idealize.ShloMosaic.StableHlo

variable (m : (ℓ : Loc nD τ sig) → Buf (Elt Ideal) ℓ)

/-! ## Layout steps on columns -/

/-- A column `[a, 1]` cast to a vector `[a]` reads, at `r`, the column's entry `r`. -/
theorem shapeCast_a1_a_apply {α : Type} {a : ℕ} (x : (⟨2, ![a, 1]⟩ : Shape).Idx → α) (h : (⟨2, ![a, 1]⟩ : Shape).ShapeCasts ⟨1, ![a]⟩)
    (r : Fin a) : shapeCast ⟨1, ![a]⟩ x h (ix1 r) = x (ix2 r (0 : Fin 1)) :=
  shapeCast_apply x h _ _ (by
    rw [Shape.rowMajor_val_two, Shape.rowMajor_val_one]
    show r.val * 1 + 0 = r.val
    omega)

/-! ## The columns of row numbers -/

/-- The row numbers in column 0 of the pair table, a negative number counted back from the end of the node table, as
    a column. -/
def idxCol0 (a1 : S800000x2.Idx → BitVec 32) : S800000x1.Idx → BitVec 32 :=
  broadcastInDim S800000x1 ![0] bcast_S800000_S800000x1_0
    (select
      (cmpi .slt (shapeCast S800000 (extractStridedSlice S800000x1 ![0, 0] a1 slices_S800000x2_S800000x1_0_0) shapeCasts_S800000x1_S800000)
        (broadcastInDim S800000 ![] bcast_S_S800000 (constantI S_ 32 0#32)))
      (addi (shapeCast S800000 (extractStridedSlice S800000x1 ![0, 0] a1 slices_S800000x2_S800000x1_0_0) shapeCasts_S800000x1_S800000)
        (broadcastInDim S800000 ![] bcast_S_S800000 (constantI S_ 32 100000#32)))
      (shapeCast S800000 (extractStridedSlice S800000x1 ![0, 0] a1 slices_S800000x2_S800000x1_0_0) shapeCasts_S800000x1_S800000))

theorem idxCol0_apply (a1 : S800000x2.Idx → BitVec 32) (p : Fin 800000) (u : Fin 1) :
    idxCol0 a1 (ix2 p u) = Cert.Spec.normWord (a1 (ix2 p (0 : Fin 2))) := by
  unfold idxCol0
  rw [broadcastInDim_apply ![0] bcast_S800000_S800000x1_0 _ (ix2 p u) (ix1 p) (fun a => by
    match a with
    | ⟨0, _⟩ => show p.val = if (800000 : ℕ) = 1 then 0 else p.val; rw [if_neg (by decide)])]
  have hW : shapeCast S800000 (extractStridedSlice S800000x1 ![0, 0] a1 slices_S800000x2_S800000x1_0_0) shapeCasts_S800000x1_S800000 (ix1 p)
      = a1 (ix2 p (0 : Fin 2)) :=
    (shapeCast_a1_a_apply _ _ p).trans (Cert.Columns.slice_col_apply 0 (by decide) a1 _ p 0)
  show Scalar.select (IntOp.cmpi .slt _ (0#32 : BitVec 32)) (IntOp.addi _ (100000#32 : BitVec 32)) _ = _
  rw [hW]
  rfl

/-- The row numbers in column 1 of the pair table, a negative number counted back from the end of the node table, as
    a column. -/
def idxCol1 (a1 : S800000x2.Idx → BitVec 32) : S800000x1.Idx → BitVec 32 :=
  broadcastInDim S800000x1 ![0] bcast_S800000_S800000x1_0
    (select
      (cmpi .slt (shapeCast S800000 (extractStridedSlice S800000x1 ![0, 1] a1 slices_S800000x2_S800000x1_0_1) shapeCasts_S800000x1_S800000)
        (broadcastInDim S800000 ![] bcast_S_S800000 (constantI S_ 32 0#32)))
      (addi (shapeCast S800000 (extractStridedSlice S800000x1 ![0, 1] a1 slices_S800000x2_S800000x1_0_1) shapeCasts_S800000x1_S800000)
        (broadcastInDim S800000 ![] bcast_S_S800000 (constantI S_ 32 100000#32)))
      (shapeCast S800000 (extractStridedSlice S800000x1 ![0, 1] a1 slices_S800000x2_S800000x1_0_1) shapeCasts_S800000x1_S800000))

theorem idxCol1_apply (a1 : S800000x2.Idx → BitVec 32) (p : Fin 800000) (u : Fin 1) :
    idxCol1 a1 (ix2 p u) = Cert.Spec.normWord (a1 (ix2 p (1 : Fin 2))) := by
  unfold idxCol1
  rw [broadcastInDim_apply ![0] bcast_S800000_S800000x1_0 _ (ix2 p u) (ix1 p) (fun a => by
    match a with
    | ⟨0, _⟩ => show p.val = if (800000 : ℕ) = 1 then 0 else p.val; rw [if_neg (by decide)])]
  have hW : shapeCast S800000 (extractStridedSlice S800000x1 ![0, 1] a1 slices_S800000x2_S800000x1_0_1) shapeCasts_S800000x1_S800000 (ix1 p)
      = a1 (ix2 p (1 : Fin 2)) :=
    (shapeCast_a1_a_apply _ _ p).trans (Cert.Columns.slice_col_apply 1 (by decide) a1 _ p 0)
  show Scalar.select (IntOp.cmpi .slt _ (0#32 : BitVec 32)) (IntOp.addi _ (100000#32 : BitVec 32)) _ = _
  rw [hW]
  rfl

/-! ## The sum the three outputs are cut from -/

/-- The gathered left projections plus the gathered right projections plus the biases. -/
def edgeSum (P11 P12 : S100000x3.Idx → EReal) (a1 : S800000x2.Idx → BitVec 32) (b9 : S3.Idx → EReal) : S800000x3.Idx → EReal :=
  addf (F := Ideal) (φ := .f32)
    (addf (F := Ideal) (φ := .f32) (Host.gather gather_S100000x3_S800000x1_S800000x3_1_0_n_n_0_1_13 P11 (idxCol0 a1)) (Host.gather gather_S100000x3_S800000x1_S800000x3_1_0_n_n_0_1_13 P12 (idxCol1 a1)))
    (broadcastInDim S800000x3 ![0, 1] bcast_S1x3_S800000x3_0_1 (broadcastInDim S1x3 ![1] bcast_S3_S1x3_1 b9))

theorem rowsIdx_pair (p : Fin 800000) (h : Fin 3) :
    Cert.Lib.GatherRows.rowsIdx (ix2 p h) = ix2 p (0 : Fin 1) :=
  funext fun a => Fin.ext (by match a with | ⟨0, _⟩ => rfl | ⟨1, _⟩ => rfl)

/-- A gathered row of a projection array: entry `(p, h)` is the array's entry `(n, h)`, `n` the row the index
    column's entry `p` names (read signed, kept inside the array). -/
theorem gather_row (P : S100000x3.Idx → EReal) (idx : S800000x1.Idx → BitVec 32) (p : Fin 800000) (h : Fin 3)
    (n : Fin 100000) (hn : n.val = min (idx (ix2 p (0 : Fin 1))).toInt.toNat (100000 - 1)) :
    Host.gather gather_S100000x3_S800000x1_S800000x3_1_0_n_n_0_1_13 P idx (ix2 p h) = P (ix2 n h) := by
  have hg := Cert.Lib.GatherRows.gather_rows_apply (N := 100000) (R := 800000) (D := 3) (w := 32) (by decide)
    gather_S100000x3_S800000x1_S800000x3_1_0_n_n_0_1_13_wf P idx (ix2 p h)
  refine hg.trans (congrArg P ?_)
  funext a; apply Fin.ext
  match a with
  | ⟨0, _⟩ =>
    show min _ _ = n.val
    rw [rowsIdx_pair, hn]
  | ⟨1, _⟩ => rfl

theorem edgeSum_apply (P11 P12 : S100000x3.Idx → EReal) (a1 : S800000x2.Idx → BitVec 32) (b9 : S3.Idx → EReal)
    (p : Fin 800000) (h : Fin 3) :
    edgeSum P11 P12 a1 b9 (ix2 p h)
      = (P11 (ix2 (Cert.Spec.gRow (a1 (ix2 p (0 : Fin 2)))) h) + P12 (ix2 (Cert.Spec.gRow (a1 (ix2 p (1 : Fin 2)))) h))
        + b9 (ix1 h) := by
  unfold edgeSum
  rw [addf_apply, addf_apply,
    gather_row P11 (idxCol0 a1) p h (Cert.Spec.gRow (a1 (ix2 p (0 : Fin 2)))) (by rw [idxCol0_apply]; rfl),
    gather_row P12 (idxCol1 a1) p h (Cert.Spec.gRow (a1 (ix2 p (1 : Fin 2)))) (by rw [idxCol1_apply]; rfl),
    broadcastInDim_apply ![0, 1] bcast_S1x3_S800000x3_0_1 _ (ix2 p h) (ix2 (0 : Fin 1) h) (fun a => by
      match a with
      | ⟨0, _⟩ => show 0 = if (1 : ℕ) = 1 then 0 else p.val; rw [if_pos rfl]
      | ⟨1, _⟩ => show h.val = if (3 : ℕ) = 1 then 0 else h.val; rw [if_neg (by decide)]),
    broadcastInDim_apply ![1] bcast_S3_S1x3_1 _ (ix2 (0 : Fin 1) h) (ix1 h) (fun a => by
      match a with
      | ⟨0, _⟩ => show h.val = if (3 : ℕ) = 1 then 0 else h.val; rw [if_neg (by decide)])]

/-- Column `o` of the sum, as a vector, at entry `p`. -/
theorem column_out (X : S800000x3.Idx → EReal) (o : ℕ) (ho : o < 3) (hs : S800000x3.Slices ![0, o] S800000x1) (p : Fin 800000) :
    shapeCast S800000 (extractStridedSlice S800000x1 ![0, o] X hs) shapeCasts_S800000x1_S800000 (ix1 p) = X (ix2 p (⟨o, ho⟩ : Fin 3)) :=
  (shapeCast_a1_a_apply _ _ p).trans (Cert.Columns.slice_col_apply o ho X hs p 0)

/-! ## The three outputs of the program -/

/-- The contents the later host lines start from: the region's arrays as the write-backs leave them, every other buffer
    as the region found it. -/
abbrev exitVal (c : Dev nD) : Valuation τ sig (Elt Ideal) :=
  Pipeline.withArrays spec0 c (V0 m c) fun w => (dats m 0 c).arrAt w cfg0.N

theorem exit_v11_2 (c : Dev nD) : exitVal m c (Proc.devRef .tc main_v11_2) = (dats m 0 c).arrAt 11 cfg0.N :=
  Pipeline.withArrays_arr spec0 launch0.win.arr_inj c _ _ 11
theorem exit_v11_3 (c : Dev nD) : exitVal m c (Proc.devRef .tc main_v11_3) = (dats m 0 c).arrAt 12 cfg0.N :=
  Pipeline.withArrays_arr spec0 launch0.win.arr_inj c _ _ 12
theorem exit_arg1 (c : Dev nD) : exitVal m c (Proc.devRef .tc main_arg1) = m ((c : Thread nD τ).loc main_arg1) :=
  (Pipeline.withArrays_of_ne spec0 c (V0 m c) _ main_arg1 (by decide)).trans (V_main_arg1 m c)
theorem exit_v9 (c : Dev nD) : exitVal m c (Proc.devRef .tc main_v9) = V m c main_v9 :=
  Pipeline.withArrays_of_ne spec0 c (V0 m c) _ main_v9 (by decide)

/-- The sum the later lines form, from the region's two projection arrays, the pair table and the biases. -/
abbrev tailSum (c : Dev nD) : S800000x3.Idx → EReal :=
  edgeSum (exitVal m c (Proc.devRef .tc main_v11_2)) (exitVal m c (Proc.devRef .tc main_v11_3))
    (exitVal m c (Proc.devRef .tc main_arg1)) (exitVal m c (Proc.devRef .tc main_v9))

set_option maxHeartbeats 4000000 in
theorem tail_v35 (c : Dev nD) :
    Pipeline.afterTail₀ cfgs (dats m) 0 (V0 m) [hostOps1] c main_v35
      = shapeCast S800000 (extractStridedSlice S800000x1 ![0, 0] (tailSum m c) slices_S800000x3_S800000x1_0_0) shapeCasts_S800000x1_S800000 := by
  unfold Pipeline.afterTail₀
  show StableHlo.after hostOps1 (exitVal m c) (Proc.devRef .tc main_v35) = _
  after_results_simp <;> rfl

set_option maxHeartbeats 4000000 in
theorem tail_v37 (c : Dev nD) :
    Pipeline.afterTail₀ cfgs (dats m) 0 (V0 m) [hostOps1] c main_v37
      = shapeCast S800000 (extractStridedSlice S800000x1 ![0, 1] (tailSum m c) slices_S800000x3_S800000x1_0_1) shapeCasts_S800000x1_S800000 := by
  unfold Pipeline.afterTail₀
  show StableHlo.after hostOps1 (exitVal m c) (Proc.devRef .tc main_v37) = _
  after_results_simp <;> rfl

set_option maxHeartbeats 4000000 in
theorem tail_v39 (c : Dev nD) :
    Pipeline.afterTail₀ cfgs (dats m) 0 (V0 m) [hostOps1] c main_v39
      = shapeCast S800000 (extractStridedSlice S800000x1 ![0, 2] (tailSum m c) slices_S800000x3_S800000x1_0_2) shapeCasts_S800000x1_S800000 := by
  unfold Pipeline.afterTail₀
  show StableHlo.after hostOps1 (exitVal m c) (Proc.devRef .tc main_v39) = _
  after_results_simp <;> rfl

/-- One of the three edge biases. -/
abbrev biassel (a6 a8 a10 : S1.Idx → EReal) (h : Fin 3) : S1.Idx → EReal := sel3 a6 a8 a10 h

theorem V_v9_apply (c : Dev nD) (h : Fin 3) :
    V m c main_v9 (ix1 h)
      = biassel (m ((c : Thread nD τ).loc main_arg6)) (m ((c : Thread nD τ).loc main_arg8)) (m ((c : Thread nD τ).loc main_arg10)) h (ix1 (0 : Fin 1)) := by
  rw [V_v9, cat3_vec_apply]

/-- Entry `(p, h)` of the sum the later lines form, from the argument arrays. -/
theorem tailSum_apply (c : Dev nD) (p : Fin 800000) (h : Fin 3) :
    tailSum m c (ix2 p h)
      = (G11 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9))
            (ix2 (Cert.Spec.gRow ((m ((c : Thread nD τ).loc main_arg1)) (ix2 p (0 : Fin 2)))) h)
          + G12 (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg7)) (m ((c : Thread nD τ).loc main_arg9))
            (ix2 (Cert.Spec.gRow ((m ((c : Thread nD τ).loc main_arg1)) (ix2 p (1 : Fin 2)))) h))
        + biassel (m ((c : Thread nD τ).loc main_arg6)) (m ((c : Thread nD τ).loc main_arg8)) (m ((c : Thread nD τ).loc main_arg10)) h (ix1 (0 : Fin 1)) := by
  show edgeSum _ _ _ _ (ix2 p h) = _
  rw [edgeSum_apply, exit_v11_2, exit_v11_3, exit_arg1, exit_v9, final11, final12, V_v9_apply]

end Cert.KernelIdeal.Hand

end
-- ==== Proof.KRun.lean ====
/-
  The run of the idealized kernel program with its five results named: the hidden array and the token array as the
  region's write-backs leave them, and the three edge outputs as the later host lines cut them from the sum of the
  gathered projections and the biases; the argument arrays end as they were launched.
-/
import proofs.«142331_j455266533874_2_alg».proof.Proof.KIFrame
import proofs.«142331_j455266533874_2_alg».proof.Proof.KTail

set_option maxRecDepth 16384

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx

variable (m : (ℓ : Loc nD τ sig) → Buf (Elt Ideal) ℓ) (ρ : Dev nD → PrngReg)

/-- Edge output `o` on core `c`: column `o` of the sum the later host lines form, as a vector. -/
def edgeOut (c : Dev nD) (o : ℕ) (hs : S800000x3.Slices ![0, o] S800000x1) : S800000.Idx → EReal :=
  shapeCast S800000 (extractStridedSlice S800000x1 ![0, o] (tailSum m c) hs) shapeCasts_S800000x1_S800000

set_option maxHeartbeats 1000000 in
theorem kernel_run : θ_run defs (onTc (τ := τ) (main (F := Ideal))) ⟨m, fun _ => 0, ρ⟩ (fun r => ∀ c : Dev nD,
      r.2.mem ((c.tc : Thread nD τ).loc main_v11_0) = G9 (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v35) = edgeOut m c 0 slices_S800000x3_S800000x1_0_0
      ∧ r.2.mem ((c.tc : Thread nD τ).loc main_v37) = edgeOut m c 1 slices_S800000x3_S800000x1_0_1
      ∧ r.2.mem ((c.tc : Thread nD τ).loc main_v39) = edgeOut m c 2 slices_S800000x3_S800000x1_0_2
      ∧ r.2.mem ((c.tc : Thread nD τ).loc main_v11_1) = G10 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun r h c => ⟨((h c).1 9).trans (final9 m c),
      ((h c).2 main_v35 (Pipeline.mem_restRefs_of main_v35 (by decide) (by decide))).trans (tail_v35 m c),
      ((h c).2 main_v37 (Pipeline.mem_restRefs_of main_v37 (by decide) (by decide))).trans (tail_v37 m c),
      ((h c).2 main_v39 (Pipeline.mem_restRefs_of main_v39 (by decide) (by decide))).trans (tail_v39 m c),
      ((h c).1 10).trans (final10 m c),
      ((h c).1 0).trans ((((dats m) 0 c).arrAt_in 0 rfl _).trans ((A_eq m c 0).trans (V_main_arg0 m c))),
      ((h c).2 main_arg1 (Pipeline.mem_restRefs_of main_arg1 (by decide) (by decide))).trans (W_main_arg1 m (dats m) c),
      ((h c).1 1).trans ((((dats m) 0 c).arrAt_in 1 rfl _).trans ((A_eq m c 1).trans (V_main_arg2 m c))),
      ((h c).1 2).trans ((((dats m) 0 c).arrAt_in 2 rfl _).trans ((A_eq m c 2).trans (V_main_arg3 m c))),
      ((h c).1 3).trans ((((dats m) 0 c).arrAt_in 3 rfl _).trans ((A_eq m c 3).trans (V_main_arg4 m c))),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).1 6).trans ((((dats m) 0 c).arrAt_in 6 rfl _).trans ((A_eq m c 6).trans (V_main_arg12 m c)))⟩) (run_main m ρ)

end Cert.KernelIdeal.Hand

end
-- ==== Proof.RefHidden.lean ====
/-
  The reference program's hidden row, read at an index, is the specification's hidden row.

  Each operation of the reference is read at the index (n, ·) of one node n and identified with the
  corresponding function of Cert.Spec applied to the node's feature row: the encoded row, the scores, their
  maximum, the shifted exponentials, their sum, the attention weights and the hidden row.  The maximum the
  reference takes is max (-∞) (fold max (-∞) scores), which is the fold itself; its sum of exponentials starts
  from the zero word, which is 0.
-/
import proofs.«142331_j455266533874_2_alg».proof.Proof.RefRead
import proofs.«142331_j455266533874_2_alg».proof.Proof.Spec
import proofs.«142331_j455266533874_2_alg».proof.Proof.LibColumns

noncomputable section

namespace Cert.RefValue

open Cert.ReferenceIdeal Cert.ReferenceIdeal.Gen Cert.ReferenceIdeal.ReadP Idealize.ShloMosaic Idealize.ShloMosaic.ValueIdx

variable (x0 : (⟨S100000x256, .f32⟩ : BufTy).Contents (Elt Ideal)) (x2 : (⟨S256x128, .f32⟩ : BufTy).Contents (Elt Ideal))
  (x3 : (⟨S128, .f32⟩ : BufTy).Contents (Elt Ideal)) (x4 : (⟨S512x128, .f32⟩ : BufTy).Contents (Elt Ideal))

/-- The hidden row of node n as the specification's function of the node's feature row. -/
abbrev H (n : Fin 100000) (d : Fin 128) : EReal :=
  Cert.Spec.hid (fun k : Fin 256 => x0 (ix2 n k)) (fun (k : Fin 256) (j : Fin 128) => x2 (ix2 k j))
    (fun j : Fin 128 => x3 (ix1 j)) (fun (s : Fin 512) (j : Fin 128) => x4 (ix2 s j)) d

/-! ## Where each operation reads its operands, at the index of one node -/

theorem lidx0 (n : Fin 100000) (j : Fin 128) (k : Fin 256) : lidx_main_v0 (ix2 n j) k = ix2 n k :=
  funext fun a => Fin.ext (by match a with | ⟨0, _⟩ => rfl | ⟨1, _⟩ => rfl)
theorem ridx0 (n : Fin 100000) (j : Fin 128) (k : Fin 256) : ridx_main_v0 (ix2 n j) k = ix2 k j :=
  funext fun a => Fin.ext (by match a with | ⟨0, _⟩ => rfl | ⟨1, _⟩ => rfl)
theorem idx21 (n : Fin 100000) (j : Fin 128) : idx_main_v1 (idx_main_v2 (ix2 n j)) = ix1 j :=
  funext fun a => Fin.ext (by match a with | ⟨0, _⟩ => rfl)
theorem lidx6 (n : Fin 100000) (s : Fin 512) (k : Fin 128) : lidx_main_v6 (ix2 n s) k = ix2 n k :=
  funext fun a => Fin.ext (by match a with | ⟨0, _⟩ => rfl | ⟨1, _⟩ => rfl)
theorem ridx65 (n : Fin 100000) (s : Fin 512) (k : Fin 128) : idx_main_v5 (ridx_main_v6 (ix2 n s) k) = ix2 s k :=
  funext fun a => Fin.ext (by match a with | ⟨0, _⟩ => rfl | ⟨1, _⟩ => rfl)
theorem idx1312 (n : Fin 100000) (s : Fin 512) : idx_main_v12 (idx_main_v13 (ix2 n s)) = ix1 n :=
  funext fun a => Fin.ext (by match a with | ⟨0, _⟩ => rfl)
theorem idx16 (n : Fin 100000) (k : Fin 512) : idx_main_v16 (ix1 n) k = ix2 n k :=
  funext fun a => Fin.ext (by match a with | ⟨0, _⟩ => rfl | ⟨1, _⟩ => rfl)
theorem idx1817 (n : Fin 100000) (s : Fin 512) : idx_main_v17 (idx_main_v18 (ix2 n s)) = ix1 n :=
  funext fun a => Fin.ext (by match a with | ⟨0, _⟩ => rfl)
theorem lidx20 (n : Fin 100000) (d : Fin 128) (k : Fin 512) : lidx_main_v20 (ix2 n d) k = ix2 n k :=
  funext fun a => Fin.ext (by match a with | ⟨0, _⟩ => rfl | ⟨1, _⟩ => rfl)
theorem ridx20 (n : Fin 100000) (d : Fin 128) (k : Fin 512) : ridx_main_v20 (ix2 n d) k = ix2 k d :=
  funext fun a => Fin.ext (by match a with | ⟨0, _⟩ => rfl | ⟨1, _⟩ => rfl)

/-! ## The operations, one at a time -/

/-- The encoded row. -/
theorem ref_enc (n : Fin 100000) (j : Fin 128) :
    val_main_v4 (F := Ideal) x0 x2 x3 (ix2 n j)
      = Cert.Spec.enc (fun k : Fin 256 => x0 (ix2 n k)) (fun (k : Fin 256) (j : Fin 128) => x2 (ix2 k j))
          (fun j : Fin 128 => x3 (ix1 j)) j := by
  rw [val_main_v4_apply, val_main_v3_apply, val_main_v0_apply, val_main_v2_apply, val_main_v1_apply, idx21]
  simp only [Ideal.hostUnary_tanh_def, Ideal.addf_def, lidx0, ridx0]
  rfl

/-- The score against slot s. -/
theorem ref_logit (n : Fin 100000) (s : Fin 512) :
    val_main_v8 (F := Ideal) x0 x2 x3 x4 (ix2 n s)
      = Cert.Spec.logit (fun k : Fin 256 => x0 (ix2 n k)) (fun (k : Fin 256) (j : Fin 128) => x2 (ix2 k j))
          (fun j : Fin 128 => x3 (ix1 j)) (fun (s : Fin 512) (j : Fin 128) => x4 (ix2 s j)) s := by
  rw [val_main_v8_apply, val_main_v6_apply, val_main_v7_apply]
  simp only [Ideal.hostDivf_def, lidx6, val_main_v5_apply, ridx65, ref_enc]
  rfl

/-- The largest score. -/
theorem ref_rowMax (n : Fin 100000) :
    val_main_v11 (F := Ideal) x0 x2 x3 x4 (ix1 n)
      = Cert.Spec.rowMax (fun k : Fin 256 => x0 (ix2 n k)) (fun (k : Fin 256) (j : Fin 128) => x2 (ix2 k j))
          (fun j : Fin 128 => x3 (ix1 j)) (fun (s : Fin 512) (j : Fin 128) => x4 (ix2 s j)) := by
  rw [val_main_v11_apply, val_main_v10_apply]
  have h9 : val_main_v9 (F := Ideal) x0 x2 x3 x4 (ix1 n)
      = (Finset.univ : Finset (Fin 512)).fold max (Ideal.ofBits .f32 0xFF800000#32)
          (fun k => val_main_v8 (F := Ideal) x0 x2 x3 x4 (ix2 n k)) :=
    Cert.Columns.hostReduce_maximumf_row (val_main_v8 (F := Ideal) x0 x2 x3 x4) 0xFF800000#32
      reducesTo_S100000x512_S100000_d1 (by decide) h_S_ n
  rw [h9]
  simp only [ref_logit]
  exact Cert.Spec.max_fold_self _ _ _

/-- The shifted score, exponentiated. -/
theorem ref_ex (n : Fin 100000) (s : Fin 512) :
    val_main_v15 (F := Ideal) x0 x2 x3 x4 (ix2 n s)
      = Cert.Spec.ex (fun k : Fin 256 => x0 (ix2 n k)) (fun (k : Fin 256) (j : Fin 128) => x2 (ix2 k j))
          (fun j : Fin 128 => x3 (ix1 j)) (fun (s : Fin 512) (j : Fin 128) => x4 (ix2 s j)) s := by
  rw [val_main_v15_apply, val_main_v14_apply, val_main_v13_apply, val_main_v12_apply, idx1312, ref_logit, ref_rowMax]
  rfl

/-- The sum of the exponentials. -/
theorem ref_sum (n : Fin 100000) :
    val_main_v16 (F := Ideal) x0 x2 x3 x4 (ix1 n)
      = ∑ u : Fin 512, Cert.Spec.ex (fun k : Fin 256 => x0 (ix2 n k)) (fun (k : Fin 256) (j : Fin 128) => x2 (ix2 k j))
          (fun j : Fin 128 => x3 (ix1 j)) (fun (s : Fin 512) (j : Fin 128) => x4 (ix2 s j)) u := by
  rw [val_main_v16_apply]
  have hz : (val_main_cst_2 (F := Ideal)) (Shape.Idx.first h_S_) = 0 := Ideal.ofBits_zero_f32
  rw [hz, zero_add]
  simp only [idx16, ref_ex]

/-- The attention weight of slot s. -/
theorem ref_attn (n : Fin 100000) (s : Fin 512) :
    val_main_v19 (F := Ideal) x0 x2 x3 x4 (ix2 n s)
      = Cert.Spec.attn (fun k : Fin 256 => x0 (ix2 n k)) (fun (k : Fin 256) (j : Fin 128) => x2 (ix2 k j))
          (fun j : Fin 128 => x3 (ix1 j)) (fun (s : Fin 512) (j : Fin 128) => x4 (ix2 s j)) s := by
  rw [val_main_v19_apply, val_main_v18_apply, val_main_v17_apply, idx1817, ref_ex, ref_sum]
  rfl

/-- THE HIDDEN ROW: the reference's hidden array at (n, d) is the specification's hidden row of node n's feature
    row, at d. -/
theorem ref_hidden (n : Fin 100000) (d : Fin 128) :
    val_main_v20 (F := Ideal) x0 x2 x3 x4 (ix2 n d) = H x0 x2 x3 x4 n d := by
  rw [val_main_v20_apply]
  simp only [lidx20, ridx20, ref_attn]
  rfl

end Cert.RefValue

end
-- ==== Proof.RefToken.lean ====
/-
  The reference program's token scores, read at an index: the hidden row's products with the token weights, summed,
  plus the bias.
-/
import proofs.«142331_j455266533874_2_alg».proof.Proof.RefHidden

noncomputable section

namespace Cert.RefValue

open Cert.ReferenceIdeal Cert.ReferenceIdeal.Gen Cert.ReferenceIdeal.ReadP Idealize.ShloMosaic Idealize.ShloMosaic.ValueIdx

variable (x0 : (⟨S100000x256, .f32⟩ : BufTy).Contents (Elt Ideal)) (x2 : (⟨S256x128, .f32⟩ : BufTy).Contents (Elt Ideal))
  (x3 : (⟨S128, .f32⟩ : BufTy).Contents (Elt Ideal)) (x4 : (⟨S512x128, .f32⟩ : BufTy).Contents (Elt Ideal))
  (x11 : (⟨S128x2048, .f32⟩ : BufTy).Contents (Elt Ideal)) (x12 : (⟨S2048, .f32⟩ : BufTy).Contents (Elt Ideal))

theorem lidx55 (n : Fin 100000) (v : Fin 2048) (k : Fin 128) : lidx_main_v55 (ix2 n v) k = ix2 n k :=
  funext fun a => Fin.ext (by match a with | ⟨0, _⟩ => rfl | ⟨1, _⟩ => rfl)
theorem ridx55 (n : Fin 100000) (v : Fin 2048) (k : Fin 128) : ridx_main_v55 (ix2 n v) k = ix2 k v :=
  funext fun a => Fin.ext (by match a with | ⟨0, _⟩ => rfl | ⟨1, _⟩ => rfl)
theorem idx5756 (n : Fin 100000) (v : Fin 2048) : idx_main_v56 (idx_main_v57 (ix2 n v)) = ix1 v :=
  funext fun a => Fin.ext (by match a with | ⟨0, _⟩ => rfl)

/-- THE TOKEN SCORES: at (n, v), the sum over the hidden row's 128 entries of their products with column v of
    the token weights, plus entry v of the bias. -/
theorem ref_token (n : Fin 100000) (v : Fin 2048) :
    val_main_v58 (F := Ideal) x0 x2 x3 x4 x11 x12 (ix2 n v)
      = (∑ d : Fin 128, H x0 x2 x3 x4 n d * x11 (ix2 d v)) + x12 (ix1 v) := by
  rw [val_main_v58_apply, val_main_v55_apply, val_main_v57_apply, val_main_v56_apply, idx5756]
  simp only [Ideal.addf_def, lidx55, ridx55, ref_hidden]

end Cert.RefValue

end
-- ==== Proof.RefEdge.lean ====
/-
  The reference program's three edge heads, read at an index.

  A pair's two row numbers are read off the pair table's two columns; a negative number is counted back from the
  end of the node table (the word Cert.Spec.normWord), and the gather keeps the row inside the table (the row
  Cert.Spec.gRow).  The two gathered hidden rows are laid side by side in a row of 256 entries, whose product
  with a head's weight column is a sum over 256 = 128 + 128 terms: the first 128 read the left row, the last 128
  the right row.  The three heads differ only in the weight column and the bias they read.
-/
import proofs.«142331_j455266533874_2_alg».proof.Proof.RefHidden
import proofs.«142331_j455266533874_2_alg».proof.Proof.LibGatherRows

noncomputable section

namespace Cert.RefValue

open Cert.ReferenceIdeal Cert.ReferenceIdeal.Gen Cert.ReferenceIdeal.ReadP Idealize.ShloMosaic Idealize.ShloMosaic.ValueIdx

variable (x0 : (⟨S100000x256, .f32⟩ : BufTy).Contents (Elt Ideal)) (x1 : (⟨S800000x2, .i32⟩ : BufTy).Contents (Elt Ideal))
  (x2 : (⟨S256x128, .f32⟩ : BufTy).Contents (Elt Ideal))
  (x3 : (⟨S128, .f32⟩ : BufTy).Contents (Elt Ideal)) (x4 : (⟨S512x128, .f32⟩ : BufTy).Contents (Elt Ideal))
  (x5 : (⟨S256x1, .f32⟩ : BufTy).Contents (Elt Ideal)) (x6 : (⟨S1, .f32⟩ : BufTy).Contents (Elt Ideal))
  (x7 : (⟨S256x1, .f32⟩ : BufTy).Contents (Elt Ideal)) (x8 : (⟨S1, .f32⟩ : BufTy).Contents (Elt Ideal))
  (x9 : (⟨S256x1, .f32⟩ : BufTy).Contents (Elt Ideal)) (x10 : (⟨S1, .f32⟩ : BufTy).Contents (Elt Ideal))

/-! ## The two columns of row numbers -/

theorem idx282221 (p : Fin 800000) :
    idx_main_v21 (idx_main_v22 (idx_main_v28 (ix2 p (0 : Fin 1)))) = ix2 p (0 : Fin 2) :=
  funext fun a => Fin.ext (by
    match a with
    | ⟨0, _⟩ => exact Nat.div_one _
    | ⟨1, _⟩ => rfl)
theorem idx373130 (p : Fin 800000) :
    idx_main_v30 (idx_main_v31 (idx_main_v37 (ix2 p (0 : Fin 1)))) = ix2 p (1 : Fin 2) :=
  funext fun a => Fin.ext (by
    match a with
    | ⟨0, _⟩ => exact Nat.div_one _
    | ⟨1, _⟩ => rfl)

/-- The left row number of pair p, as the gather reads it. -/
theorem ref_rowL (p : Fin 800000) :
    val_main_v28 (F := Ideal) x1 (ix2 p (0 : Fin 1)) = Cert.Spec.normWord (x1 (ix2 p (0 : Fin 2))) := by
  rw [val_main_v28_apply, val_main_v27_apply, val_main_v24_apply, val_main_v26_apply, val_main_v23_apply,
    val_main_v25_apply, val_main_v22_apply, val_main_v21_apply, idx282221]
  rfl

/-- The right row number of pair p, as the gather reads it. -/
theorem ref_rowR (p : Fin 800000) :
    val_main_v37 (F := Ideal) x1 (ix2 p (0 : Fin 1)) = Cert.Spec.normWord (x1 (ix2 p (1 : Fin 2))) := by
  rw [val_main_v37_apply, val_main_v36_apply, val_main_v33_apply, val_main_v35_apply, val_main_v32_apply,
    val_main_v34_apply, val_main_v31_apply, val_main_v30_apply, idx373130]
  rfl

/-! ## The two gathered rows -/

/-- The hidden array at a row and a column given by their numbers. -/
theorem hid_at_row (r r' : Fin 100000) (d d' : Fin 128) (hr : r.val = r'.val) (hd : d.val = d'.val) :
    val_main_v20 (F := Ideal) x0 x2 x3 x4 (ix2 r d) = H x0 x2 x3 x4 r' d' := by
  obtain rfl : r = r' := Fin.ext hr
  obtain rfl : d = d' := Fin.ext hd
  exact ref_hidden x0 x2 x3 x4 r d

theorem rowsIdx_ix2 (p : Fin 800000) (d : Fin 128) :
    Cert.Lib.GatherRows.rowsIdx (ix2 p d) = ix2 p (0 : Fin 1) :=
  funext fun a => Fin.ext (by match a with | ⟨0, _⟩ => rfl | ⟨1, _⟩ => rfl)

/-- The left gathered row of pair p is the hidden row of the node its left row number names. -/
theorem ref_gatherL (p : Fin 800000) (d : Fin 128) :
    val_main_v29 (F := Ideal) x0 x1 x2 x3 x4 (ix2 p d)
      = H x0 x2 x3 x4 (Cert.Spec.gRow (x1 (ix2 p (0 : Fin 2)))) d := by
  have hg := Cert.Lib.GatherRows.gather_rows_apply (N := 100000) (R := 800000) (D := 128) (w := 32) (by decide)
    gather_S100000x128_S800000x1_S800000x128_1_0_n_n_0_1_1128_wf (val_main_v20 (F := Ideal) x0 x2 x3 x4)
    (val_main_v28 (F := Ideal) x1) (ix2 p d)
  refine hg.trans (hid_at_row x0 x2 x3 x4 _ _ _ _ ?_ rfl)
  show min _ _ = min _ _
  rw [rowsIdx_ix2, ref_rowL]

/-- The right gathered row of pair p is the hidden row of the node its right row number names. -/
theorem ref_gatherR (p : Fin 800000) (d : Fin 128) :
    val_main_v38 (F := Ideal) x0 x1 x2 x3 x4 (ix2 p d)
      = H x0 x2 x3 x4 (Cert.Spec.gRow (x1 (ix2 p (1 : Fin 2)))) d := by
  have hg := Cert.Lib.GatherRows.gather_rows_apply (N := 100000) (R := 800000) (D := 128) (w := 32) (by decide)
    gather_S100000x128_S800000x1_S800000x128_1_0_n_n_0_1_1128_wf (val_main_v20 (F := Ideal) x0 x2 x3 x4)
    (val_main_v37 (F := Ideal) x1) (ix2 p d)
  refine hg.trans (hid_at_row x0 x2 x3 x4 _ _ _ _ ?_ rfl)
  show min _ _ = min _ _
  rw [rowsIdx_ix2, ref_rowR]

/-! ## The two rows side by side -/

/-- The first 128 entries of the joined row are the left gathered row. -/
theorem ref_catL (p : Fin 800000) (d : Fin 128) :
    val_main_v39 (F := Ideal) x0 x1 x2 x3 x4 (ix2 p (⟨d.val, by omega⟩ : Fin 256))
      = H x0 x2 x3 x4 (Cert.Spec.gRow (x1 (ix2 p (0 : Fin 2)))) d := by
  refine (concatenate_pair_apply_left (t := S800000x256) (s₁ := S800000x128) (s₂ := S800000x128) 1
    (val_main_v29 (F := Ideal) x0 x1 x2 x3 x4) (val_main_v38 (F := Ideal) x0 x1 x2 x3 x4)
    concatenates_S800000x128_S800000x128_S800000x256_d1 (ix2 p (⟨d.val, by omega⟩ : Fin 256)) rfl (ix2 p d)
    (fun b => by match b with | ⟨0, _⟩ => rfl | ⟨1, _⟩ => rfl)).trans ?_
  exact ref_gatherL x0 x1 x2 x3 x4 p d

/-- The last 128 entries of the joined row are the right gathered row. -/
theorem ref_catR (p : Fin 800000) (d : Fin 128) :
    val_main_v39 (F := Ideal) x0 x1 x2 x3 x4 (ix2 p (⟨128 + d.val, by omega⟩ : Fin 256))
      = H x0 x2 x3 x4 (Cert.Spec.gRow (x1 (ix2 p (1 : Fin 2)))) d := by
  refine (concatenate_pair_apply_right (t := S800000x256) (s₁ := S800000x128) (s₂ := S800000x128) 1
    (val_main_v29 (F := Ideal) x0 x1 x2 x3 x4) (val_main_v38 (F := Ideal) x0 x1 x2 x3 x4)
    concatenates_S800000x128_S800000x128_S800000x256_d1 (ix2 p (⟨128 + d.val, by omega⟩ : Fin 256)) rfl rfl (ix2 p d)
    (fun b hb => by
      match b with
      | ⟨0, _⟩ => rfl
      | ⟨1, _⟩ => exact absurd rfl hb)
    (by show d.val + 128 = 128 + d.val; omega)).trans ?_
  exact ref_gatherR x0 x1 x2 x3 x4 p d

/-! ## One edge head -/

/-- ONE HEAD with weight column w and bias b: the joined row's product with w plus b is the left hidden row's
    product with the upper half of w, plus the right hidden row's product with the lower half of w, plus b. -/
theorem ref_head (w : (⟨S256x1, .f32⟩ : BufTy).Contents (Elt Ideal)) (b : (⟨S1, .f32⟩ : BufTy).Contents (Elt Ideal))
    (p : Fin 800000) :
    (∑ k : Fin 256, val_main_v39 (F := Ideal) x0 x1 x2 x3 x4 (ix2 p k) * w (ix2 k (0 : Fin 1))) + b (ix1 (0 : Fin 1))
      = ((∑ d : Fin 128, H x0 x2 x3 x4 (Cert.Spec.gRow (x1 (ix2 p (0 : Fin 2)))) d
              * w (ix2 (⟨d.val, by omega⟩ : Fin 256) (0 : Fin 1)))
          + (∑ d : Fin 128, H x0 x2 x3 x4 (Cert.Spec.gRow (x1 (ix2 p (1 : Fin 2)))) d
              * w (ix2 (⟨128 + d.val, by omega⟩ : Fin 256) (0 : Fin 1))))
        + b (ix1 (0 : Fin 1)) := by
  rw [Cert.Spec.sum_two_halves (fun k : Fin 256 => val_main_v39 (F := Ideal) x0 x1 x2 x3 x4 (ix2 p k) * w (ix2 k (0 : Fin 1)))]
  simp only [ref_catL, ref_catR]

/-! ## Where a head reads its operands, at the index of one pair -/

theorem idx44 (p : Fin 800000) : idx_main_v44 (ix1 p) = ix2 p (0 : Fin 1) :=
  funext fun a => Fin.ext (by
    match a with
    | ⟨0, _⟩ => exact Nat.div_one _
    | ⟨1, _⟩ => rfl)
theorem lidx40 (p : Fin 800000) (k : Fin 256) : lidx_main_v40 (ix2 p (0 : Fin 1)) k = ix2 p k :=
  funext fun a => Fin.ext (by match a with | ⟨0, _⟩ => rfl | ⟨1, _⟩ => rfl)
theorem ridx40 (p : Fin 800000) (k : Fin 256) : ridx_main_v40 (ix2 p (0 : Fin 1)) k = ix2 k (0 : Fin 1) :=
  funext fun a => Fin.ext (by match a with | ⟨0, _⟩ => rfl | ⟨1, _⟩ => rfl)
theorem idx4241 (p : Fin 800000) : idx_main_v41 (idx_main_v42 (ix2 p (0 : Fin 1))) = ix1 (0 : Fin 1) :=
  funext fun a => Fin.ext (by match a with | ⟨0, _⟩ => rfl)

theorem idx49 (p : Fin 800000) : idx_main_v49 (ix1 p) = ix2 p (0 : Fin 1) := idx44 p
theorem lidx45 (p : Fin 800000) (k : Fin 256) : lidx_main_v45 (ix2 p (0 : Fin 1)) k = ix2 p k := lidx40 p k
theorem ridx45 (p : Fin 800000) (k : Fin 256) : ridx_main_v45 (ix2 p (0 : Fin 1)) k = ix2 k (0 : Fin 1) := ridx40 p k
theorem idx4746 (p : Fin 800000) : idx_main_v46 (idx_main_v47 (ix2 p (0 : Fin 1))) = ix1 (0 : Fin 1) := idx4241 p

theorem idx54 (p : Fin 800000) : idx_main_v54 (ix1 p) = ix2 p (0 : Fin 1) := idx44 p
theorem lidx50 (p : Fin 800000) (k : Fin 256) : lidx_main_v50 (ix2 p (0 : Fin 1)) k = ix2 p k := lidx40 p k
theorem ridx50 (p : Fin 800000) (k : Fin 256) : ridx_main_v50 (ix2 p (0 : Fin 1)) k = ix2 k (0 : Fin 1) := ridx40 p k
theorem idx5251 (p : Fin 800000) : idx_main_v51 (idx_main_v52 (ix2 p (0 : Fin 1))) = ix1 (0 : Fin 1) := idx4241 p

/-! ## The three heads -/

/-- THE FIRST HEAD, with weight column x5 and bias x6. -/
theorem ref_edge0 (p : Fin 800000) :
    val_main_v44 (F := Ideal) x0 x1 x2 x3 x4 x5 x6 (ix1 p)
      = ((∑ d : Fin 128, H x0 x2 x3 x4 (Cert.Spec.gRow (x1 (ix2 p (0 : Fin 2)))) d
              * x5 (ix2 (⟨d.val, by omega⟩ : Fin 256) (0 : Fin 1)))
          + (∑ d : Fin 128, H x0 x2 x3 x4 (Cert.Spec.gRow (x1 (ix2 p (1 : Fin 2)))) d
              * x5 (ix2 (⟨128 + d.val, by omega⟩ : Fin 256) (0 : Fin 1))))
        + x6 (ix1 (0 : Fin 1)) := by
  rw [val_main_v44_apply, idx44, val_main_v43_apply, val_main_v40_apply, val_main_v42_apply, val_main_v41_apply, idx4241]
  simp only [Ideal.addf_def, lidx40, ridx40]
  exact ref_head x0 x1 x2 x3 x4 x5 x6 p

/-- THE SECOND HEAD, with weight column x7 and bias x8. -/
theorem ref_edge1 (p : Fin 800000) :
    val_main_v49 (F := Ideal) x0 x1 x2 x3 x4 x7 x8 (ix1 p)
      = ((∑ d : Fin 128, H x0 x2 x3 x4 (Cert.Spec.gRow (x1 (ix2 p (0 : Fin 2)))) d
              * x7 (ix2 (⟨d.val, by omega⟩ : Fin 256) (0 : Fin 1)))
          + (∑ d : Fin 128, H x0 x2 x3 x4 (Cert.Spec.gRow (x1 (ix2 p (1 : Fin 2)))) d
              * x7 (ix2 (⟨128 + d.val, by omega⟩ : Fin 256) (0 : Fin 1))))
        + x8 (ix1 (0 : Fin 1)) := by
  rw [val_main_v49_apply, idx49, val_main_v48_apply, val_main_v45_apply, val_main_v47_apply, val_main_v46_apply, idx4746]
  simp only [Ideal.addf_def, lidx45, ridx45]
  exact ref_head x0 x1 x2 x3 x4 x7 x8 p

/-- THE THIRD HEAD, with weight column x9 and bias x10. -/
theorem ref_edge2 (p : Fin 800000) :
    val_main_v54 (F := Ideal) x0 x1 x2 x3 x4 x9 x10 (ix1 p)
      = ((∑ d : Fin 128, H x0 x2 x3 x4 (Cert.Spec.gRow (x1 (ix2 p (0 : Fin 2)))) d
              * x9 (ix2 (⟨d.val, by omega⟩ : Fin 256) (0 : Fin 1)))
          + (∑ d : Fin 128, H x0 x2 x3 x4 (Cert.Spec.gRow (x1 (ix2 p (1 : Fin 2)))) d
              * x9 (ix2 (⟨128 + d.val, by omega⟩ : Fin 256) (0 : Fin 1))))
        + x10 (ix1 (0 : Fin 1)) := by
  rw [val_main_v54_apply, idx54, val_main_v53_apply, val_main_v50_apply, val_main_v52_apply, val_main_v51_apply, idx5251]
  simp only [Ideal.addf_def, lidx50, ridx50]
  exact ref_head x0 x1 x2 x3 x4 x9 x10 p

end Cert.RefValue

end
-- ==== Proof.Bridge.lean ====
/-
  The two programs compute the same five results.

  Index by index, the kernel program's hidden array and the reference's are the specification's hidden rows; their
  token arrays are those rows times the token weights plus the bias; and each edge output at pair `p` is, in both, the
  head's upper half applied to the hidden row of the pair's first node, plus its lower half applied to the hidden row
  of its second node, plus the head's bias.  The kernel program reaches that form by projecting every node's hidden
  row first and gathering the projections; the reference by gathering the hidden rows, laying them side by side and
  taking one product of 256 terms, which splits into its two halves of 128.
-/
import proofs.«142331_j455266533874_2_alg».proof.Proof.KRun
import proofs.«142331_j455266533874_2_alg».proof.Proof.RefToken
import proofs.«142331_j455266533874_2_alg».proof.Proof.RefEdge

noncomputable section

namespace Cert.Bridge

open Idealize.ShloMosaic Idealize.ShloMosaic.ValueIdx
open Cert.ReferenceIdeal Cert.ReferenceIdeal.ReadP
open Cert.KernelIdeal.Hand (G9 G10 G11 G12 biassel shapeCast_a1_a_apply column_out)

variable (x0 : (⟨S100000x256, .f32⟩ : BufTy).Contents (Elt Ideal)) (x1 : (⟨S800000x2, .i32⟩ : BufTy).Contents (Elt Ideal))
  (x2 : (⟨S256x128, .f32⟩ : BufTy).Contents (Elt Ideal)) (x3 : (⟨S128, .f32⟩ : BufTy).Contents (Elt Ideal)) (x4 : (⟨S512x128, .f32⟩ : BufTy).Contents (Elt Ideal))
  (x5 : (⟨S256x1, .f32⟩ : BufTy).Contents (Elt Ideal)) (x6 : (⟨S1, .f32⟩ : BufTy).Contents (Elt Ideal)) (x7 : (⟨S256x1, .f32⟩ : BufTy).Contents (Elt Ideal)) (x8 : (⟨S1, .f32⟩ : BufTy).Contents (Elt Ideal))
  (x9 : (⟨S256x1, .f32⟩ : BufTy).Contents (Elt Ideal)) (x10 : (⟨S1, .f32⟩ : BufTy).Contents (Elt Ideal)) (x11 : (⟨S128x2048, .f32⟩ : BufTy).Contents (Elt Ideal)) (x12 : (⟨S2048, .f32⟩ : BufTy).Contents (Elt Ideal))

/-- The hidden arrays agree. -/
theorem hidden_eq : val_main_v20 (F := Ideal) x0 x2 x3 x4 = G9 x0 x2 x3 x4 := by
  funext i
  obtain ⟨n, d, rfl⟩ : ∃ (n : Fin 100000) (d : Fin 128), i = ix2 n d := ⟨i 0, i 1, eq_ix2 i⟩
  exact Cert.RefValue.ref_hidden x0 x2 x3 x4 n d

/-- The token arrays agree. -/
theorem token_eq : val_main_v58 (F := Ideal) x0 x2 x3 x4 x11 x12 = G10 x0 x2 x3 x4 x11 x12 := by
  funext i
  obtain ⟨n, v, rfl⟩ : ∃ (n : Fin 100000) (v : Fin 2048), i = ix2 n v := ⟨i 0, i 1, eq_ix2 i⟩
  exact Cert.RefValue.ref_token x0 x2 x3 x4 x11 x12 n v

section Edges

/-- Column `o` of an `[800000, 3]` array, cut out and cast to a vector, read at `p`. -/
theorem column_out' (X : Cert.KernelIdeal.S800000x3.Idx → EReal) (o : ℕ) (ho : o < 3)
    (hs : Cert.KernelIdeal.S800000x3.Slices ![0, o] Cert.KernelIdeal.S800000x1)
    (hc : Cert.KernelIdeal.S800000x1.ShapeCasts Cert.KernelIdeal.S800000) (p : Fin 800000) :
    shapeCast Cert.KernelIdeal.S800000 (extractStridedSlice Cert.KernelIdeal.S800000x1 ![0, o] X hs) hc (ix1 p)
      = X (ix2 p (⟨o, ho⟩ : Fin 3)) :=
  (shapeCast_a1_a_apply _ _ p).trans (Cert.Columns.slice_col_apply o ho X hs p 0)

/-- Edge output 0: the two programs agree. -/
theorem edge0_eq (T : Cert.KernelIdeal.S800000x3.Idx → EReal)
    (hT : ∀ (p : Fin 800000) (h : Fin 3), T (ix2 p h)
      = (G11 x0 x2 x3 x4 x5 x7 x9 (ix2 (Cert.Spec.gRow (x1 (ix2 p (0 : Fin 2)))) h)
          + G12 x0 x2 x3 x4 x5 x7 x9 (ix2 (Cert.Spec.gRow (x1 (ix2 p (1 : Fin 2)))) h))
        + biassel x6 x8 x10 h (ix1 (0 : Fin 1)))
    (hs : Cert.KernelIdeal.S800000x3.Slices ![0, 0] Cert.KernelIdeal.S800000x1)
    (hc : Cert.KernelIdeal.S800000x1.ShapeCasts Cert.KernelIdeal.S800000) :
    val_main_v44 (F := Ideal) x0 x1 x2 x3 x4 x5 x6
      = shapeCast Cert.KernelIdeal.S800000 (extractStridedSlice Cert.KernelIdeal.S800000x1 ![0, 0] T hs) hc := by
  funext i
  obtain ⟨p, rfl⟩ : ∃ p : Fin 800000, i = ix1 p := ⟨i 0, eq_ix1 i⟩
  refine (Cert.RefValue.ref_edge0 x0 x1 x2 x3 x4 x5 x6 p).trans ?_
  refine Eq.trans ?_ (column_out' T 0 (by decide) hs hc p).symm
  rw [hT]
  rfl

/-- Edge output 1: the two programs agree. -/
theorem edge1_eq (T : Cert.KernelIdeal.S800000x3.Idx → EReal)
    (hT : ∀ (p : Fin 800000) (h : Fin 3), T (ix2 p h)
      = (G11 x0 x2 x3 x4 x5 x7 x9 (ix2 (Cert.Spec.gRow (x1 (ix2 p (0 : Fin 2)))) h)
          + G12 x0 x2 x3 x4 x5 x7 x9 (ix2 (Cert.Spec.gRow (x1 (ix2 p (1 : Fin 2)))) h))
        + biassel x6 x8 x10 h (ix1 (0 : Fin 1)))
    (hs : Cert.KernelIdeal.S800000x3.Slices ![0, 1] Cert.KernelIdeal.S800000x1)
    (hc : Cert.KernelIdeal.S800000x1.ShapeCasts Cert.KernelIdeal.S800000) :
    val_main_v49 (F := Ideal) x0 x1 x2 x3 x4 x7 x8
      = shapeCast Cert.KernelIdeal.S800000 (extractStridedSlice Cert.KernelIdeal.S800000x1 ![0, 1] T hs) hc := by
  funext i
  obtain ⟨p, rfl⟩ : ∃ p : Fin 800000, i = ix1 p := ⟨i 0, eq_ix1 i⟩
  refine (Cert.RefValue.ref_edge1 x0 x1 x2 x3 x4 x7 x8 p).trans ?_
  refine Eq.trans ?_ (column_out' T 1 (by decide) hs hc p).symm
  rw [hT]
  rfl

/-- Edge output 2: the two programs agree. -/
theorem edge2_eq (T : Cert.KernelIdeal.S800000x3.Idx → EReal)
    (hT : ∀ (p : Fin 800000) (h : Fin 3), T (ix2 p h)
      = (G11 x0 x2 x3 x4 x5 x7 x9 (ix2 (Cert.Spec.gRow (x1 (ix2 p (0 : Fin 2)))) h)
          + G12 x0 x2 x3 x4 x5 x7 x9 (ix2 (Cert.Spec.gRow (x1 (ix2 p (1 : Fin 2)))) h))
        + biassel x6 x8 x10 h (ix1 (0 : Fin 1)))
    (hs : Cert.KernelIdeal.S800000x3.Slices ![0, 2] Cert.KernelIdeal.S800000x1)
    (hc : Cert.KernelIdeal.S800000x1.ShapeCasts Cert.KernelIdeal.S800000) :
    val_main_v54 (F := Ideal) x0 x1 x2 x3 x4 x9 x10
      = shapeCast Cert.KernelIdeal.S800000 (extractStridedSlice Cert.KernelIdeal.S800000x1 ![0, 2] T hs) hc := by
  funext i
  obtain ⟨p, rfl⟩ : ∃ p : Fin 800000, i = ix1 p := ⟨i 0, eq_ix1 i⟩
  refine (Cert.RefValue.ref_edge2 x0 x1 x2 x3 x4 x9 x10 p).trans ?_
  refine Eq.trans ?_ (column_out' T 2 (by decide) hs hc p).symm
  rw [hT]
  rfl

end Edges

end Cert.Bridge

end
-- ==== Proof.RefRunHand.lean ====
/-
  The reference program's run, read back: every result buffer at its stage of the reference's values.

  The program is a straight line of 67 host operations, and a run of it leaves every buffer at the fold of the
  operations' results over the launch contents.  The fold over the whole line is taken in four pieces, because a
  fold over a concatenation is the fold over the second list from the fold over the first: the first 25 operations
  compute the hidden rows from the arguments; the next 22 compute the two columns of row numbers and gather the
  hidden rows at them; one operation joins the two gathered rows; the last 19 compute the three edge heads and the
  token scores.  Each piece leaves alone every buffer it does not write, and writes its results as the reference's
  stages of the values it reads.
-/
import proofs.«142331_j455266533874_2_alg».proof.Proof.RefRun
import proofs.«142331_j455266533874_2_alg».proof.Proof.RefRead

noncomputable section

namespace Cert.ReferenceIdeal.RunHand

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

variable {F : FTy → Type} [FloatOps F]

/-- The fold over a concatenation is the fold over the second list from the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih =>
    show after (l ++ l₂) (op.result V) = after l₂ (after l (op.result V))
    exact ih _

/-- Two pieces of one shape joined along an axis depend only on the pieces. -/
theorem cat_congr {α : Type} {t s : Shape} (a : Fin t.rank) {x x' y y' : s.Idx → α} (h : Shape.Concatenates [s, s] t a)
    (hx : x = x') (hy : y = y') :
    concatenate t a [⟨s, x⟩, ⟨s, y⟩] h = concatenate t a [⟨s, x'⟩, ⟨s, y'⟩] h := by
  subst hx; subst hy; rfl

/-- The first 25 operations: from the arguments to the hidden rows. -/
abbrev opsA : List (HloOp τ sig (Elt F)) :=
  [ binary main_arg0 main_arg2 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    unary main_arg3 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    unary main_v3 main_v4 (Host.tanh : (⟨S100000x128, .f32⟩ : BufTy).Contents (Elt F) → (⟨S100000x128, .f32⟩ : BufTy).Contents (Elt F)),
    unary main_arg4 main_v5 ((transpose S128x512 [1, 0] · transposes_S512x128_S128x512_1_0) : (⟨S512x128, .f32⟩ : BufTy).Contents (Elt F) → (⟨S128x512, .f32⟩ : BufTy).Contents (Elt F)),
    binary main_v4 main_v5 main_v6 ((fun l r => Host.dotGeneral dot_S100000x128_S128x512_S100000x512_1_0_0_1_n_n none l r) : (⟨S100000x128, .f32⟩ : BufTy).Contents (Elt F) → (⟨S128x512, .f32⟩ : BufTy).Contents (Elt F) → (⟨S100000x512, .f32⟩ : BufTy).Contents (Elt F)),
    nullary main_cst (constant S_ .f32 0x413504F3#32),
    unary main_cst main_v7 (broadcastInDim S100000x512 ![] bcast_S_S100000x512 : (⟨S_, .f32⟩ : BufTy).Contents (Elt F) → (⟨S100000x512, .f32⟩ : BufTy).Contents (Elt F)),
    binary main_v6 main_v7 main_v8 (Host.divf : (⟨S100000x512, .f32⟩ : BufTy).Contents (Elt F) → (⟨S100000x512, .f32⟩ : BufTy).Contents (Elt F) → (⟨S100000x512, .f32⟩ : BufTy).Contents (Elt F)),
    nullary main_cst_0 (constant S_ .f32 0xFF800000#32),
    binary main_v8 main_cst_0 main_v9 ((fun x v => Host.reduce FloatOps.maximumf x v reducesTo_S100000x512_S100000_d1 h_S_) : (⟨S100000x512, .f32⟩ : BufTy).Contents (Elt F) → (⟨S_, .f32⟩ : BufTy).Contents (Elt F) → (⟨S100000, .f32⟩ : BufTy).Contents (Elt F)),
    nullary main_cst_1 (constant S_ .f32 0xFF800000#32),
    unary main_cst_1 main_v10 (broadcastInDim S100000 ![] bcast_S_S100000 : (⟨S_, .f32⟩ : BufTy).Contents (Elt F) → (⟨S100000, .f32⟩ : BufTy).Contents (Elt F)),
    binary main_v10 main_v9 main_v11 (maximumf : (⟨S100000, .f32⟩ : BufTy).Contents (Elt F) → (⟨S100000, .f32⟩ : BufTy).Contents (Elt F) → (⟨S100000, .f32⟩ : BufTy).Contents (Elt F)),
    unary main_v11 main_v12 (broadcastInDim S100000x1 ![0] bcast_S100000_S100000x1_0 : (⟨S100000, .f32⟩ : BufTy).Contents (Elt F) → (⟨S100000x1, .f32⟩ : BufTy).Contents (Elt F)),
    unary main_v12 main_v13 (broadcastInDim S100000x512 ![0, 1] bcast_S100000x1_S100000x512_0_1 : (⟨S100000x1, .f32⟩ : BufTy).Contents (Elt F) → (⟨S100000x512, .f32⟩ : BufTy).Contents (Elt F)),
    binary main_v8 main_v13 main_v14 (subf : (⟨S100000x512, .f32⟩ : BufTy).Contents (Elt F) → (⟨S100000x512, .f32⟩ : BufTy).Contents (Elt F) → (⟨S100000x512, .f32⟩ : BufTy).Contents (Elt F)),
    unary main_v14 main_v15 (Host.exp : (⟨S100000x512, .f32⟩ : BufTy).Contents (Elt F) → (⟨S100000x512, .f32⟩ : BufTy).Contents (Elt F)),
    nullary main_cst_2 (constant S_ .f32 0x00000000#32),
    binary main_v15 main_cst_2 main_v16 ((fun x v => Host.reduceAdd x v reducesTo_S100000x512_S100000_d1 h_S_) : (⟨S100000x512, .f32⟩ : BufTy).Contents (Elt F) → (⟨S_, .f32⟩ : BufTy).Contents (Elt F) → (⟨S100000, .f32⟩ : BufTy).Contents (Elt F)),
    unary main_v16 main_v17 (broadcastInDim S100000x1 ![0] bcast_S100000_S100000x1_0 : (⟨S100000, .f32⟩ : BufTy).Contents (Elt F) → (⟨S100000x1, .f32⟩ : BufTy).Contents (Elt F)),
    unary main_v17 main_v18 (broadcastInDim S100000x512 ![0, 1] bcast_S100000x1_S100000x512_0_1 : (⟨S100000x1, .f32⟩ : BufTy).Contents (Elt F) → (⟨S100000x512, .f32⟩ : BufTy).Contents (Elt F)),
    binary main_v15 main_v18 main_v19 (Host.divf : (⟨S100000x512, .f32⟩ : BufTy).Contents (Elt F) → (⟨S100000x512, .f32⟩ : BufTy).Contents (Elt F) → (⟨S100000x512, .f32⟩ : BufTy).Contents (Elt F)),
    binary main_v19 main_arg4 main_v20 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)) ]

/-- The next 22 operations: the two columns of row numbers and the two gathers. -/
abbrev opsB : List (HloOp τ sig (Elt F)) :=
  [ unary main_arg1 main_v21 ((extractStridedSlice S800000x1 ![0, 0] · slices_S800000x2_S800000x1_0_0) : (⟨S800000x2, .i32⟩ : BufTy).Contents (Elt F) → (⟨S800000x1, .i32⟩ : BufTy).Contents (Elt F)),
    reshape main_v21 main_v22 rfl shapeCasts_S800000x1_S800000,
    nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_v22 main_v23 main_v24 (cmpi .slt : (⟨S800000, .i32⟩ : BufTy).Contents (Elt F) → (⟨S800000, .i32⟩ : BufTy).Contents (Elt F) → (⟨S800000, .i1⟩ : BufTy).Contents (Elt F)),
    nullary main_c_3 (constantI S_ 32 100000#32),
    unary main_c_3 main_v25 (broadcastInDim S800000 ![] bcast_S_S800000 : (⟨S_, .i32⟩ : BufTy).Contents (Elt F) → (⟨S800000, .i32⟩ : BufTy).Contents (Elt F)),
    binary main_v22 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_v22 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v20 main_v28 main_v29 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)),
    unary main_arg1 main_v30 ((extractStridedSlice S800000x1 ![0, 1] · slices_S800000x2_S800000x1_0_1) : (⟨S800000x2, .i32⟩ : BufTy).Contents (Elt F) → (⟨S800000x1, .i32⟩ : BufTy).Contents (Elt F)),
    reshape main_v30 main_v31 rfl shapeCasts_S800000x1_S800000,
    nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v31 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 100000#32),
    unary main_c_5 main_v34 (broadcastInDim S800000 ![] bcast_S_S800000 : (⟨S_, .i32⟩ : BufTy).Contents (Elt F) → (⟨S800000, .i32⟩ : BufTy).Contents (Elt F)),
    binary main_v31 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v31 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v20 main_v37 main_v38 ((fun x i => Host.gather gather_S100000x128_S800000x1_S800000x128_1_0_n_n_0_1_1128 x i) : (⟨S100000x128, .f32⟩ : BufTy).Contents (Elt F) → (⟨S800000x1, .i32⟩ : BufTy).Contents (Elt F) → (⟨S800000x128, .f32⟩ : BufTy).Contents (Elt F)) ]

/-- The one operation that joins the two gathered rows. -/
abbrev opsJ : List (HloOp τ sig (Elt F)) :=
  [ binary main_v29 main_v38 main_v39 ((fun a b => concatenate S800000x256 1 [⟨S800000x128, a⟩, ⟨S800000x128, b⟩] concatenates_S800000x128_S800000x128_S800000x256_d1) : (⟨S800000x128, .f32⟩ : BufTy).Contents (Elt F) → (⟨S800000x128, .f32⟩ : BufTy).Contents (Elt F) → (⟨S800000x256, .f32⟩ : BufTy).Contents (Elt F)) ]

/-- The last 19 operations: the three edge heads and the token scores. -/
abbrev opsC : List (HloOp τ sig (Elt F)) :=
  [ binary main_v39 main_arg5 main_v40 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    unary main_arg6 main_v41 (broadcastInDim S1x1 ![1] bcast_S1_S1x1_1 : (⟨S1, .f32⟩ : BufTy).Contents (Elt F) → (⟨S1x1, .f32⟩ : BufTy).Contents (Elt F)),
    unary main_v41 main_v42 (broadcastInDim S800000x1 ![0, 1] bcast_S1x1_S800000x1_0_1 : (⟨S1x1, .f32⟩ : BufTy).Contents (Elt F) → (⟨S800000x1, .f32⟩ : BufTy).Contents (Elt F)),
    binary main_v40 main_v42 main_v43 (addf : (⟨S800000x1, .f32⟩ : BufTy).Contents (Elt F) → (⟨S800000x1, .f32⟩ : BufTy).Contents (Elt F) → (⟨S800000x1, .f32⟩ : BufTy).Contents (Elt F)),
    reshape main_v43 main_v44 rfl shapeCasts_S800000x1_S800000,
    binary main_v39 main_arg7 main_v45 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    unary main_arg8 main_v46 (broadcastInDim S1x1 ![1] bcast_S1_S1x1_1 : (⟨S1, .f32⟩ : BufTy).Contents (Elt F) → (⟨S1x1, .f32⟩ : BufTy).Contents (Elt F)),
    unary main_v46 main_v47 (broadcastInDim S800000x1 ![0, 1] bcast_S1x1_S800000x1_0_1 : (⟨S1x1, .f32⟩ : BufTy).Contents (Elt F) → (⟨S800000x1, .f32⟩ : BufTy).Contents (Elt F)),
    binary main_v45 main_v47 main_v48 (addf : (⟨S800000x1, .f32⟩ : BufTy).Contents (Elt F) → (⟨S800000x1, .f32⟩ : BufTy).Contents (Elt F) → (⟨S800000x1, .f32⟩ : BufTy).Contents (Elt F)),
    reshape main_v48 main_v49 rfl shapeCasts_S800000x1_S800000,
    binary main_v39 main_arg9 main_v50 ((fun l r => Host.dotGeneral dot_S800000x256_S256x1_S800000x1_1_0_0_1_n_n none l r) : (⟨S800000x256, .f32⟩ : BufTy).Contents (Elt F) → (⟨S256x1, .f32⟩ : BufTy).Contents (Elt F) → (⟨S800000x1, .f32⟩ : BufTy).Contents (Elt F)),
    unary main_arg10 main_v51 (broadcastInDim S1x1 ![1] bcast_S1_S1x1_1 : (⟨S1, .f32⟩ : BufTy).Contents (Elt F) → (⟨S1x1, .f32⟩ : BufTy).Contents (Elt F)),
    unary main_v51 main_v52 (broadcastInDim S800000x1 ![0, 1] bcast_S1x1_S800000x1_0_1 : (⟨S1x1, .f32⟩ : BufTy).Contents (Elt F) → (⟨S800000x1, .f32⟩ : BufTy).Contents (Elt F)),
    binary main_v50 main_v52 main_v53 (addf : (⟨S800000x1, .f32⟩ : BufTy).Contents (Elt F) → (⟨S800000x1, .f32⟩ : BufTy).Contents (Elt F) → (⟨S800000x1, .f32⟩ : BufTy).Contents (Elt F)),
    reshape main_v53 main_v54 rfl shapeCasts_S800000x1_S800000,
    binary main_v20 main_arg11 main_v55 ((fun l r => Host.dotGeneral dot_S100000x128_S128x2048_S100000x2048_1_0_0_1_n_n none l r) : (⟨S100000x128, .f32⟩ : BufTy).Contents (Elt F) → (⟨S128x2048, .f32⟩ : BufTy).Contents (Elt F) → (⟨S100000x2048, .f32⟩ : BufTy).Contents (Elt F)),
    unary main_arg12 main_v56 (broadcastInDim S1x2048 ![1] bcast_S2048_S1x2048_1 : (⟨S2048, .f32⟩ : BufTy).Contents (Elt F) → (⟨S1x2048, .f32⟩ : BufTy).Contents (Elt F)),
    unary main_v56 main_v57 (broadcastInDim S100000x2048 ![0, 1] bcast_S1x2048_S100000x2048_0_1 : (⟨S1x2048, .f32⟩ : BufTy).Contents (Elt F) → (⟨S100000x2048, .f32⟩ : BufTy).Contents (Elt F)),
    binary main_v55 main_v57 main_v58 (addf : (⟨S100000x2048, .f32⟩ : BufTy).Contents (Elt F) → (⟨S100000x2048, .f32⟩ : BufTy).Contents (Elt F) → (⟨S100000x2048, .f32⟩ : BufTy).Contents (Elt F)) ]

set_option maxRecDepth 8192 in
/-- The line is its four pieces in order. -/
theorem ops_split : (ops : List (HloOp τ sig (Elt F))) = opsA ++ opsB ++ opsJ ++ opsC := rfl

/-- The fold over the line is the fold over its pieces in order. -/
theorem after_ops (V : Valuation τ sig (Elt F)) :
    after (ops (F := F)) V = after opsC (after opsJ (after opsB (after opsA V))) := by
  rw [ops_split, after_append, after_append, after_append]

/-! ## What each piece leaves alone -/

theorem A_arg0 (W : Valuation τ sig (Elt F)) :
    after (opsA (F := F)) W (Proc.devRef .tc main_arg0) = W (Proc.devRef .tc main_arg0) := by
  after_results_simp
theorem A_arg1 (W : Valuation τ sig (Elt F)) :
    after (opsA (F := F)) W (Proc.devRef .tc main_arg1) = W (Proc.devRef .tc main_arg1) := by
  after_results_simp
theorem A_arg2 (W : Valuation τ sig (Elt F)) :
    after (opsA (F := F)) W (Proc.devRef .tc main_arg2) = W (Proc.devRef .tc main_arg2) := by
  after_results_simp
theorem A_arg3 (W : Valuation τ sig (Elt F)) :
    after (opsA (F := F)) W (Proc.devRef .tc main_arg3) = W (Proc.devRef .tc main_arg3) := by
  after_results_simp
theorem A_arg4 (W : Valuation τ sig (Elt F)) :
    after (opsA (F := F)) W (Proc.devRef .tc main_arg4) = W (Proc.devRef .tc main_arg4) := by
  after_results_simp
theorem A_arg5 (W : Valuation τ sig (Elt F)) :
    after (opsA (F := F)) W (Proc.devRef .tc main_arg5) = W (Proc.devRef .tc main_arg5) := by
  after_results_simp
theorem A_arg6 (W : Valuation τ sig (Elt F)) :
    after (opsA (F := F)) W (Proc.devRef .tc main_arg6) = W (Proc.devRef .tc main_arg6) := by
  after_results_simp
theorem A_arg7 (W : Valuation τ sig (Elt F)) :
    after (opsA (F := F)) W (Proc.devRef .tc main_arg7) = W (Proc.devRef .tc main_arg7) := by
  after_results_simp
theorem A_arg8 (W : Valuation τ sig (Elt F)) :
    after (opsA (F := F)) W (Proc.devRef .tc main_arg8) = W (Proc.devRef .tc main_arg8) := by
  after_results_simp
theorem A_arg9 (W : Valuation τ sig (Elt F)) :
    after (opsA (F := F)) W (Proc.devRef .tc main_arg9) = W (Proc.devRef .tc main_arg9) := by
  after_results_simp
theorem A_arg10 (W : Valuation τ sig (Elt F)) :
    after (opsA (F := F)) W (Proc.devRef .tc main_arg10) = W (Proc.devRef .tc main_arg10) := by
  after_results_simp
theorem A_arg11 (W : Valuation τ sig (Elt F)) :
    after (opsA (F := F)) W (Proc.devRef .tc main_arg11) = W (Proc.devRef .tc main_arg11) := by
  after_results_simp
theorem A_arg12 (W : Valuation τ sig (Elt F)) :
    after (opsA (F := F)) W (Proc.devRef .tc main_arg12) = W (Proc.devRef .tc main_arg12) := by
  after_results_simp
theorem B_arg0 (W : Valuation τ sig (Elt F)) :
    after (opsB (F := F)) W (Proc.devRef .tc main_arg0) = W (Proc.devRef .tc main_arg0) := by
  after_results_simp
theorem B_arg1 (W : Valuation τ sig (Elt F)) :
    after (opsB (F := F)) W (Proc.devRef .tc main_arg1) = W (Proc.devRef .tc main_arg1) := by
  after_results_simp
theorem B_arg2 (W : Valuation τ sig (Elt F)) :
    after (opsB (F := F)) W (Proc.devRef .tc main_arg2) = W (Proc.devRef .tc main_arg2) := by
  after_results_simp
theorem B_arg3 (W : Valuation τ sig (Elt F)) :
    after (opsB (F := F)) W (Proc.devRef .tc main_arg3) = W (Proc.devRef .tc main_arg3) := by
  after_results_simp
theorem B_arg4 (W : Valuation τ sig (Elt F)) :
    after (opsB (F := F)) W (Proc.devRef .tc main_arg4) = W (Proc.devRef .tc main_arg4) := by
  after_results_simp
theorem B_arg5 (W : Valuation τ sig (Elt F)) :
    after (opsB (F := F)) W (Proc.devRef .tc main_arg5) = W (Proc.devRef .tc main_arg5) := by
  after_results_simp
theorem B_arg6 (W : Valuation τ sig (Elt F)) :
    after (opsB (F := F)) W (Proc.devRef .tc main_arg6) = W (Proc.devRef .tc main_arg6) := by
  after_results_simp
theorem B_arg7 (W : Valuation τ sig (Elt F)) :
    after (opsB (F := F)) W (Proc.devRef .tc main_arg7) = W (Proc.devRef .tc main_arg7) := by
  after_results_simp
theorem B_arg8 (W : Valuation τ sig (Elt F)) :
    after (opsB (F := F)) W (Proc.devRef .tc main_arg8) = W (Proc.devRef .tc main_arg8) := by
  after_results_simp
theorem B_arg9 (W : Valuation τ sig (Elt F)) :
    after (opsB (F := F)) W (Proc.devRef .tc main_arg9) = W (Proc.devRef .tc main_arg9) := by
  after_results_simp
theorem B_arg10 (W : Valuation τ sig (Elt F)) :
    after (opsB (F := F)) W (Proc.devRef .tc main_arg10) = W (Proc.devRef .tc main_arg10) := by
  after_results_simp
theorem B_arg11 (W : Valuation τ sig (Elt F)) :
    after (opsB (F := F)) W (Proc.devRef .tc main_arg11) = W (Proc.devRef .tc main_arg11) := by
  after_results_simp
theorem B_arg12 (W : Valuation τ sig (Elt F)) :
    after (opsB (F := F)) W (Proc.devRef .tc main_arg12) = W (Proc.devRef .tc main_arg12) := by
  after_results_simp
theorem B_v20 (W : Valuation τ sig (Elt F)) :
    after (opsB (F := F)) W (Proc.devRef .tc main_v20) = W (Proc.devRef .tc main_v20) := by
  after_results_simp
theorem J_arg0 (W : Valuation τ sig (Elt F)) :
    after (opsJ (F := F)) W (Proc.devRef .tc main_arg0) = W (Proc.devRef .tc main_arg0) := by
  after_results_simp
theorem J_arg1 (W : Valuation τ sig (Elt F)) :
    after (opsJ (F := F)) W (Proc.devRef .tc main_arg1) = W (Proc.devRef .tc main_arg1) := by
  after_results_simp
theorem J_arg2 (W : Valuation τ sig (Elt F)) :
    after (opsJ (F := F)) W (Proc.devRef .tc main_arg2) = W (Proc.devRef .tc main_arg2) := by
  after_results_simp
theorem J_arg3 (W : Valuation τ sig (Elt F)) :
    after (opsJ (F := F)) W (Proc.devRef .tc main_arg3) = W (Proc.devRef .tc main_arg3) := by
  after_results_simp
theorem J_arg4 (W : Valuation τ sig (Elt F)) :
    after (opsJ (F := F)) W (Proc.devRef .tc main_arg4) = W (Proc.devRef .tc main_arg4) := by
  after_results_simp
theorem J_arg5 (W : Valuation τ sig (Elt F)) :
    after (opsJ (F := F)) W (Proc.devRef .tc main_arg5) = W (Proc.devRef .tc main_arg5) := by
  after_results_simp
theorem J_arg6 (W : Valuation τ sig (Elt F)) :
    after (opsJ (F := F)) W (Proc.devRef .tc main_arg6) = W (Proc.devRef .tc main_arg6) := by
  after_results_simp
theorem J_arg7 (W : Valuation τ sig (Elt F)) :
    after (opsJ (F := F)) W (Proc.devRef .tc main_arg7) = W (Proc.devRef .tc main_arg7) := by
  after_results_simp
theorem J_arg8 (W : Valuation τ sig (Elt F)) :
    after (opsJ (F := F)) W (Proc.devRef .tc main_arg8) = W (Proc.devRef .tc main_arg8) := by
  after_results_simp
theorem J_arg9 (W : Valuation τ sig (Elt F)) :
    after (opsJ (F := F)) W (Proc.devRef .tc main_arg9) = W (Proc.devRef .tc main_arg9) := by
  after_results_simp
theorem J_arg10 (W : Valuation τ sig (Elt F)) :
    after (opsJ (F := F)) W (Proc.devRef .tc main_arg10) = W (Proc.devRef .tc main_arg10) := by
  after_results_simp
theorem J_arg11 (W : Valuation τ sig (Elt F)) :
    after (opsJ (F := F)) W (Proc.devRef .tc main_arg11) = W (Proc.devRef .tc main_arg11) := by
  after_results_simp
theorem J_arg12 (W : Valuation τ sig (Elt F)) :
    after (opsJ (F := F)) W (Proc.devRef .tc main_arg12) = W (Proc.devRef .tc main_arg12) := by
  after_results_simp
theorem J_v20 (W : Valuation τ sig (Elt F)) :
    after (opsJ (F := F)) W (Proc.devRef .tc main_v20) = W (Proc.devRef .tc main_v20) := by
  after_results_simp
theorem C_arg0 (W : Valuation τ sig (Elt F)) :
    after (opsC (F := F)) W (Proc.devRef .tc main_arg0) = W (Proc.devRef .tc main_arg0) := by
  after_results_simp
theorem C_arg1 (W : Valuation τ sig (Elt F)) :
    after (opsC (F := F)) W (Proc.devRef .tc main_arg1) = W (Proc.devRef .tc main_arg1) := by
  after_results_simp
theorem C_arg2 (W : Valuation τ sig (Elt F)) :
    after (opsC (F := F)) W (Proc.devRef .tc main_arg2) = W (Proc.devRef .tc main_arg2) := by
  after_results_simp
theorem C_arg3 (W : Valuation τ sig (Elt F)) :
    after (opsC (F := F)) W (Proc.devRef .tc main_arg3) = W (Proc.devRef .tc main_arg3) := by
  after_results_simp
theorem C_arg4 (W : Valuation τ sig (Elt F)) :
    after (opsC (F := F)) W (Proc.devRef .tc main_arg4) = W (Proc.devRef .tc main_arg4) := by
  after_results_simp
theorem C_arg5 (W : Valuation τ sig (Elt F)) :
    after (opsC (F := F)) W (Proc.devRef .tc main_arg5) = W (Proc.devRef .tc main_arg5) := by
  after_results_simp
theorem C_arg6 (W : Valuation τ sig (Elt F)) :
    after (opsC (F := F)) W (Proc.devRef .tc main_arg6) = W (Proc.devRef .tc main_arg6) := by
  after_results_simp
theorem C_arg7 (W : Valuation τ sig (Elt F)) :
    after (opsC (F := F)) W (Proc.devRef .tc main_arg7) = W (Proc.devRef .tc main_arg7) := by
  after_results_simp
theorem C_arg8 (W : Valuation τ sig (Elt F)) :
    after (opsC (F := F)) W (Proc.devRef .tc main_arg8) = W (Proc.devRef .tc main_arg8) := by
  after_results_simp
theorem C_arg9 (W : Valuation τ sig (Elt F)) :
    after (opsC (F := F)) W (Proc.devRef .tc main_arg9) = W (Proc.devRef .tc main_arg9) := by
  after_results_simp
theorem C_arg10 (W : Valuation τ sig (Elt F)) :
    after (opsC (F := F)) W (Proc.devRef .tc main_arg10) = W (Proc.devRef .tc main_arg10) := by
  after_results_simp
theorem C_arg11 (W : Valuation τ sig (Elt F)) :
    after (opsC (F := F)) W (Proc.devRef .tc main_arg11) = W (Proc.devRef .tc main_arg11) := by
  after_results_simp
theorem C_arg12 (W : Valuation τ sig (Elt F)) :
    after (opsC (F := F)) W (Proc.devRef .tc main_arg12) = W (Proc.devRef .tc main_arg12) := by
  after_results_simp
theorem C_v20 (W : Valuation τ sig (Elt F)) :
    after (opsC (F := F)) W (Proc.devRef .tc main_v20) = W (Proc.devRef .tc main_v20) := by
  after_results_simp

/-! ## What each piece writes -/

/-- The first piece leaves the hidden rows at their stage of the arguments. -/
theorem A_v20' (V : Valuation τ sig (Elt F)) :
    after (opsA (F := F)) V (Proc.devRef .tc main_v20) = val_main_v20 (F := F) (V (Proc.devRef .tc main_arg0)) (V (Proc.devRef .tc main_arg2)) (V (Proc.devRef .tc main_arg3)) (V (Proc.devRef .tc main_arg4)) := by
  after_results_simp <;> rfl

/-- The second piece leaves the left gathered rows at their stage, from hidden rows at theirs. -/
theorem B_v29 (W : Valuation τ sig (Elt F)) (x0 : (⟨S100000x256, .f32⟩ : BufTy).Contents (Elt F)) (x1 : (⟨S800000x2, .i32⟩ : BufTy).Contents (Elt F)) (x2 : (⟨S256x128, .f32⟩ : BufTy).Contents (Elt F)) (x3 : (⟨S128, .f32⟩ : BufTy).Contents (Elt F)) (x4 : (⟨S512x128, .f32⟩ : BufTy).Contents (Elt F))
    (h20 : W (Proc.devRef .tc main_v20) = val_main_v20 (F := F) x0 x2 x3 x4) (h1 : W (Proc.devRef .tc main_arg1) = x1) :
    after (opsB (F := F)) W (Proc.devRef .tc main_v29) = val_main_v29 (F := F) x0 x1 x2 x3 x4 := by
  after_results_simp
  rw [h20, h1]
  rfl

/-- The same for the right gathered rows. -/
theorem B_v38 (W : Valuation τ sig (Elt F)) (x0 : (⟨S100000x256, .f32⟩ : BufTy).Contents (Elt F)) (x1 : (⟨S800000x2, .i32⟩ : BufTy).Contents (Elt F)) (x2 : (⟨S256x128, .f32⟩ : BufTy).Contents (Elt F)) (x3 : (⟨S128, .f32⟩ : BufTy).Contents (Elt F)) (x4 : (⟨S512x128, .f32⟩ : BufTy).Contents (Elt F))
    (h20 : W (Proc.devRef .tc main_v20) = val_main_v20 (F := F) x0 x2 x3 x4) (h1 : W (Proc.devRef .tc main_arg1) = x1) :
    after (opsB (F := F)) W (Proc.devRef .tc main_v38) = val_main_v38 (F := F) x0 x1 x2 x3 x4 := by
  after_results_simp
  rw [h20, h1]
  rfl

/-- The joining operation leaves the joined rows at their stage, from gathered rows at theirs. -/
theorem J_v39 (W : Valuation τ sig (Elt F)) (x0 : (⟨S100000x256, .f32⟩ : BufTy).Contents (Elt F)) (x1 : (⟨S800000x2, .i32⟩ : BufTy).Contents (Elt F)) (x2 : (⟨S256x128, .f32⟩ : BufTy).Contents (Elt F)) (x3 : (⟨S128, .f32⟩ : BufTy).Contents (Elt F)) (x4 : (⟨S512x128, .f32⟩ : BufTy).Contents (Elt F))
    (h29 : W (Proc.devRef .tc main_v29) = val_main_v29 (F := F) x0 x1 x2 x3 x4) (h38 : W (Proc.devRef .tc main_v38) = val_main_v38 (F := F) x0 x1 x2 x3 x4) :
    after (opsJ (F := F)) W (Proc.devRef .tc main_v39) = val_main_v39 (F := F) x0 x1 x2 x3 x4 := by
  have e : after (opsJ (F := F)) W (Proc.devRef .tc main_v39)
      = concatenate S800000x256 1 [⟨S800000x128, W (Proc.devRef .tc main_v29)⟩, ⟨S800000x128, W (Proc.devRef .tc main_v38)⟩]
          concatenates_S800000x128_S800000x128_S800000x256_d1 := by
    after_results_simp
  exact e.trans (cat_congr (α := Elt F .f32) (t := S800000x256) (s := S800000x128) 1
    concatenates_S800000x128_S800000x128_S800000x256_d1 h29 h38)

/-- The last piece leaves the first head at its stage, from joined rows at theirs. -/
theorem C_v44 (W : Valuation τ sig (Elt F)) (x0 : (⟨S100000x256, .f32⟩ : BufTy).Contents (Elt F)) (x1 : (⟨S800000x2, .i32⟩ : BufTy).Contents (Elt F)) (x2 : (⟨S256x128, .f32⟩ : BufTy).Contents (Elt F)) (x3 : (⟨S128, .f32⟩ : BufTy).Contents (Elt F)) (x4 : (⟨S512x128, .f32⟩ : BufTy).Contents (Elt F)) (w : (⟨S256x1, .f32⟩ : BufTy).Contents (Elt F)) (b : (⟨S1, .f32⟩ : BufTy).Contents (Elt F))
    (h39 : W (Proc.devRef .tc main_v39) = val_main_v39 (F := F) x0 x1 x2 x3 x4) (hw : W (Proc.devRef .tc main_arg5) = w) (hb : W (Proc.devRef .tc main_arg6) = b) :
    after (opsC (F := F)) W (Proc.devRef .tc main_v44) = val_main_v44 (F := F) x0 x1 x2 x3 x4 w b := by
  after_results_simp
  rw [h39, hw, hb]
  rfl

/-- The same for the second head. -/
theorem C_v49 (W : Valuation τ sig (Elt F)) (x0 : (⟨S100000x256, .f32⟩ : BufTy).Contents (Elt F)) (x1 : (⟨S800000x2, .i32⟩ : BufTy).Contents (Elt F)) (x2 : (⟨S256x128, .f32⟩ : BufTy).Contents (Elt F)) (x3 : (⟨S128, .f32⟩ : BufTy).Contents (Elt F)) (x4 : (⟨S512x128, .f32⟩ : BufTy).Contents (Elt F)) (w : (⟨S256x1, .f32⟩ : BufTy).Contents (Elt F)) (b : (⟨S1, .f32⟩ : BufTy).Contents (Elt F))
    (h39 : W (Proc.devRef .tc main_v39) = val_main_v39 (F := F) x0 x1 x2 x3 x4) (hw : W (Proc.devRef .tc main_arg7) = w) (hb : W (Proc.devRef .tc main_arg8) = b) :
    after (opsC (F := F)) W (Proc.devRef .tc main_v49) = val_main_v49 (F := F) x0 x1 x2 x3 x4 w b := by
  after_results_simp
  rw [h39, hw, hb]
  rfl

/-- The same for the third head. -/
theorem C_v54 (W : Valuation τ sig (Elt F)) (x0 : (⟨S100000x256, .f32⟩ : BufTy).Contents (Elt F)) (x1 : (⟨S800000x2, .i32⟩ : BufTy).Contents (Elt F)) (x2 : (⟨S256x128, .f32⟩ : BufTy).Contents (Elt F)) (x3 : (⟨S128, .f32⟩ : BufTy).Contents (Elt F)) (x4 : (⟨S512x128, .f32⟩ : BufTy).Contents (Elt F)) (w : (⟨S256x1, .f32⟩ : BufTy).Contents (Elt F)) (b : (⟨S1, .f32⟩ : BufTy).Contents (Elt F))
    (h39 : W (Proc.devRef .tc main_v39) = val_main_v39 (F := F) x0 x1 x2 x3 x4) (hw : W (Proc.devRef .tc main_arg9) = w) (hb : W (Proc.devRef .tc main_arg10) = b) :
    after (opsC (F := F)) W (Proc.devRef .tc main_v54) = val_main_v54 (F := F) x0 x1 x2 x3 x4 w b := by
  after_results_simp
  rw [h39, hw, hb]
  rfl

/-- The last piece leaves the token scores at their stage, from hidden rows at theirs. -/
theorem C_v58 (W : Valuation τ sig (Elt F)) (x0 : (⟨S100000x256, .f32⟩ : BufTy).Contents (Elt F)) (x2 : (⟨S256x128, .f32⟩ : BufTy).Contents (Elt F)) (x3 : (⟨S128, .f32⟩ : BufTy).Contents (Elt F)) (x4 : (⟨S512x128, .f32⟩ : BufTy).Contents (Elt F)) (x11 : (⟨S128x2048, .f32⟩ : BufTy).Contents (Elt F)) (x12 : (⟨S2048, .f32⟩ : BufTy).Contents (Elt F))
    (h20 : W (Proc.devRef .tc main_v20) = val_main_v20 (F := F) x0 x2 x3 x4) (h11 : W (Proc.devRef .tc main_arg11) = x11) (h12 : W (Proc.devRef .tc main_arg12) = x12) :
    after (opsC (F := F)) W (Proc.devRef .tc main_v58) = val_main_v58 (F := F) x0 x2 x3 x4 x11 x12 := by
  after_results_simp
  rw [h20, h11, h12]
  rfl

/-! ## The whole line -/

/-- After the first three pieces the joined rows are at their stage of the arguments. -/
theorem v39_at (V : Valuation τ sig (Elt F)) :
    after (opsJ (F := F)) (after opsB (after opsA V)) (Proc.devRef .tc main_v39)
      = val_main_v39 (F := F) (V (Proc.devRef .tc main_arg0)) (V (Proc.devRef .tc main_arg1)) (V (Proc.devRef .tc main_arg2)) (V (Proc.devRef .tc main_arg3)) (V (Proc.devRef .tc main_arg4)) :=
  J_v39 _ _ _ _ _ _ (B_v29 _ _ _ _ _ _ (A_v20' V) (A_arg1 V)) (B_v38 _ _ _ _ _ _ (A_v20' V) (A_arg1 V))

/-- After the first three pieces the hidden rows are still at their stage of the arguments. -/
theorem v20_at (V : Valuation τ sig (Elt F)) :
    after (opsJ (F := F)) (after opsB (after opsA V)) (Proc.devRef .tc main_v20)
      = val_main_v20 (F := F) (V (Proc.devRef .tc main_arg0)) (V (Proc.devRef .tc main_arg2)) (V (Proc.devRef .tc main_arg3)) (V (Proc.devRef .tc main_arg4)) :=
  (J_v20 _).trans ((B_v20 _).trans (A_v20' V))

theorem fin_v20 (V : Valuation τ sig (Elt F)) :
    after (ops (F := F)) V (Proc.devRef .tc main_v20) = val_main_v20 (F := F) (V (Proc.devRef .tc main_arg0)) (V (Proc.devRef .tc main_arg2)) (V (Proc.devRef .tc main_arg3)) (V (Proc.devRef .tc main_arg4)) := by
  rw [after_ops]
  exact (C_v20 _).trans (v20_at V)

theorem fin_v44 (V : Valuation τ sig (Elt F)) :
    after (ops (F := F)) V (Proc.devRef .tc main_v44)
      = val_main_v44 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [after_ops]
  exact C_v44 _ _ _ _ _ _ _ _ (v39_at V) ((J_arg5 _).trans ((B_arg5 _).trans (A_arg5 V))) ((J_arg6 _).trans ((B_arg6 _).trans (A_arg6 V)))

theorem fin_v49 (V : Valuation τ sig (Elt F)) :
    after (ops (F := F)) V (Proc.devRef .tc main_v49)
      = val_main_v49 (F := F) (V (Proc.devRef .tc main_arg0)) (V (Proc.devRef .tc main_arg1)) (V (Proc.devRef .tc main_arg2)) (V (Proc.devRef .tc main_arg3)) (V (Proc.devRef .tc main_arg4)) (V (Proc.devRef .tc main_arg7)) (V (Proc.devRef .tc main_arg8)) := by
  rw [after_ops]
  exact C_v49 _ _ _ _ _ _ _ _ (v39_at V) ((J_arg7 _).trans ((B_arg7 _).trans (A_arg7 V))) ((J_arg8 _).trans ((B_arg8 _).trans (A_arg8 V)))

theorem fin_v54 (V : Valuation τ sig (Elt F)) :
    after (ops (F := F)) V (Proc.devRef .tc main_v54)
      = val_main_v54 (F := F) (V (Proc.devRef .tc main_arg0)) (V (Proc.devRef .tc main_arg1)) (V (Proc.devRef .tc main_arg2)) (V (Proc.devRef .tc main_arg3)) (V (Proc.devRef .tc main_arg4)) (V (Proc.devRef .tc main_arg9)) (V (Proc.devRef .tc main_arg10)) := by
  rw [after_ops]
  exact C_v54 _ _ _ _ _ _ _ _ (v39_at V) ((J_arg9 _).trans ((B_arg9 _).trans (A_arg9 V))) ((J_arg10 _).trans ((B_arg10 _).trans (A_arg10 V)))

theorem fin_v58 (V : Valuation τ sig (Elt F)) :
    after (ops (F := F)) V (Proc.devRef .tc main_v58)
      = val_main_v58 (F := F) (V (Proc.devRef .tc main_arg0)) (V (Proc.devRef .tc main_arg2)) (V (Proc.devRef .tc main_arg3)) (V (Proc.devRef .tc main_arg4)) (V (Proc.devRef .tc main_arg11)) (V (Proc.devRef .tc main_arg12)) := by
  rw [after_ops]
  exact C_v58 _ _ _ _ _ _ _ (v20_at V) ((J_arg11 _).trans ((B_arg11 _).trans (A_arg11 V))) ((J_arg12 _).trans ((B_arg12 _).trans (A_arg12 V)))

theorem fin_arg0 (V : Valuation τ sig (Elt F)) : after (ops (F := F)) V (Proc.devRef .tc main_arg0) = V (Proc.devRef .tc main_arg0) := by
  rw [after_ops]
  exact (C_arg0 _).trans ((J_arg0 _).trans ((B_arg0 _).trans (A_arg0 V)))
theorem fin_arg1 (V : Valuation τ sig (Elt F)) : after (ops (F := F)) V (Proc.devRef .tc main_arg1) = V (Proc.devRef .tc main_arg1) := by
  rw [after_ops]
  exact (C_arg1 _).trans ((J_arg1 _).trans ((B_arg1 _).trans (A_arg1 V)))
theorem fin_arg2 (V : Valuation τ sig (Elt F)) : after (ops (F := F)) V (Proc.devRef .tc main_arg2) = V (Proc.devRef .tc main_arg2) := by
  rw [after_ops]
  exact (C_arg2 _).trans ((J_arg2 _).trans ((B_arg2 _).trans (A_arg2 V)))
theorem fin_arg3 (V : Valuation τ sig (Elt F)) : after (ops (F := F)) V (Proc.devRef .tc main_arg3) = V (Proc.devRef .tc main_arg3) := by
  rw [after_ops]
  exact (C_arg3 _).trans ((J_arg3 _).trans ((B_arg3 _).trans (A_arg3 V)))
theorem fin_arg4 (V : Valuation τ sig (Elt F)) : after (ops (F := F)) V (Proc.devRef .tc main_arg4) = V (Proc.devRef .tc main_arg4) := by
  rw [after_ops]
  exact (C_arg4 _).trans ((J_arg4 _).trans ((B_arg4 _).trans (A_arg4 V)))
theorem fin_arg5 (V : Valuation τ sig (Elt F)) : after (ops (F := F)) V (Proc.devRef .tc main_arg5) = V (Proc.devRef .tc main_arg5) := by
  rw [after_ops]
  exact (C_arg5 _).trans ((J_arg5 _).trans ((B_arg5 _).trans (A_arg5 V)))
theorem fin_arg6 (V : Valuation τ sig (Elt F)) : after (ops (F := F)) V (Proc.devRef .tc main_arg6) = V (Proc.devRef .tc main_arg6) := by
  rw [after_ops]
  exact (C_arg6 _).trans ((J_arg6 _).trans ((B_arg6 _).trans (A_arg6 V)))
theorem fin_arg7 (V : Valuation τ sig (Elt F)) : after (ops (F := F)) V (Proc.devRef .tc main_arg7) = V (Proc.devRef .tc main_arg7) := by
  rw [after_ops]
  exact (C_arg7 _).trans ((J_arg7 _).trans ((B_arg7 _).trans (A_arg7 V)))
theorem fin_arg8 (V : Valuation τ sig (Elt F)) : after (ops (F := F)) V (Proc.devRef .tc main_arg8) = V (Proc.devRef .tc main_arg8) := by
  rw [after_ops]
  exact (C_arg8 _).trans ((J_arg8 _).trans ((B_arg8 _).trans (A_arg8 V)))
theorem fin_arg9 (V : Valuation τ sig (Elt F)) : after (ops (F := F)) V (Proc.devRef .tc main_arg9) = V (Proc.devRef .tc main_arg9) := by
  rw [after_ops]
  exact (C_arg9 _).trans ((J_arg9 _).trans ((B_arg9 _).trans (A_arg9 V)))
theorem fin_arg10 (V : Valuation τ sig (Elt F)) : after (ops (F := F)) V (Proc.devRef .tc main_arg10) = V (Proc.devRef .tc main_arg10) := by
  rw [after_ops]
  exact (C_arg10 _).trans ((J_arg10 _).trans ((B_arg10 _).trans (A_arg10 V)))
theorem fin_arg11 (V : Valuation τ sig (Elt F)) : after (ops (F := F)) V (Proc.devRef .tc main_arg11) = V (Proc.devRef .tc main_arg11) := by
  rw [after_ops]
  exact (C_arg11 _).trans ((J_arg11 _).trans ((B_arg11 _).trans (A_arg11 V)))
theorem fin_arg12 (V : Valuation τ sig (Elt F)) : after (ops (F := F)) V (Proc.devRef .tc main_arg12) = V (Proc.devRef .tc main_arg12) := by
  rw [after_ops]
  exact (C_arg12 _).trans ((J_arg12 _).trans ((B_arg12 _).trans (A_arg12 V)))

/-- On every device, from any memory with zero counters: every weakly fair execution of the reference program
    terminates with each result at its stage of the arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = val_main_v20 (F := Ideal) (m ((c.tc : Thread nD τ).loc main_arg0)) (m ((c.tc : Thread nD τ).loc main_arg2)) (m ((c.tc : Thread nD τ).loc main_arg3)) (m ((c.tc : Thread nD τ).loc main_arg4))
      ∧ r.2.mem ((c.tc : Thread nD τ).loc main_v44) = val_main_v44 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v49) = val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg7)) (m ((c.tc : Thread nD τ).loc main_arg8))
      ∧ r.2.mem ((c.tc : Thread nD τ).loc main_v54) = val_main_v54 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg9)) (m ((c.tc : Thread nD τ).loc main_arg10))
      ∧ r.2.mem ((c.tc : Thread nD τ).loc main_v58) = val_main_v58 (F := Ideal) (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v20).trans (fin_v20 _),
      (h c main_v44).trans (fin_v44 _),
      (h c main_v49).trans (fin_v49 _),
      (h c main_v54).trans (fin_v54 _),
      (h c main_v58).trans (fin_v58 _),
      (h c main_arg0).trans (fin_arg0 _),
      (h c main_arg1).trans (fin_arg1 _),
      (h c main_arg2).trans (fin_arg2 _),
      (h c main_arg3).trans (fin_arg3 _),
      (h c main_arg4).trans (fin_arg4 _),
      (h c main_arg5).trans (fin_arg5 _),
      (h c main_arg6).trans (fin_arg6 _),
      (h c main_arg7).trans (fin_arg7 _),
      (h c main_arg8).trans (fin_arg8 _),
      (h c main_arg9).trans (fin_arg9 _),
      (h c main_arg10).trans (fin_arg10 _),
      (h c main_arg11).trans (fin_arg11 _),
      (h c main_arg12).trans (fin_arg12 _)⟩)
    (run_seq scopedRefs_eq scopedSems_eq defs main (fun _ => ops) main_eq (fun _ => ops_sub) m ρ)

end Cert.ReferenceIdeal.RunHand

end
-- ==== Proof.lean ====
/-
  The certificate of this kernel: a node encoder with attention over memory slots, a token head and three edge heads.

  The kernel program runs one kernel region over blocks of 1000 nodes, which computes the hidden rows, the token
  scores and, for the three edge heads at once, the products of every node's hidden row with the upper and the lower
  halves of the heads' weight columns; the host lines after the region gather those products at the two nodes of each
  pair and add them and the biases.  The reference gathers the hidden rows of each pair's two nodes, lays them side by
  side and applies each head to the 256 entries.  Over the extended reals the two agree, because a sum of 256 products
  is the sum of its first 128 and its last 128, and every other step is the same operation applied to the same rows.
  The frames say that each program runs to its end without a fault and leaves its argument arrays unchanged; the
  idealized kernel program is the kernel program's own text read over the extended reals, with nothing rewritten.
-/
import proofs.«142331_j455266533874_2_alg».proof.Defs
import proofs.«142331_j455266533874_2_alg».proof.Proof.Gen.Kernel
import proofs.«142331_j455266533874_2_alg».proof.Proof.Gen.KernelIdeal
import proofs.«142331_j455266533874_2_alg».proof.Proof.Gen.ReferenceIdeal
import proofs.«142331_j455266533874_2_alg».proof.Proof.Gen.Pre_finite_inputs
import proofs.«142331_j455266533874_2_alg».proof.Proof.KFrame
import proofs.«142331_j455266533874_2_alg».proof.Proof.Bridge
import proofs.«142331_j455266533874_2_alg».proof.Proof.RefRunHand
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2.2.2.2) (Cert.ReferenceIdeal.RunHand.run m ρ)

/-- Nothing was rewritten between the kernel program and its idealization. -/
theorem preserves : Cert.preserves_Kernel_KernelIdeal := trivial

set_option maxHeartbeats 2000000 in
/-- From memories that agree on the arguments, both idealized programs end with the same five results. -/
theorem algebraic : Cert.algebraic_KernelIdeal_ReferenceIdeal := by
  intro m ρ m' ρ' _ hagree
  refine ⟨_, _, _, _, _, Cert.KernelIdeal.Hand.kernel_run m ρ, ?_⟩
  refine (θ_run Cert.ReferenceIdeal.defs _ _).mono (fun _ h c => ?_) (Cert.ReferenceIdeal.RunHand.run m' ρ')
  obtain ⟨e0, e1, e2, e3, e4, e5, e6, e7, e8, e9, e10, e11, e12⟩ := hagree c
  refine ⟨?_, ?_, ?_, ?_, ?_, (h c).2.2.2.2.2⟩
  · refine ((h c).1).trans ?_
    rw [e0, e2, e3, e4]
    exact Cert.Bridge.hidden_eq _ _ _ _
  · refine ((h c).2.1).trans ?_
    rw [e0, e1, e2, e3, e4, e5, e6]
    exact Cert.Bridge.edge0_eq _ _ _ _ _ _ _ _ _ _ _ (Cert.KernelIdeal.Hand.tailSum m c) (Cert.KernelIdeal.Hand.tailSum_apply m c) _ _
  · refine ((h c).2.2.1).trans ?_
    rw [e0, e1, e2, e3, e4, e7, e8]
    exact Cert.Bridge.edge1_eq _ _ _ _ _ _ _ _ _ _ _ (Cert.KernelIdeal.Hand.tailSum m c) (Cert.KernelIdeal.Hand.tailSum_apply m c) _ _
  · refine ((h c).2.2.2.1).trans ?_
    rw [e0, e1, e2, e3, e4, e9, e10]
    exact Cert.Bridge.edge2_eq _ _ _ _ _ _ _ _ _ _ _ (Cert.KernelIdeal.Hand.tailSum m c) (Cert.KernelIdeal.Hand.tailSum_apply m c) _ _
  · refine ((h c).2.2.2.2.1).trans ?_
    rw [e0, e2, e3, e4, e11, e12]
    exact Cert.Bridge.token_eq _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
